-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x4096 .f32) (main_arg5 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S2048x4096 .f32) (main_arg1 : FVec F S4096x4096 .f32) (main_arg2 : FVec F S4096x4096 .f32) (main_arg3 : FVec F S4096x4096 .f32) (main_arg4 : FVec F S4096x4096 .f32) (main_arg5 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S2048x4096 : Shape := ⟨2, ![2048, 4096]⟩
abbrev S4096x4096 : Shape := ⟨2, ![4096, 4096]⟩
abbrev S4096 : Shape := ⟨1, ![4096]⟩
abbrev S4096x2048 : Shape := ⟨2, ![4096, 2048]⟩
abbrev S1024x256 : Shape := ⟨2, ![1024, 256]⟩
abbrev S2048x256 : Shape := ⟨2, ![2048, 256]⟩
abbrev S1024x2048 : Shape := ⟨2, ![1024, 2048]⟩
abbrev S256x2048 : Shape := ⟨2, ![256, 2048]⟩
abbrev S1x4096 : Shape := ⟨2, ![1, 4096]⟩
abbrev S1x1024 : Shape := ⟨2, ![1, 1024]⟩
abbrev S2048x1024 : Shape := ⟨2, ![2048, 1024]⟩

abbrev nBuf : Space → Nat
  | .hbm => 11
  | .vmem => 30
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096, .f32⟩
  | .hbm, ⟨6, _⟩ => ⟨S4096x2048, .bf16⟩
  | .hbm, ⟨7, _⟩ => ⟨S4096x2048, .bf16⟩
  | .hbm, ⟨8, _⟩ => ⟨S4096x2048, .bf16⟩
  | .hbm, ⟨9, _⟩ => ⟨S1x4096, .f32⟩
  | .hbm, ⟨10, _⟩ => ⟨S2048x4096, .f32⟩
  | .local _ .vmem, ⟨0, _⟩ => ⟨S1024x256, .f32⟩
  | .local _ .vmem, ⟨1, _⟩ => ⟨S1024x256, .f32⟩
  | .local _ .vmem, ⟨2, _⟩ => ⟨S2048x256, .f32⟩
  | .local _ .vmem, ⟨3, _⟩ => ⟨S2048x256, .f32⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | .local _ .vmem, ⟨7, _⟩ => ⟨S1024x256, .f32⟩
  | .local _ .vmem, ⟨8, _⟩ => ⟨S1024x256, .f32⟩
  | .local _ .vmem, ⟨9, _⟩ => ⟨S256x2048, .bf16⟩
  | .local _ .vmem, ⟨10, _⟩ => ⟨S256x2048, .bf16⟩
  | .local _ .vmem, ⟨11, _⟩ => ⟨S1024x2048, .bf16⟩
  | .local _ .vmem, ⟨12, _⟩ => ⟨S1024x2048, .bf16⟩
  | .local _ .vmem, ⟨13, _⟩ => ⟨S1024x2048, .f32⟩
  | .local _ .vmem, ⟨14, _⟩ => ⟨S1024x256, .f32⟩
  | .local _ .vmem, ⟨15, _⟩ => ⟨S1024x256, .f32⟩
  | .local _ .vmem, ⟨16, _⟩ => ⟨S256x2048, .bf16⟩
  | .local _ .vmem, ⟨17, _⟩ => ⟨S256x2048, .bf16⟩
  | .local _ .vmem, ⟨18, _⟩ => ⟨S1024x2048, .bf16⟩
  | .local _ .vmem, ⟨19, _⟩ => ⟨S1024x2048, .bf16⟩
  | .local _ .vmem, ⟨20, _⟩ => ⟨S1024x2048, .f32⟩
  | .local _ .vmem, ⟨21, _⟩ => ⟨S1024x256, .f32⟩
  | .local _ .vmem, ⟨22, _⟩ => ⟨S1024x256, .f32⟩
  | .local _ .vmem, ⟨23, _⟩ => ⟨S256x2048, .bf16⟩
  | .local _ .vmem, ⟨24, _⟩ => ⟨S256x2048, .bf16⟩
  | .local _ .vmem, ⟨25, _⟩ => ⟨S1x1024, .f32⟩
  | .local _ .vmem, ⟨26, _⟩ => ⟨S1x1024, .f32⟩
  | .local _ .vmem, ⟨27, _⟩ => ⟨S2048x1024, .f32⟩
  | .local _ .vmem, ⟨28, _⟩ => ⟨S2048x1024, .f32⟩
  | .local _ .vmem, ⟨29, _⟩ => ⟨S2048x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 16], ![false, false]⟩

def k2_cond2 (i : grid2.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![4, 16], ![false, false]⟩

def k3_cond2 (i : grid3.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S1024x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S256x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S2048x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  packedbf16_S1024x2048_S1024x2048_0_0 : (Rect.unit (s := S1024x2048) ![0, 0] S1024x2048.size inb_S1024x2048_S1024x2048_0_0).PackedRows (EltTy.packing .bf16)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S1024x256_S2048x256_S1024x2048_1_1_0_0_n_n_wf : DotDims.WF S1024x256 S2048x256 S1024x2048 [1] [1] [0] [0] [] []
  dot_S1024x256_S256x2048_S1024x2048_1_0_0_1_n_n_wf : DotDims.WF S1024x256 S256x2048 S1024x2048 [1] [0] [0] [1] [] []
  dot_S256x2048_S1024x256_S2048x1024_0_1_1_0_n_n_wf : DotDims.WF S256x2048 S1024x256 S2048x1024 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x4096.size a
  hwx0_0 : ∀ i : grid0.Coords, EltTy.bits .f32 = 32 ∨ (Rect.block (s := S4096x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x4096.size a
  hwx0_1 : ∀ i : grid0.Coords, EltTy.bits .f32 = 32 ∨ (Rect.block (s := S2048x4096) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S4096x2048.size a
  hwx0_2 : ∀ i : grid0.Coords, EltTy.bits .bf16 = 32 ∨ (Rect.block (s := S4096x2048) S1024x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S4096x4096.size a
  hwx1_0 : ∀ i : grid1.Coords, EltTy.bits .f32 = 32 ∨ (Rect.block (s := S4096x4096) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S4096x2048.size a
  hwx1_1 : ∀ i : grid1.Coords, EltTy.bits .bf16 = 32 ∨ (Rect.block (s := S4096x2048) S256x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S4096x2048.size a
  hwx1_2 : ∀ i : grid1.Coords, EltTy.bits .bf16 = 32 ∨ (Rect.block (s := S4096x2048) S1024x2048.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S4096x4096.size a
  hwx2_0 : ∀ i : grid2.Coords, EltTy.bits .f32 = 32 ∨ (Rect.block (s := S4096x4096) S1024x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x2048.size a ≤ S4096x2048.size a
  hwx2_1 : ∀ i : grid2.Coords, EltTy.bits .bf16 = 32 ∨ (Rect.block (s := S4096x2048) S256x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x2048.size a ≤ S4096x2048.size a
  hwx2_2 : ∀ i : grid2.Coords, EltTy.bits .bf16 = 32 ∨ (Rect.block (s := S4096x2048) S1024x2048.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S4096x4096.size a
  hwx3_0 : ∀ i : grid3.Coords, EltTy.bits .f32 = 32 ∨ (Rect.block (s := S4096x4096) S1024x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x2048.size a ≤ S4096x2048.size a
  hwx3_1 : ∀ i : grid3.Coords, EltTy.bits .bf16 = 32 ∨ (Rect.block (s := S4096x2048) S256x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x4096.size a
  hwx3_2 : ∀ i : grid3.Coords, EltTy.bits .f32 = 32 ∨ (Rect.block (s := S1x4096) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x1024.size a ≤ S2048x4096.size a
  hwx3_3 : ∀ i : grid3.Coords, EltTy.bits .f32 = 32 ∨ (Rect.block (s := S2048x4096) S2048x1024.size (cc3_transform_3 i) (hinb3_3 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf
def dot_S256x2048_S1024x256_S2048x1024_0_1_1_0_n_n : DotDims S256x2048 S1024x256 S2048x1024 where
  lhsContracting := [0]
  rhsContracting := [1]
  lhsNonContracting := [1]
  rhsNonContracting := [0]
  lhsBatch := []
  rhsBatch := []
  wf := dot_S256x2048_S1024x256_S2048x1024_0_1_1_0_n_n_wf

abbrev win0_0 : Pipeline.Window sig grid0 :=
  Pipeline.Window.ofSpec (Memref.whole main_arg4) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg3) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg2) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S256x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_arg1) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S256x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v4) S2048x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S2048x4096 : Shape := ⟨2, ![2048, 4096]⟩
abbrev S4096x4096 : Shape := ⟨2, ![4096, 4096]⟩
abbrev S4096 : Shape := ⟨1, ![4096]⟩
abbrev S4096x2048 : Shape := ⟨2, ![4096, 2048]⟩
abbrev S1x4096 : Shape := ⟨2, ![1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S2048x4096, .f32⟩
  | .hbm, ⟨12, _⟩ => ⟨S1x4096, .f32⟩
  | .hbm, ⟨13, _⟩ => ⟨S2048x4096, .f32⟩
  | .hbm, ⟨14, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  transposes_S2048x4096_S4096x2048_1_0 : S2048x4096.Transposes [1, 0] S4096x2048
  transposes_S4096x2048_S2048x4096_1_0 : S4096x2048.Transposes [1, 0] S2048x4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  dot_S4096x4096_S4096x2048_S4096x2048_1_0_0_1_n_n_wf : DotDims.WF S4096x4096 S4096x2048 S4096x2048 [1] [0] [0] [1] [] []

variable [Facts₀]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.KBlocks.lean ====
/-
  What the four chained kernels hold, point by point, as functions of the arrays each region is entered with.
  Each region walks a 4 × 16 grid: the outer coordinate picks 1024 rows of the weight, the inner one a slab of 256
  contracted coordinates. The accumulator is reset where the inner coordinate is 0, takes the product of the point's
  two blocks at every point, and is written to the output window where the inner coordinate is 15.
-/
import proofs.«116801_j83777632076060_2_alg».proof.Proof.Gen.Kernel.Launch
import proofs.«116801_j83777632076060_2_alg».proof.Proof.Gen.Kernel.Skeleton
import proofs.«116801_j83777632076060_2_alg».proof.Proof.Gen.Kernel.Points

noncomputable section

namespace Cert.Kernel.Hand

open Idealize.ShloMosaic Idealize.ShloMosaic.TcCoe
open Idealize.SL Idealize.SL.Sem
open Cert.Kernel Cert.Kernel.Gen

variable {F : FTy → Type} [FloatOps F]

variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator of region 0 after the body at position `n`: the product of the point's two blocks added to what
    the point before left, or to zero where the inner coordinate starts again (every sixteenth position). -/
def acc0 (c : Dev nD) : (n : ℕ) → n < cfg0.N → Vec F S1024x2048 .f32
  | 0, h => k0_pay2 (iblk0 V c 0 ⟨0, h⟩) (iblk0 V c 1 ⟨0, h⟩) (k0_pay1 (F := F))
  | n + 1, h => k0_pay2 (iblk0 V c 0 ⟨n + 1, h⟩) (iblk0 V c 1 ⟨n + 1, h⟩)
      (if (n + 1) % 16 = 0 then (k0_pay1 (F := F)) else acc0 c n (Nat.lt_of_succ_lt h))

/-- What the body stores into the output window's buffer at a point whose inner coordinate is the last. -/
def out0 (c : Dev nD) (t : Fin cfg0.N) : Vec F S1024x2048 .bf16 :=
  k0_pay3 (acc0 V c t.val t.isLt)

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator of region 1 after the body at position `n`: the product of the point's two blocks added to what
    the point before left, or to zero where the inner coordinate starts again (every sixteenth position). -/
def acc1 (c : Dev nD) : (n : ℕ) → n < cfg1.N → Vec F S1024x2048 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩)
      (if (n + 1) % 16 = 0 then (k1_pay1 (F := F)) else acc1 c n (Nat.lt_of_succ_lt h))

/-- What the body stores into the output window's buffer at a point whose inner coordinate is the last. -/
def out1 (c : Dev nD) (t : Fin cfg1.N) : Vec F S1024x2048 .bf16 :=
  k1_pay3 (acc1 V c t.val t.isLt)

/-! ## Region 2 -/

/-- Window `w`'s block at point `t` of region 2, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator of region 2 after the body at position `n`: the product of the point's two blocks added to what
    the point before left, or to zero where the inner coordinate starts again (every sixteenth position). -/
def acc2 (c : Dev nD) : (n : ℕ) → n < cfg2.N → Vec F S1024x2048 .f32
  | 0, h => k2_pay2 (iblk2 V c 0 ⟨0, h⟩) (iblk2 V c 1 ⟨0, h⟩) (k2_pay1 (F := F))
  | n + 1, h => k2_pay2 (iblk2 V c 0 ⟨n + 1, h⟩) (iblk2 V c 1 ⟨n + 1, h⟩)
      (if (n + 1) % 16 = 0 then (k2_pay1 (F := F)) else acc2 c n (Nat.lt_of_succ_lt h))

/-- What the body stores into the output window's buffer at a point whose inner coordinate is the last. -/
def out2 (c : Dev nD) (t : Fin cfg2.N) : Vec F S1024x2048 .bf16 :=
  k2_pay3 (acc2 V c t.val t.isLt)

/-! ## Region 3 -/

/-- Window `w`'s block at point `t` of region 3, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator of region 3 after the body at position `n`: the product of the point's two blocks added to what
    the point before left, or to zero where the inner coordinate starts again (every sixteenth position). -/
def acc3 (c : Dev nD) : (n : ℕ) → n < cfg3.N → Vec F S2048x1024 .f32
  | 0, h => k3_pay2 (iblk3 V c 0 ⟨0, h⟩) (iblk3 V c 1 ⟨0, h⟩) (k3_pay1 (F := F))
  | n + 1, h => k3_pay2 (iblk3 V c 0 ⟨n + 1, h⟩) (iblk3 V c 1 ⟨n + 1, h⟩)
      (if (n + 1) % 16 = 0 then (k3_pay1 (F := F)) else acc3 c n (Nat.lt_of_succ_lt h))

/-- What the body stores into the output window's buffer at a point whose inner coordinate is the last. -/
def out3 (c : Dev nD) (t : Fin cfg3.N) : Vec F S2048x1024 .f32 :=
  k3_pay3 (iblk3 V c 2 t) (acc3 V c t.val t.isLt)

end Cert.Kernel.Hand

end
-- ==== Proof.KBody0.lean ====
/-
  The body of kernel 0 on whole staging buffers, in each of the three cases its two conditionals meet on the grid:
  the inner coordinate 0 (the accumulator is zeroed first), strictly between, and 15 (the accumulator is also written
  to the output window). In every case the accumulator ends at the product of the two input blocks added to what it
  held (to zero in the first case); the inputs are left as they were.
-/
import proofs.«116801_j83777632076060_2_alg».proof.Proof.KBlocks
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional of the body: the inner coordinate is 0. -/
abbrev cond0_0 (i : grid0.Coords) : Prop := (Scalar.cmpi .ne (Scalar.extui (Scalar.cmpi .eq (BitVec.ofNat 32 (i 1).val) 0#32)) 0#32) = 1#1
/-- The second conditional of the body: the inner coordinate is 15. -/
abbrev cond0_1 (i : grid0.Coords) : Prop := k0_cond2 i = 1#1

/-- The offsets of every access of these bodies: zero on both axes. -/
theorem hz2_0 : (![0, 0] : Fin 2 → Nat) = fun _ => 0 := by funext a; fin_cases a <;> rfl

set_option maxHeartbeats 1000000 in
theorem run0_A (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x2048 .bf16) (harg4 : arg4.IsWhole) (arg5 : Memref sig .tc .vmem S1024x2048 .f32) (harg5 : arg5.IsWhole)
    (hc0 : cond0_0 i) (hc1 : ¬cond0_1 i)
    (x0 : Vec F S1024x256 .f32) (x1 : Vec F S2048x256 .f32) (xi : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 (k0_pay1 (F := F)))) -∗ K ⟨⟩))
      ⊢ wp frame (wpE (defs₀ (F := F)) Variants.none c none) E (cc0__stage1_kernel i arg2 harg2 arg3 harg3 arg4 harg4 arg5 harg5) K := by
  simp only [cc0__stage1_kernel_eq_skeleton]; unfold cc0__stage1_kernel_skel
  unfold owns
  iintro ⟨⟨%f0, %hf0, H0⟩, ⟨%f1, %hf1, H1⟩, ⟨%fo, %hfo, Ho⟩, ⟨%ds, %fs, -, HS⟩, Hk⟩
  obtain rfl := harg2.eq_unread hf0; obtain rfl := harg3.eq_unread hf1; obtain rfl := harg4.eq_unread hfo
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexists _; isplitr; · ipureintro; exact harg4.read_unread _
    iexact Ho
  iexists _; isplitr
  swap; · iexact HS
  ipureintro
  sl_unfold_run_names
  rw [View.read_writes_eq_canon _ _ _ (fun y => ⟨_, List.mem_cons.mpr (Or.inl rfl), View.mem_set_unit_zero hz2_0 inb_S1024x2048_S1024x2048_0_0 y⟩), View.canon_cons_unit_zero hz2_0]
  simp only [View.readAt_eq_ld, harg2.read_unread, harg3.read_unread, harg4.read_unread, harg5.read_unread, View.ld_unit_zero (S := S1024x256) hz2_0, View.ld_unit_zero (S := S2048x256) hz2_0, View.ld_unit_zero (S := S1024x2048) hz2_0, View.readCov_unit_zero (S := S1024x2048) arg5.view hz2_0]

set_option maxHeartbeats 1000000 in
theorem run0_B (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x2048 .bf16) (harg4 : arg4.IsWhole) (arg5 : Memref sig .tc .vmem S1024x2048 .f32) (harg5 : arg5.IsWhole)
    (hc0 : ¬cond0_0 i) (hc1 : ¬cond0_1 i)
    (x0 : Vec F S1024x256 .f32) (x1 : Vec F S2048x256 .f32) (xi : Vec F S1024x2048 .bf16) (xs : Vec F S1024x2048 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 xs)) -∗ K ⟨⟩))
      ⊢ wp frame (wpE (defs₀ (F := F)) Variants.none c none) E (cc0__stage1_kernel i arg2 harg2 arg3 harg3 arg4 harg4 arg5 harg5) K := by
  simp only [cc0__stage1_kernel_eq_skeleton]; unfold cc0__stage1_kernel_skel
  unfold owns
  iintro ⟨⟨%f0, %hf0, H0⟩, ⟨%f1, %hf1, H1⟩, ⟨%fo, %hfo, Ho⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexists _; isplitr; · ipureintro; exact harg4.read_unread _
    iexact Ho
  iexists _; isplitr
  swap; · iexact HS
  ipureintro
  rw [View.read_writes_eq_canon _ _ _ (fun y => ⟨_, List.mem_singleton_self _, View.mem_set_unit_zero hz2_0 inb_S1024x2048_S1024x2048_0_0 y⟩), View.canon_unit_zero hz2_0]
  simp only [View.readAt_eq_ld, harg2.read_unread, harg3.read_unread, harg4.read_unread, harg5.read_unread, View.ld_unit_zero (S := S1024x256) hz2_0, View.ld_unit_zero (S := S2048x256) hz2_0, View.ld_unit_zero (S := S1024x2048) hz2_0]

set_option maxHeartbeats 1000000 in
theorem run0_C (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x2048 .bf16) (harg4 : arg4.IsWhole) (arg5 : Memref sig .tc .vmem S1024x2048 .f32) (harg5 : arg5.IsWhole)
    (hc0 : ¬cond0_0 i) (hc1 : cond0_1 i)
    (x0 : Vec F S1024x256 .f32) (x1 : Vec F S2048x256 .f32) (xs : Vec F S1024x2048 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay3 (k0_pay2 x0 x1 xs)) ∗ owns (c : Thread nD τ) arg5 fullShare (k0_pay2 x0 x1 xs)) -∗ K ⟨⟩))
      ⊢ wp frame (wpE (defs₀ (F := F)) Variants.none c none) E (cc0__stage1_kernel i arg2 harg2 arg3 harg3 arg4 harg4 arg5 harg5) K := by
  simp only [cc0__stage1_kernel_eq_skeleton]; unfold cc0__stage1_kernel_skel
  unfold owns
  iintro ⟨⟨%f0, %hf0, H0⟩, ⟨%f1, %hf1, H1⟩, ⟨%do_, %fo, -, Ho⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexists _; isplitr
    swap; · iexact Ho
    ipureintro
    sl_unfold_run_names
    rw [View.read_writes_eq_canon _ _ _ (fun y => ⟨_, List.mem_singleton_self _, View.mem_set_unit_zero hz2_0 inb_S1024x2048_S1024x2048_0_0 y⟩), View.canon_unit_zero hz2_0]
    simp only [View.readAt_eq_ld, harg2.read_unread, harg3.read_unread, harg4.read_unread, harg5.read_unread, View.ld_unit_zero (S := S1024x256) hz2_0, View.ld_unit_zero (S := S2048x256) hz2_0, View.ld_unit_zero (S := S1024x2048) hz2_0, View.readCov_unit_zero (S := S1024x2048) arg5.view hz2_0]
  iexists _; isplitr
  swap; · iexact HS
  ipureintro
  sl_unfold_run_names
  rw [View.read_writes_eq_canon _ _ _ (fun y => ⟨_, List.mem_cons.mpr (Or.inl rfl), View.mem_set_unit_zero hz2_0 inb_S1024x2048_S1024x2048_0_0 y⟩), View.canon_cons_unit_zero hz2_0]
  simp only [View.readAt_eq_ld, harg2.read_unread, harg3.read_unread, harg4.read_unread, harg5.read_unread, View.ld_unit_zero (S := S1024x256) hz2_0, View.ld_unit_zero (S := S2048x256) hz2_0, View.ld_unit_zero (S := S1024x2048) hz2_0, View.readCov_unit_zero (S := S1024x2048) arg5.view hz2_0]

end Cert.Kernel.Hand

end
-- ==== Proof.KFrame0.lean ====
/-
  Region 0 as a pipelined loop with a tracked accumulator: the proof data of its pipeline at the arrays the region is
  entered with — every input window's buffer at its block, the output window's at what the last inner point stores,
  the scratch accumulator carried from point to point at `acc0` —, and the body's obligation at every grid point,
  by cases on the inner coordinate (0, strictly between, 15).
-/
import proofs.«116801_j83777632076060_2_alg».proof.Proof.KBody0
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The conditions and the idle points, decided over the grid -/

theorem hcond0_0 : ∀ t : Fin cfg0.N, cond0_0 (grid0.coords t) ↔ t.val % 16 = 0 :=
  (by decide +kernel : ∀ t : Fin grid0.N, cond0_0 (grid0.coords t) ↔ t.val % 16 = 0)
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last inner point the output window is idle and not written back; at it, live. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The staging memrefs at a point, and the scratch -/

abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .bf16 := win0_2.stage (cfg0.slots t 2)
abbrev hs0_2 (t : Fin cfg0.N) : (ms0_2 t).IsWhole := hstage0_2 ((cfg0.slots t 2).cast nbuf0_2)
abbrev scM0 : Memref sig .tc .vmem S1024x2048 .f32 := Memref.whole cc0_scratch0

/-- The core's scoped buffers that are neither a staging buffer of this pipeline nor its scratch, at some contents
    each: carried through the region unopened. -/
abbrev restBut0 (c : Dev nD) : sProp 𝕄 :=
  Pipeline.scopedRestBut (Ix := Unit) (Name := ℕ) (U := UR sig nD τ) (Lvl := ℕ) (Val := Elt F) spec0 c [cc0_scratch0]

/-- The region's entry invariant: the scratch as an owned memref at some contents, the other scoped buffers, the
    generator register at some state. -/
theorem PhiA0_eq (c : Dev nD) :
    (Pipeline.ΦA spec0 c : sProp 𝕄)
      = iprop(iprop((∃ d, owns (c : Thread nD τ) scM0 fullShare d) ∗ restBut0 c) ∗ (∃ r, prngReg c r)) := by
  unfold Pipeline.ΦA
  rw [Pipeline.scopedRest_split_of_list spec0 c [cc0_scratch0] (by decide) (by decide)]
  simp only [scM0, owns_whole]; try rfl

variable (V : (c : Dev nD) → (b : Ref sig .tc) → Buf (Elt F) ((c : Thread nD τ).loc b))

/-! ## The accumulator's recursion, at a point -/

theorem acc0_reset (c : Dev nD) (t : Fin cfg0.N) (h0 : t.val % 16 = 0) :
    acc0 V c t.val t.isLt = k0_pay2 (iblk0 V c 0 t) (iblk0 V c 1 t) (k0_pay1 (F := F)) := by
  obtain ⟨n, hn⟩ := t
  cases n with
  | zero => rfl
  | succ n => dsimp only at h0 ⊢; rw [acc0, if_pos h0]

theorem acc0_step (c : Dev nD) (t : Fin cfg0.N) (h0 : ¬t.val % 16 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h0
  | succ n => dsimp only at h0 ⊢; rw [acc0, if_neg h0]; rfl

/-! ## The invariant and the proof data -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Before the first point the scratch holds anything; after point `n` it holds the accumulator `acc0` there. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ restBut0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ restBut0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ restBut0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 16 = 15
  · have h0 : ¬t.val % 16 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    unfold out0
    rw [acc0_step V c t h0, PhiS0_castSucc V c t, PhiS0_pos V c _ _ hz]
    iintro ⟨⟨⟨HS, Hrb⟩, Hg⟩, Ho, ⟨%d0, H0⟩, ⟨%d1, H1⟩, ⟨%d2, H2⟩⟩
    iapply (run0_C c (grid0.coords t) _ _ _ _ _ _ _ _ (fun h => h0 ((hcond0_0 t).mp h)) ((hcond0_1 t).mpr h1) (iblk0 V c 0 t) (iblk0 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrb Hg]
    · isplitl [HS Hrb]
      · isplitl [HS]; · iexact HS
        iexact Hrb
      iexact Hg
    isplitl [Ho]; · iexact Ho
    isplitl [H0]; · iexact H0
    isplitl [H1]; · iexact H1
    iexact H2
  · rw [Dat.leavesExact_idle (dat0 V c) 2 t (idleAt0_2 t (fun h => h1 ((hcond0_1 t).mp h))) (noFlush0_2 t (fun h => h1 ((hcond0_1 t).mp h)))]
    by_cases h0 : t.val % 16 = 0
    · rw [acc0_reset V c t h0]
      by_cases hz : t.val = 0
      · rw [PhiS0_castSucc V c t, PhiS0_zero V c _ _ hz, PhiA0_eq]
        iintro ⟨⟨⟨HS, Hrb⟩, Hg⟩, Ho, ⟨%d0, H0⟩, ⟨%d1, H1⟩, ⟨%d2, H2⟩⟩
        iapply (run0_A c (grid0.coords t) _ _ _ _ _ _ _ _ ((hcond0_0 t).mpr h0) (fun h => h1 ((hcond0_1 t).mp h)) (iblk0 V c 0 t) (iblk0 V c 1 t) _ Set.univ _)
        isplitl [H0]; · iexact H0
        isplitl [H1]; · iexact H1
        isplitl [H2]; · iexact H2
        isplitl [HS]; · iexact HS
        iintro ⟨H0, H1, H2, HS⟩
        isplitl [HS Hrb Hg]
        · isplitl [HS Hrb]
          · isplitl [HS]; · iexact HS
            iexact Hrb
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS, Hrb⟩, Hg⟩, Ho, ⟨%d0, H0⟩, ⟨%d1, H1⟩, ⟨%d2, H2⟩⟩
        iapply (run0_A c (grid0.coords t) _ _ _ _ _ _ _ _ ((hcond0_0 t).mpr h0) (fun h => h1 ((hcond0_1 t).mp h)) (iblk0 V c 0 t) (iblk0 V c 1 t) _ Set.univ _)
        isplitl [H0]; · iexact H0
        isplitl [H1]; · iexact H1
        isplitl [H2]; · iexact H2
        isplitl [HS]; · iexists _; iexact HS
        iintro ⟨H0, H1, H2, HS⟩
        isplitl [HS Hrb Hg]
        · isplitl [HS Hrb]
          · isplitl [HS]; · iexact HS
            iexact Hrb
          iexact Hg
        isplitl [Ho]; · iexact Ho
        isplitl [H0]; · iexact H0
        isplitl [H1]; · iexact H1
        iexists _; iexact H2
    · have hz : t.val ≠ 0 := fun e => h0 (by rw [e])
      rw [acc0_step V c t h0, PhiS0_castSucc V c t, PhiS0_pos V c _ _ hz]
      iintro ⟨⟨⟨HS, Hrb⟩, Hg⟩, Ho, ⟨%d0, H0⟩, ⟨%d1, H1⟩, ⟨%d2, H2⟩⟩
      iapply (run0_B c (grid0.coords t) _ _ _ _ _ _ _ _ (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hrb Hg]
      · isplitl [HS Hrb]
        · isplitl [HS]; · iexact HS
          iexact Hrb
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After the last point the invariant gives the entry invariant back: the accumulator's contents are forgotten. -/
theorem Phi_out0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS, Hrb⟩, Hg⟩
  isplitl [HS Hrb]
  · isplitl [HS]
    · iexists _; iexact HS
    iexact Hrb
  iexact Hg

end Cert.Kernel.Hand

end
-- ==== Proof.KBody1.lean ====
/-
  The body of kernel 1 on whole staging buffers, in each of the three cases its two conditionals meet on the grid:
  the inner coordinate 0 (the accumulator is zeroed first), strictly between, and 15 (the accumulator is also written
  to the output window). In every case the accumulator ends at the product of the two input blocks added to what it
  held (to zero in the first case); the inputs are left as they were.
-/
import proofs.«116801_j83777632076060_2_alg».proof.Proof.KBlocks
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional of the body: the inner coordinate is 0. -/
abbrev cond1_0 (i : grid1.Coords) : Prop := (Scalar.cmpi .ne (Scalar.extui (Scalar.cmpi .eq (BitVec.ofNat 32 (i 1).val) 0#32)) 0#32) = 1#1
/-- The second conditional of the body: the inner coordinate is 15. -/
abbrev cond1_1 (i : grid1.Coords) : Prop := k1_cond2 i = 1#1

/-- The offsets of every access of these bodies: zero on both axes. -/
theorem hz2_1 : (![0, 0] : Fin 2 → Nat) = fun _ => 0 := by funext a; fin_cases a <;> rfl

set_option maxHeartbeats 1000000 in
theorem run1_A (c : Dev nD) (i : grid1.Coords) (arg2 : Memref sig .tc .vmem S1024x256 .f32) (harg2 : arg2.IsWhole) (arg3 : Memref sig .tc .vmem S256x2048 .bf16) (harg3 : arg3.IsWhole) (arg4 : Memref sig .tc .vmem S1024x2048 .bf16) (harg4 : arg4.IsWhole) (arg5 : Memref sig .tc .vmem S1024x2048 .f32) (harg5 : arg5.IsWhole)
    (hc0 : cond1_0 i) (hc1 : ¬cond1_1 i)
    (x0 : Vec F S1024x256 .f32) (x1 : Vec F S256x2048 .bf16) (xi : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 (k1_pay1 (F := F)))) -∗ K ⟨⟩))
      ⊢ wp frame (wpE (defs₀ (F := F)) Variants.none c none) E (cc1__stage_mid_kernel i arg2 harg2 arg3 harg3 arg4 harg4 arg5 harg5) K := by
  simp only [cc1__stage_mid_kernel_eq_skeleton]; unfold cc1__stage_mid_kernel_skel
  unfold owns
  iintro ⟨⟨%f0, %hf0, H0⟩, ⟨%f1, %hf1, H1⟩, ⟨%fo, %hfo, Ho⟩, ⟨%ds, %fs, -, HS⟩, Hk⟩
  obtain rfl := harg2.eq_unread hf0; obtain rfl := harg3.eq_unread hf1; obtain rfl := harg4.eq_unread hfo
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexists _; isplitr; · ipureintro; exact harg4.read_unread _
    iexact Ho
  iexists _; isplitr
  swap; · iexact HS
  ipureintro
  sl_unfold_run_names
  rw [View.read_writes_eq_canon _ _ _ (fun y => ⟨_, List.mem_cons.mpr (Or.inl rfl), View.mem_set_unit_zero hz2_1 inb_S1024x2048_S1024x2048_0_0 y⟩), View.canon_cons_unit_zero hz2_1]
  simp only [View.readAt_eq_ld, harg2.read_unread, harg3.read_unread, harg4.read_unread, harg5.read_unread, View.ld_unit_zero (S := S1024x256) hz2_1, View.ld_unit_zero (S := S256x2048) hz2_1, View.ld_unit_zero (S := S1024x2048) hz2_1, View.readCov_unit_zero (S := S1024x2048) arg5.view hz2_1]

set_option maxHeartbeats 1000000 in
theorem run1_B (c : Dev nD) (i : grid1.Coords) (arg2 : Memref sig .tc .vmem S1024x256 .f32) (harg2 : arg2.IsWhole) (arg3 : Memref sig .tc .vmem S256x2048 .bf16) (harg3 : arg3.IsWhole) (arg4 : Memref sig .tc .vmem S1024x2048 .bf16) (harg4 : arg4.IsWhole) (arg5 : Memref sig .tc .vmem S1024x2048 .f32) (harg5 : arg5.IsWhole)
    (hc0 : ¬cond1_0 i) (hc1 : ¬cond1_1 i)
    (x0 : Vec F S1024x256 .f32) (x1 : Vec F S256x2048 .bf16) (xi : Vec F S1024x2048 .bf16) (xs : Vec F S1024x2048 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 xs)) -∗ K ⟨⟩))
      ⊢ wp frame (wpE (defs₀ (F := F)) Variants.none c none) E (cc1__stage_mid_kernel i arg2 harg2 arg3 harg3 arg4 harg4 arg5 harg5) K := by
  simp only [cc1__stage_mid_kernel_eq_skeleton]; unfold cc1__stage_mid_kernel_skel
  unfold owns
  iintro ⟨⟨%f0, %hf0, H0⟩, ⟨%f1, %hf1, H1⟩, ⟨%fo, %hfo, Ho⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexists _; isplitr; · ipureintro; exact harg4.read_unread _
    iexact Ho
  iexists _; isplitr
  swap; · iexact HS
  ipureintro
  rw [View.read_writes_eq_canon _ _ _ (fun y => ⟨_, List.mem_singleton_self _, View.mem_set_unit_zero hz2_1 inb_S1024x2048_S1024x2048_0_0 y⟩), View.canon_unit_zero hz2_1]
  simp only [View.readAt_eq_ld, harg2.read_unread, harg3.read_unread, harg4.read_unread, harg5.read_unread, View.ld_unit_zero (S := S1024x256) hz2_1, View.ld_unit_zero (S := S256x2048) hz2_1, View.ld_unit_zero (S := S1024x2048) hz2_1]

set_option maxHeartbeats 1000000 in
theorem run1_C (c : Dev nD) (i : grid1.Coords) (arg2 : Memref sig .tc .vmem S1024x256 .f32) (harg2 : arg2.IsWhole) (arg3 : Memref sig .tc .vmem S256x2048 .bf16) (harg3 : arg3.IsWhole) (arg4 : Memref sig .tc .vmem S1024x2048 .bf16) (harg4 : arg4.IsWhole) (arg5 : Memref sig .tc .vmem S1024x2048 .f32) (harg5 : arg5.IsWhole)
    (hc0 : ¬cond1_0 i) (hc1 : cond1_1 i)
    (x0 : Vec F S1024x256 .f32) (x1 : Vec F S256x2048 .bf16) (xs : Vec F S1024x2048 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay3 (k1_pay2 x0 x1 xs)) ∗ owns (c : Thread nD τ) arg5 fullShare (k1_pay2 x0 x1 xs)) -∗ K ⟨⟩))
      ⊢ wp frame (wpE (defs₀ (F := F)) Variants.none c none) E (cc1__stage_mid_kernel i arg2 harg2 arg3 harg3 arg4 harg4 arg5 harg5) K := by
  simp only [cc1__stage_mid_kernel_eq_skeleton]; unfold cc1__stage_mid_kernel_skel
  unfold owns
  iintro ⟨⟨%f0, %hf0, H0⟩, ⟨%f1, %hf1, H1⟩, ⟨%do_, %fo, -, Ho⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexists _; isplitr
    swap; · iexact Ho
    ipureintro
    sl_unfold_run_names
    rw [View.read_writes_eq_canon _ _ _ (fun y => ⟨_, List.mem_singleton_self _, View.mem_set_unit_zero hz2_1 inb_S1024x2048_S1024x2048_0_0 y⟩), View.canon_unit_zero hz2_1]
    simp only [View.readAt_eq_ld, harg2.read_unread, harg3.read_unread, harg4.read_unread, harg5.read_unread, View.ld_unit_zero (S := S1024x256) hz2_1, View.ld_unit_zero (S := S256x2048) hz2_1, View.ld_unit_zero (S := S1024x2048) hz2_1, View.readCov_unit_zero (S := S1024x2048) arg5.view hz2_1]
  iexists _; isplitr
  swap; · iexact HS
  ipureintro
  sl_unfold_run_names
  rw [View.read_writes_eq_canon _ _ _ (fun y => ⟨_, List.mem_cons.mpr (Or.inl rfl), View.mem_set_unit_zero hz2_1 inb_S1024x2048_S1024x2048_0_0 y⟩), View.canon_cons_unit_zero hz2_1]
  simp only [View.readAt_eq_ld, harg2.read_unread, harg3.read_unread, harg4.read_unread, harg5.read_unread, View.ld_unit_zero (S := S1024x256) hz2_1, View.ld_unit_zero (S := S256x2048) hz2_1, View.ld_unit_zero (S := S1024x2048) hz2_1, View.readCov_unit_zero (S := S1024x2048) arg5.view hz2_1]

end Cert.Kernel.Hand

end
-- ==== Proof.KFrame1.lean ====
/-
  Region 1 as a pipelined loop with a tracked accumulator: the proof data of its pipeline at the arrays the region is
  entered with — every input window's buffer at its block, the output window's at what the last inner point stores,
  the scratch accumulator carried from point to point at `acc1` —, and the body's obligation at every grid point,
  by cases on the inner coordinate (0, strictly between, 15).
-/
import proofs.«116801_j83777632076060_2_alg».proof.Proof.KBody1
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The conditions and the idle points, decided over the grid -/

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last inner point the output window is idle and not written back; at it, live. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The staging memrefs at a point, and the scratch -/

abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x2048 .bf16 := win1_2.stage (cfg1.slots t 2)
abbrev hs1_2 (t : Fin cfg1.N) : (ms1_2 t).IsWhole := hstage1_2 ((cfg1.slots t 2).cast nbuf1_2)
abbrev scM1 : Memref sig .tc .vmem S1024x2048 .f32 := Memref.whole cc1_scratch0

/-- The core's scoped buffers that are neither a staging buffer of this pipeline nor its scratch, at some contents
    each: carried through the region unopened. -/
abbrev restBut1 (c : Dev nD) : sProp 𝕄 :=
  Pipeline.scopedRestBut (Ix := Unit) (Name := ℕ) (U := UR sig nD τ) (Lvl := ℕ) (Val := Elt F) spec1 c [cc1_scratch0]

/-- The region's entry invariant: the scratch as an owned memref at some contents, the other scoped buffers, the
    generator register at some state. -/
theorem PhiA1_eq (c : Dev nD) :
    (Pipeline.ΦA spec1 c : sProp 𝕄)
      = iprop(iprop((∃ d, owns (c : Thread nD τ) scM1 fullShare d) ∗ restBut1 c) ∗ (∃ r, prngReg c r)) := by
  unfold Pipeline.ΦA
  rw [Pipeline.scopedRest_split_of_list spec1 c [cc1_scratch0] (by decide) (by decide)]
  simp only [scM1, owns_whole]; try rfl

variable (V : (c : Dev nD) → (b : Ref sig .tc) → Buf (Elt F) ((c : Thread nD τ).loc b))

/-! ## The accumulator's recursion, at a point -/

theorem acc1_reset (c : Dev nD) (t : Fin cfg1.N) (h0 : t.val % 16 = 0) :
    acc1 V c t.val t.isLt = k1_pay2 (iblk1 V c 0 t) (iblk1 V c 1 t) (k1_pay1 (F := F)) := by
  obtain ⟨n, hn⟩ := t
  cases n with
  | zero => rfl
  | succ n => dsimp only at h0 ⊢; rw [acc1, if_pos h0]

theorem acc1_step (c : Dev nD) (t : Fin cfg1.N) (h0 : ¬t.val % 16 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => dsimp only at h0 ⊢; rw [acc1, if_neg h0]; rfl

/-! ## The invariant and the proof data -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Before the first point the scratch holds anything; after point `n` it holds the accumulator `acc1` there. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ restBut1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn) ∗ restBut1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega)) ∗ restBut1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 16 = 15
  · have h0 : ¬t.val % 16 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    unfold out1
    rw [acc1_step V c t h0, PhiS1_castSucc V c t, PhiS1_pos V c _ _ hz]
    iintro ⟨⟨⟨HS, Hrb⟩, Hg⟩, Ho, ⟨%d0, H0⟩, ⟨%d1, H1⟩, ⟨%d2, H2⟩⟩
    iapply (run1_C c (grid1.coords t) _ _ _ _ _ _ _ _ (fun h => h0 ((hcond1_0 t).mp h)) ((hcond1_1 t).mpr h1) (iblk1 V c 0 t) (iblk1 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrb Hg]
    · isplitl [HS Hrb]
      · isplitl [HS]; · iexact HS
        iexact Hrb
      iexact Hg
    isplitl [Ho]; · iexact Ho
    isplitl [H0]; · iexact H0
    isplitl [H1]; · iexact H1
    iexact H2
  · rw [Dat.leavesExact_idle (dat1 V c) 2 t (idleAt1_2 t (fun h => h1 ((hcond1_1 t).mp h))) (noFlush1_2 t (fun h => h1 ((hcond1_1 t).mp h)))]
    by_cases h0 : t.val % 16 = 0
    · rw [acc1_reset V c t h0]
      by_cases hz : t.val = 0
      · rw [PhiS1_castSucc V c t, PhiS1_zero V c _ _ hz, PhiA1_eq]
        iintro ⟨⟨⟨HS, Hrb⟩, Hg⟩, Ho, ⟨%d0, H0⟩, ⟨%d1, H1⟩, ⟨%d2, H2⟩⟩
        iapply (run1_A c (grid1.coords t) _ _ _ _ _ _ _ _ ((hcond1_0 t).mpr h0) (fun h => h1 ((hcond1_1 t).mp h)) (iblk1 V c 0 t) (iblk1 V c 1 t) _ Set.univ _)
        isplitl [H0]; · iexact H0
        isplitl [H1]; · iexact H1
        isplitl [H2]; · iexact H2
        isplitl [HS]; · iexact HS
        iintro ⟨H0, H1, H2, HS⟩
        isplitl [HS Hrb Hg]
        · isplitl [HS Hrb]
          · isplitl [HS]; · iexact HS
            iexact Hrb
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS, Hrb⟩, Hg⟩, Ho, ⟨%d0, H0⟩, ⟨%d1, H1⟩, ⟨%d2, H2⟩⟩
        iapply (run1_A c (grid1.coords t) _ _ _ _ _ _ _ _ ((hcond1_0 t).mpr h0) (fun h => h1 ((hcond1_1 t).mp h)) (iblk1 V c 0 t) (iblk1 V c 1 t) _ Set.univ _)
        isplitl [H0]; · iexact H0
        isplitl [H1]; · iexact H1
        isplitl [H2]; · iexact H2
        isplitl [HS]; · iexists _; iexact HS
        iintro ⟨H0, H1, H2, HS⟩
        isplitl [HS Hrb Hg]
        · isplitl [HS Hrb]
          · isplitl [HS]; · iexact HS
            iexact Hrb
          iexact Hg
        isplitl [Ho]; · iexact Ho
        isplitl [H0]; · iexact H0
        isplitl [H1]; · iexact H1
        iexists _; iexact H2
    · have hz : t.val ≠ 0 := fun e => h0 (by rw [e])
      rw [acc1_step V c t h0, PhiS1_castSucc V c t, PhiS1_pos V c _ _ hz]
      iintro ⟨⟨⟨HS, Hrb⟩, Hg⟩, Ho, ⟨%d0, H0⟩, ⟨%d1, H1⟩, ⟨%d2, H2⟩⟩
      iapply (run1_B c (grid1.coords t) _ _ _ _ _ _ _ _ (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hrb Hg]
      · isplitl [HS Hrb]
        · isplitl [HS]; · iexact HS
          iexact Hrb
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After the last point the invariant gives the entry invariant back: the accumulator's contents are forgotten. -/
theorem Phi_out1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, Hrb⟩, Hg⟩
  isplitl [HS Hrb]
  · isplitl [HS]
    · iexists _; iexact HS
    iexact Hrb
  iexact Hg

end Cert.Kernel.Hand

end
-- ==== Proof.KBody2.lean ====
/-
  The body of kernel 2 on whole staging buffers, in each of the three cases its two conditionals meet on the grid:
  the inner coordinate 0 (the accumulator is zeroed first), strictly between, and 15 (the accumulator is also written
  to the output window). In every case the accumulator ends at the product of the two input blocks added to what it
  held (to zero in the first case); the inputs are left as they were.
-/
import proofs.«116801_j83777632076060_2_alg».proof.Proof.KBlocks
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional of the body: the inner coordinate is 0. -/
abbrev cond2_0 (i : grid2.Coords) : Prop := (Scalar.cmpi .ne (Scalar.extui (Scalar.cmpi .eq (BitVec.ofNat 32 (i 1).val) 0#32)) 0#32) = 1#1
/-- The second conditional of the body: the inner coordinate is 15. -/
abbrev cond2_1 (i : grid2.Coords) : Prop := k2_cond2 i = 1#1

/-- The offsets of every access of these bodies: zero on both axes. -/
theorem hz2_2 : (![0, 0] : Fin 2 → Nat) = fun _ => 0 := by funext a; fin_cases a <;> rfl

set_option maxHeartbeats 1000000 in
theorem run2_A (c : Dev nD) (i : grid2.Coords) (arg2 : Memref sig .tc .vmem S1024x256 .f32) (harg2 : arg2.IsWhole) (arg3 : Memref sig .tc .vmem S256x2048 .bf16) (harg3 : arg3.IsWhole) (arg4 : Memref sig .tc .vmem S1024x2048 .bf16) (harg4 : arg4.IsWhole) (arg5 : Memref sig .tc .vmem S1024x2048 .f32) (harg5 : arg5.IsWhole)
    (hc0 : cond2_0 i) (hc1 : ¬cond2_1 i)
    (x0 : Vec F S1024x256 .f32) (x1 : Vec F S256x2048 .bf16) (xi : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k2_pay2 x0 x1 (k2_pay1 (F := F)))) -∗ K ⟨⟩))
      ⊢ wp frame (wpE (defs₀ (F := F)) Variants.none c none) E (cc2__stage_mid_kernel i arg2 harg2 arg3 harg3 arg4 harg4 arg5 harg5) K := by
  simp only [cc2__stage_mid_kernel_eq_skeleton]; unfold cc2__stage_mid_kernel_skel
  unfold owns
  iintro ⟨⟨%f0, %hf0, H0⟩, ⟨%f1, %hf1, H1⟩, ⟨%fo, %hfo, Ho⟩, ⟨%ds, %fs, -, HS⟩, Hk⟩
  obtain rfl := harg2.eq_unread hf0; obtain rfl := harg3.eq_unread hf1; obtain rfl := harg4.eq_unread hfo
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexists _; isplitr; · ipureintro; exact harg4.read_unread _
    iexact Ho
  iexists _; isplitr
  swap; · iexact HS
  ipureintro
  sl_unfold_run_names
  rw [View.read_writes_eq_canon _ _ _ (fun y => ⟨_, List.mem_cons.mpr (Or.inl rfl), View.mem_set_unit_zero hz2_2 inb_S1024x2048_S1024x2048_0_0 y⟩), View.canon_cons_unit_zero hz2_2]
  simp only [View.readAt_eq_ld, harg2.read_unread, harg3.read_unread, harg4.read_unread, harg5.read_unread, View.ld_unit_zero (S := S1024x256) hz2_2, View.ld_unit_zero (S := S256x2048) hz2_2, View.ld_unit_zero (S := S1024x2048) hz2_2, View.readCov_unit_zero (S := S1024x2048) arg5.view hz2_2]

set_option maxHeartbeats 1000000 in
theorem run2_B (c : Dev nD) (i : grid2.Coords) (arg2 : Memref sig .tc .vmem S1024x256 .f32) (harg2 : arg2.IsWhole) (arg3 : Memref sig .tc .vmem S256x2048 .bf16) (harg3 : arg3.IsWhole) (arg4 : Memref sig .tc .vmem S1024x2048 .bf16) (harg4 : arg4.IsWhole) (arg5 : Memref sig .tc .vmem S1024x2048 .f32) (harg5 : arg5.IsWhole)
    (hc0 : ¬cond2_0 i) (hc1 : ¬cond2_1 i)
    (x0 : Vec F S1024x256 .f32) (x1 : Vec F S256x2048 .bf16) (xi : Vec F S1024x2048 .bf16) (xs : Vec F S1024x2048 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k2_pay2 x0 x1 xs)) -∗ K ⟨⟩))
      ⊢ wp frame (wpE (defs₀ (F := F)) Variants.none c none) E (cc2__stage_mid_kernel i arg2 harg2 arg3 harg3 arg4 harg4 arg5 harg5) K := by
  simp only [cc2__stage_mid_kernel_eq_skeleton]; unfold cc2__stage_mid_kernel_skel
  unfold owns
  iintro ⟨⟨%f0, %hf0, H0⟩, ⟨%f1, %hf1, H1⟩, ⟨%fo, %hfo, Ho⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexists _; isplitr; · ipureintro; exact harg4.read_unread _
    iexact Ho
  iexists _; isplitr
  swap; · iexact HS
  ipureintro
  rw [View.read_writes_eq_canon _ _ _ (fun y => ⟨_, List.mem_singleton_self _, View.mem_set_unit_zero hz2_2 inb_S1024x2048_S1024x2048_0_0 y⟩), View.canon_unit_zero hz2_2]
  simp only [View.readAt_eq_ld, harg2.read_unread, harg3.read_unread, harg4.read_unread, harg5.read_unread, View.ld_unit_zero (S := S1024x256) hz2_2, View.ld_unit_zero (S := S256x2048) hz2_2, View.ld_unit_zero (S := S1024x2048) hz2_2]

set_option maxHeartbeats 1000000 in
theorem run2_C (c : Dev nD) (i : grid2.Coords) (arg2 : Memref sig .tc .vmem S1024x256 .f32) (harg2 : arg2.IsWhole) (arg3 : Memref sig .tc .vmem S256x2048 .bf16) (harg3 : arg3.IsWhole) (arg4 : Memref sig .tc .vmem S1024x2048 .bf16) (harg4 : arg4.IsWhole) (arg5 : Memref sig .tc .vmem S1024x2048 .f32) (harg5 : arg5.IsWhole)
    (hc0 : ¬cond2_0 i) (hc1 : cond2_1 i)
    (x0 : Vec F S1024x256 .f32) (x1 : Vec F S256x2048 .bf16) (xs : Vec F S1024x2048 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k2_pay3 (k2_pay2 x0 x1 xs)) ∗ owns (c : Thread nD τ) arg5 fullShare (k2_pay2 x0 x1 xs)) -∗ K ⟨⟩))
      ⊢ wp frame (wpE (defs₀ (F := F)) Variants.none c none) E (cc2__stage_mid_kernel i arg2 harg2 arg3 harg3 arg4 harg4 arg5 harg5) K := by
  simp only [cc2__stage_mid_kernel_eq_skeleton]; unfold cc2__stage_mid_kernel_skel
  unfold owns
  iintro ⟨⟨%f0, %hf0, H0⟩, ⟨%f1, %hf1, H1⟩, ⟨%do_, %fo, -, Ho⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexists _; isplitr
    swap; · iexact Ho
    ipureintro
    sl_unfold_run_names
    rw [View.read_writes_eq_canon _ _ _ (fun y => ⟨_, List.mem_singleton_self _, View.mem_set_unit_zero hz2_2 inb_S1024x2048_S1024x2048_0_0 y⟩), View.canon_unit_zero hz2_2]
    simp only [View.readAt_eq_ld, harg2.read_unread, harg3.read_unread, harg4.read_unread, harg5.read_unread, View.ld_unit_zero (S := S1024x256) hz2_2, View.ld_unit_zero (S := S256x2048) hz2_2, View.ld_unit_zero (S := S1024x2048) hz2_2, View.readCov_unit_zero (S := S1024x2048) arg5.view hz2_2]
  iexists _; isplitr
  swap; · iexact HS
  ipureintro
  sl_unfold_run_names
  rw [View.read_writes_eq_canon _ _ _ (fun y => ⟨_, List.mem_cons.mpr (Or.inl rfl), View.mem_set_unit_zero hz2_2 inb_S1024x2048_S1024x2048_0_0 y⟩), View.canon_cons_unit_zero hz2_2]
  simp only [View.readAt_eq_ld, harg2.read_unread, harg3.read_unread, harg4.read_unread, harg5.read_unread, View.ld_unit_zero (S := S1024x256) hz2_2, View.ld_unit_zero (S := S256x2048) hz2_2, View.ld_unit_zero (S := S1024x2048) hz2_2, View.readCov_unit_zero (S := S1024x2048) arg5.view hz2_2]

end Cert.Kernel.Hand

end
-- ==== Proof.KFrame2.lean ====
/-
  Region 2 as a pipelined loop with a tracked accumulator: the proof data of its pipeline at the arrays the region is
  entered with — every input window's buffer at its block, the output window's at what the last inner point stores,
  the scratch accumulator carried from point to point at `acc2` —, and the body's obligation at every grid point,
  by cases on the inner coordinate (0, strictly between, 15).
-/
import proofs.«116801_j83777632076060_2_alg».proof.Proof.KBody2
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The conditions and the idle points, decided over the grid -/

theorem hcond2_0 : ∀ t : Fin cfg2.N, cond2_0 (grid2.coords t) ↔ t.val % 16 = 0 :=
  (by decide +kernel : ∀ t : Fin grid2.N, cond2_0 (grid2.coords t) ↔ t.val % 16 = 0)
theorem hcond2_1 : ∀ t : Fin cfg2.N, cond2_1 (grid2.coords t) ↔ t.val % 16 = 15 :=
  (by decide +kernel : ∀ t : Fin grid2.N, cond2_1 (grid2.coords t) ↔ t.val % 16 = 15)

theorem liveAt2_0 : ∀ t : Fin cfg2.N, cfg2.idle 0 (grid2.coords t) = false := by decide +kernel
theorem liveAt2_1 : ∀ t : Fin cfg2.N, cfg2.idle 1 (grid2.coords t) = false := by decide +kernel
/-- Away from the last inner point the output window is idle and not written back; at it, live. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-! ## The staging memrefs at a point, and the scratch -/

abbrev ms2_0 (t : Fin cfg2.N) : Memref sig .tc .vmem S1024x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x2048 .bf16 := win2_2.stage (cfg2.slots t 2)
abbrev hs2_2 (t : Fin cfg2.N) : (ms2_2 t).IsWhole := hstage2_2 ((cfg2.slots t 2).cast nbuf2_2)
abbrev scM2 : Memref sig .tc .vmem S1024x2048 .f32 := Memref.whole cc2_scratch0

/-- The core's scoped buffers that are neither a staging buffer of this pipeline nor its scratch, at some contents
    each: carried through the region unopened. -/
abbrev restBut2 (c : Dev nD) : sProp 𝕄 :=
  Pipeline.scopedRestBut (Ix := Unit) (Name := ℕ) (U := UR sig nD τ) (Lvl := ℕ) (Val := Elt F) spec2 c [cc2_scratch0]

/-- The region's entry invariant: the scratch as an owned memref at some contents, the other scoped buffers, the
    generator register at some state. -/
theorem PhiA2_eq (c : Dev nD) :
    (Pipeline.ΦA spec2 c : sProp 𝕄)
      = iprop(iprop((∃ d, owns (c : Thread nD τ) scM2 fullShare d) ∗ restBut2 c) ∗ (∃ r, prngReg c r)) := by
  unfold Pipeline.ΦA
  rw [Pipeline.scopedRest_split_of_list spec2 c [cc2_scratch0] (by decide) (by decide)]
  simp only [scM2, owns_whole]; try rfl

variable (V : (c : Dev nD) → (b : Ref sig .tc) → Buf (Elt F) ((c : Thread nD τ).loc b))

/-! ## The accumulator's recursion, at a point -/

theorem acc2_reset (c : Dev nD) (t : Fin cfg2.N) (h0 : t.val % 16 = 0) :
    acc2 V c t.val t.isLt = k2_pay2 (iblk2 V c 0 t) (iblk2 V c 1 t) (k2_pay1 (F := F)) := by
  obtain ⟨n, hn⟩ := t
  cases n with
  | zero => rfl
  | succ n => dsimp only at h0 ⊢; rw [acc2, if_pos h0]

theorem acc2_step (c : Dev nD) (t : Fin cfg2.N) (h0 : ¬t.val % 16 = 0) :
    acc2 V c t.val t.isLt = k2_pay2 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h0
  | succ n => dsimp only at h0 ⊢; rw [acc2, if_neg h0]; rfl

/-! ## The invariant and the proof data -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Before the first point the scratch holds anything; after point `n` it holds the accumulator `acc2` there. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ restBut2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare (acc2 V c n hn) ∗ restBut2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare (acc2 V c (n - 1) (by omega)) ∗ restBut2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h1 : t.val % 16 = 15
  · have h0 : ¬t.val % 16 = 0 := by omega
    have hz : t.val ≠ 0 := by omega
    rw [show (dat2 V c).leavesExact 2 t = owns (c : Thread nD τ) (ms2_2 t) fullShare ((dat2 V c).after 2 t) from by
      unfold Dat.leavesExact; rw [liveAt2_2 t ((hcond2_1 t).mpr h1)], after2_2]
    unfold out2
    rw [acc2_step V c t h0, PhiS2_castSucc V c t, PhiS2_pos V c _ _ hz]
    iintro ⟨⟨⟨HS, Hrb⟩, Hg⟩, Ho, ⟨%d0, H0⟩, ⟨%d1, H1⟩, ⟨%d2, H2⟩⟩
    iapply (run2_C c (grid2.coords t) _ _ _ _ _ _ _ _ (fun h => h0 ((hcond2_0 t).mp h)) ((hcond2_1 t).mpr h1) (iblk2 V c 0 t) (iblk2 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrb Hg]
    · isplitl [HS Hrb]
      · isplitl [HS]; · iexact HS
        iexact Hrb
      iexact Hg
    isplitl [Ho]; · iexact Ho
    isplitl [H0]; · iexact H0
    isplitl [H1]; · iexact H1
    iexact H2
  · rw [Dat.leavesExact_idle (dat2 V c) 2 t (idleAt2_2 t (fun h => h1 ((hcond2_1 t).mp h))) (noFlush2_2 t (fun h => h1 ((hcond2_1 t).mp h)))]
    by_cases h0 : t.val % 16 = 0
    · rw [acc2_reset V c t h0]
      by_cases hz : t.val = 0
      · rw [PhiS2_castSucc V c t, PhiS2_zero V c _ _ hz, PhiA2_eq]
        iintro ⟨⟨⟨HS, Hrb⟩, Hg⟩, Ho, ⟨%d0, H0⟩, ⟨%d1, H1⟩, ⟨%d2, H2⟩⟩
        iapply (run2_A c (grid2.coords t) _ _ _ _ _ _ _ _ ((hcond2_0 t).mpr h0) (fun h => h1 ((hcond2_1 t).mp h)) (iblk2 V c 0 t) (iblk2 V c 1 t) _ Set.univ _)
        isplitl [H0]; · iexact H0
        isplitl [H1]; · iexact H1
        isplitl [H2]; · iexact H2
        isplitl [HS]; · iexact HS
        iintro ⟨H0, H1, H2, HS⟩
        isplitl [HS Hrb Hg]
        · isplitl [HS Hrb]
          · isplitl [HS]; · iexact HS
            iexact Hrb
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS, Hrb⟩, Hg⟩, Ho, ⟨%d0, H0⟩, ⟨%d1, H1⟩, ⟨%d2, H2⟩⟩
        iapply (run2_A c (grid2.coords t) _ _ _ _ _ _ _ _ ((hcond2_0 t).mpr h0) (fun h => h1 ((hcond2_1 t).mp h)) (iblk2 V c 0 t) (iblk2 V c 1 t) _ Set.univ _)
        isplitl [H0]; · iexact H0
        isplitl [H1]; · iexact H1
        isplitl [H2]; · iexact H2
        isplitl [HS]; · iexists _; iexact HS
        iintro ⟨H0, H1, H2, HS⟩
        isplitl [HS Hrb Hg]
        · isplitl [HS Hrb]
          · isplitl [HS]; · iexact HS
            iexact Hrb
          iexact Hg
        isplitl [Ho]; · iexact Ho
        isplitl [H0]; · iexact H0
        isplitl [H1]; · iexact H1
        iexists _; iexact H2
    · have hz : t.val ≠ 0 := fun e => h0 (by rw [e])
      rw [acc2_step V c t h0, PhiS2_castSucc V c t, PhiS2_pos V c _ _ hz]
      iintro ⟨⟨⟨HS, Hrb⟩, Hg⟩, Ho, ⟨%d0, H0⟩, ⟨%d1, H1⟩, ⟨%d2, H2⟩⟩
      iapply (run2_B c (grid2.coords t) _ _ _ _ _ _ _ _ (fun h => h0 ((hcond2_0 t).mp h)) (fun h => h1 ((hcond2_1 t).mp h)) (iblk2 V c 0 t) (iblk2 V c 1 t) _ _ Set.univ _)
      isplitl [H0]; · iexact H0
      isplitl [H1]; · iexact H1
      isplitl [H2]; · iexact H2
      isplitl [HS]; · iexact HS
      iintro ⟨H0, H1, H2, HS⟩
      isplitl [HS Hrb Hg]
      · isplitl [HS Hrb]
        · isplitl [HS]; · iexact HS
          iexact Hrb
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- After the last point the invariant gives the entry invariant back: the accumulator's contents are forgotten. -/
theorem Phi_out2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨HS, Hrb⟩, Hg⟩
  isplitl [HS Hrb]
  · isplitl [HS]
    · iexists _; iexact HS
    iexact Hrb
  iexact Hg

end Cert.Kernel.Hand

end
-- ==== Proof.KBody3.lean ====
/-
  The body of kernel 3 on whole staging buffers, in each of the three cases its two conditionals meet on the grid:
  the inner coordinate 0 (the accumulator is zeroed first), strictly between, and 15 (the accumulator is also written
  to the output window). In every case the accumulator ends at the product of the two input blocks added to what it
  held (to zero in the first case); the inputs are left as they were.
-/
import proofs.«116801_j83777632076060_2_alg».proof.Proof.KBlocks
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional of the body: the inner coordinate is 0. -/
abbrev cond3_0 (i : grid3.Coords) : Prop := (Scalar.cmpi .ne (Scalar.extui (Scalar.cmpi .eq (BitVec.ofNat 32 (i 1).val) 0#32)) 0#32) = 1#1
/-- The second conditional of the body: the inner coordinate is 15. -/
abbrev cond3_1 (i : grid3.Coords) : Prop := k3_cond2 i = 1#1

/-- The offsets of every access of these bodies: zero on both axes. -/
theorem hz2_3 : (![0, 0] : Fin 2 → Nat) = fun _ => 0 := by funext a; fin_cases a <;> rfl

set_option maxHeartbeats 1000000 in
theorem run3_A (c : Dev nD) (i : grid3.Coords) (arg2 : Memref sig .tc .vmem S1024x256 .f32) (harg2 : arg2.IsWhole) (arg3 : Memref sig .tc .vmem S256x2048 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole)
    (hc0 : cond3_0 i) (hc1 : ¬cond3_1 i)
    (x0 : Vec F S1024x256 .f32) (x1 : Vec F S256x2048 .bf16) (x2 : Vec F S1x1024 .f32) (xi : Vec F S2048x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare (k3_pay2 x0 x1 (k3_pay1 (F := F)))) -∗ K ⟨⟩))
      ⊢ wp frame (wpE (defs₀ (F := F)) Variants.none c none) E (cc3__stage_last_kernel i arg2 harg2 arg3 harg3 arg4 harg4 arg5 harg5 arg6 harg6) K := by
  simp only [cc3__stage_last_kernel_eq_skeleton]; unfold cc3__stage_last_kernel_skel
  unfold owns
  iintro ⟨⟨%f0, %hf0, H0⟩, ⟨%f1, %hf1, H1⟩, ⟨%f2, %hf2, H2⟩, ⟨%fo, %hfo, Ho⟩, ⟨%ds, %fs, -, HS⟩, Hk⟩
  obtain rfl := harg2.eq_unread hf0; obtain rfl := harg3.eq_unread hf1; obtain rfl := harg4.eq_unread hf2; obtain rfl := harg5.eq_unread hfo
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [Ho]
  · iexists _; isplitr; · ipureintro; exact harg5.read_unread _
    iexact Ho
  iexists _; isplitr
  swap; · iexact HS
  ipureintro
  sl_unfold_run_names
  rw [View.read_writes_eq_canon _ _ _ (fun y => ⟨_, List.mem_cons.mpr (Or.inl rfl), View.mem_set_unit_zero hz2_3 inb_S2048x1024_S2048x1024_0_0 y⟩), View.canon_cons_unit_zero hz2_3]
  simp only [View.readAt_eq_ld, harg2.read_unread, harg3.read_unread, harg4.read_unread, harg5.read_unread, harg6.read_unread, View.ld_unit_zero (S := S1024x256) hz2_3, View.ld_unit_zero (S := S256x2048) hz2_3, View.ld_unit_zero (S := S1x1024) hz2_3, View.ld_unit_zero (S := S2048x1024) hz2_3, View.readCov_unit_zero (S := S2048x1024) arg6.view hz2_3]

set_option maxHeartbeats 1000000 in
theorem run3_B (c : Dev nD) (i : grid3.Coords) (arg2 : Memref sig .tc .vmem S1024x256 .f32) (harg2 : arg2.IsWhole) (arg3 : Memref sig .tc .vmem S256x2048 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole)
    (hc0 : ¬cond3_0 i) (hc1 : ¬cond3_1 i)
    (x0 : Vec F S1024x256 .f32) (x1 : Vec F S256x2048 .bf16) (x2 : Vec F S1x1024 .f32) (xi : Vec F S2048x1024 .f32) (xs : Vec F S2048x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare (k3_pay2 x0 x1 xs)) -∗ K ⟨⟩))
      ⊢ wp frame (wpE (defs₀ (F := F)) Variants.none c none) E (cc3__stage_last_kernel i arg2 harg2 arg3 harg3 arg4 harg4 arg5 harg5 arg6 harg6) K := by
  simp only [cc3__stage_last_kernel_eq_skeleton]; unfold cc3__stage_last_kernel_skel
  unfold owns
  iintro ⟨⟨%f0, %hf0, H0⟩, ⟨%f1, %hf1, H1⟩, ⟨%f2, %hf2, H2⟩, ⟨%fo, %hfo, Ho⟩, ⟨%fs, %hfs, HS⟩, Hk⟩
  obtain rfl := harg2.eq_unread hf0; obtain rfl := harg3.eq_unread hf1; obtain rfl := harg4.eq_unread hf2; obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [Ho]
  · iexists _; isplitr; · ipureintro; exact harg5.read_unread _
    iexact Ho
  iexists _; isplitr
  swap; · iexact HS
  ipureintro
  rw [View.read_writes_eq_canon _ _ _ (fun y => ⟨_, List.mem_singleton_self _, View.mem_set_unit_zero hz2_3 inb_S2048x1024_S2048x1024_0_0 y⟩), View.canon_unit_zero hz2_3]
  simp only [View.readAt_eq_ld, harg2.read_unread, harg3.read_unread, harg4.read_unread, harg5.read_unread, harg6.read_unread, View.ld_unit_zero (S := S1024x256) hz2_3, View.ld_unit_zero (S := S256x2048) hz2_3, View.ld_unit_zero (S := S1x1024) hz2_3, View.ld_unit_zero (S := S2048x1024) hz2_3]

set_option maxHeartbeats 1000000 in
theorem run3_C (c : Dev nD) (i : grid3.Coords) (arg2 : Memref sig .tc .vmem S1024x256 .f32) (harg2 : arg2.IsWhole) (arg3 : Memref sig .tc .vmem S256x2048 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole)
    (hc0 : ¬cond3_0 i) (hc1 : cond3_1 i)
    (x0 : Vec F S1024x256 .f32) (x1 : Vec F S256x2048 .bf16) (x2 : Vec F S1x1024 .f32) (xs : Vec F S2048x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k3_pay3 x2 (k3_pay2 x0 x1 xs)) ∗ owns (c : Thread nD τ) arg6 fullShare (k3_pay2 x0 x1 xs)) -∗ K ⟨⟩))
      ⊢ wp frame (wpE (defs₀ (F := F)) Variants.none c none) E (cc3__stage_last_kernel i arg2 harg2 arg3 harg3 arg4 harg4 arg5 harg5 arg6 harg6) K := by
  simp only [cc3__stage_last_kernel_eq_skeleton]; unfold cc3__stage_last_kernel_skel
  unfold owns
  iintro ⟨⟨%f0, %hf0, H0⟩, ⟨%f1, %hf1, H1⟩, ⟨%f2, %hf2, H2⟩, ⟨%do_, %fo, -, Ho⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [Ho]
  · iexists _; isplitr
    swap; · iexact Ho
    ipureintro
    sl_unfold_run_names
    rw [View.read_writes_eq_canon _ _ _ (fun y => ⟨_, List.mem_singleton_self _, View.mem_set_unit_zero hz2_3 inb_S2048x1024_S2048x1024_0_0 y⟩), View.canon_unit_zero hz2_3]
    simp only [View.readAt_eq_ld, harg2.read_unread, harg3.read_unread, harg4.read_unread, harg5.read_unread, harg6.read_unread, View.ld_unit_zero (S := S1024x256) hz2_3, View.ld_unit_zero (S := S256x2048) hz2_3, View.ld_unit_zero (S := S1x1024) hz2_3, View.ld_unit_zero (S := S2048x1024) hz2_3, View.readCov_unit_zero (S := S2048x1024) arg6.view hz2_3]
  iexists _; isplitr
  swap; · iexact HS
  ipureintro
  sl_unfold_run_names
  rw [View.read_writes_eq_canon _ _ _ (fun y => ⟨_, List.mem_cons.mpr (Or.inl rfl), View.mem_set_unit_zero hz2_3 inb_S2048x1024_S2048x1024_0_0 y⟩), View.canon_cons_unit_zero hz2_3]
  simp only [View.readAt_eq_ld, harg2.read_unread, harg3.read_unread, harg4.read_unread, harg5.read_unread, harg6.read_unread, View.ld_unit_zero (S := S1024x256) hz2_3, View.ld_unit_zero (S := S256x2048) hz2_3, View.ld_unit_zero (S := S1x1024) hz2_3, View.ld_unit_zero (S := S2048x1024) hz2_3, View.readCov_unit_zero (S := S2048x1024) arg6.view hz2_3]

end Cert.Kernel.Hand

end
-- ==== Proof.KFrame3.lean ====
/-
  Region 3 as a pipelined loop with a tracked accumulator: the proof data of its pipeline at the arrays the region is
  entered with — every input window's buffer at its block, the output window's at what the last inner point stores,
  the scratch accumulator carried from point to point at `acc3` —, and the body's obligation at every grid point,
  by cases on the inner coordinate (0, strictly between, 15).
-/
import proofs.«116801_j83777632076060_2_alg».proof.Proof.KBody3
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The conditions and the idle points, decided over the grid -/

theorem hcond3_0 : ∀ t : Fin cfg3.N, cond3_0 (grid3.coords t) ↔ t.val % 16 = 0 :=
  (by decide +kernel : ∀ t : Fin grid3.N, cond3_0 (grid3.coords t) ↔ t.val % 16 = 0)
theorem hcond3_1 : ∀ t : Fin cfg3.N, cond3_1 (grid3.coords t) ↔ t.val % 16 = 15 :=
  (by decide +kernel : ∀ t : Fin grid3.N, cond3_1 (grid3.coords t) ↔ t.val % 16 = 15)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from the last inner point the output window is idle and not written back; at it, live. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

/-! ## The staging memrefs at a point, and the scratch -/

abbrev ms3_0 (t : Fin cfg3.N) : Memref sig .tc .vmem S1024x256 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S256x2048 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x1024 .f32 := win3_3.stage (cfg3.slots t 3)
abbrev hs3_3 (t : Fin cfg3.N) : (ms3_3 t).IsWhole := hstage3_3 ((cfg3.slots t 3).cast nbuf3_3)
abbrev scM3 : Memref sig .tc .vmem S2048x1024 .f32 := Memref.whole cc3_scratch0

/-- The core's scoped buffers that are neither a staging buffer of this pipeline nor its scratch, at some contents
    each: carried through the region unopened. -/
abbrev restBut3 (c : Dev nD) : sProp 𝕄 :=
  Pipeline.scopedRestBut (Ix := Unit) (Name := ℕ) (U := UR sig nD τ) (Lvl := ℕ) (Val := Elt F) spec3 c [cc3_scratch0]

/-- The region's entry invariant: the scratch as an owned memref at some contents, the other scoped buffers, the
    generator register at some state. -/
theorem PhiA3_eq (c : Dev nD) :
    (Pipeline.ΦA spec3 c : sProp 𝕄)
      = iprop(iprop((∃ d, owns (c : Thread nD τ) scM3 fullShare d) ∗ restBut3 c) ∗ (∃ r, prngReg c r)) := by
  unfold Pipeline.ΦA
  rw [Pipeline.scopedRest_split_of_list spec3 c [cc3_scratch0] (by decide) (by decide)]
  simp only [scM3, owns_whole]; try rfl

variable (V : (c : Dev nD) → (b : Ref sig .tc) → Buf (Elt F) ((c : Thread nD τ).loc b))

/-! ## The accumulator's recursion, at a point -/

theorem acc3_reset (c : Dev nD) (t : Fin cfg3.N) (h0 : t.val % 16 = 0) :
    acc3 V c t.val t.isLt = k3_pay2 (iblk3 V c 0 t) (iblk3 V c 1 t) (k3_pay1 (F := F)) := by
  obtain ⟨n, hn⟩ := t
  cases n with
  | zero => rfl
  | succ n => dsimp only at h0 ⊢; rw [acc3, if_pos h0]

theorem acc3_step (c : Dev nD) (t : Fin cfg3.N) (h0 : ¬t.val % 16 = 0) :
    acc3 V c t.val t.isLt = k3_pay2 (iblk3 V c 0 t) (iblk3 V c 1 t) (acc3 V c (t.val - 1) (Nat.lt_of_le_of_lt (Nat.sub_le _ _) t.isLt)) := by
  obtain ⟨n, hn⟩ := t
  cases n with
  | zero => exact absurd (Nat.zero_mod _) h0
  | succ n => dsimp only at h0 ⊢; rw [acc3, if_neg h0]; rfl

/-! ## The invariant and the proof data -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Before the first point the scratch holds anything; after point `n` it holds the accumulator `acc3` there. -/
def PhiS3 (c : Dev nD) : (n : ℕ) → n ≤ cfg3.N → sProp 𝕄
  | 0, _ => Pipeline.ΦA spec3 c
  | n + 1, hn => iprop(iprop(owns (c : Thread nD τ) scM3 fullShare (acc3 V c n hn) ∗ restBut3 c) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare (acc3 V c n hn) ∗ restBut3 c) ∗ (∃ r, prngReg c r)) := rfl
theorem PhiS3_pos (c : Dev nD) (n : ℕ) (h : n ≤ cfg3.N) (hz : n ≠ 0) :
    PhiS3 V c n h = iprop(iprop(owns (c : Thread nD τ) scM3 fullShare (acc3 V c (n - 1) (by omega)) ∗ restBut3 c) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3 V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h1 : t.val % 16 = 15
  · have h0 : ¬t.val % 16 = 0 := by omega
    have hz : t.val ≠ 0 := by omega
    rw [show (dat3 V c).leavesExact 3 t = owns (c : Thread nD τ) (ms3_3 t) fullShare ((dat3 V c).after 3 t) from by
      unfold Dat.leavesExact; rw [liveAt3_3 t ((hcond3_1 t).mpr h1)], after3_3]
    unfold out3
    rw [acc3_step V c t h0, PhiS3_castSucc V c t, PhiS3_pos V c _ _ hz]
    iintro ⟨⟨⟨HS, Hrb⟩, Hg⟩, Ho, ⟨%d0, H0⟩, ⟨%d1, H1⟩, ⟨%d2, H2⟩, ⟨%d3, H3⟩⟩
    iapply (run3_C c (grid3.coords t) _ _ _ _ _ _ _ _ _ _ (fun h => h0 ((hcond3_0 t).mp h)) ((hcond3_1 t).mpr h1) (iblk3 V c 0 t) (iblk3 V c 1 t) (iblk3 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hrb Hg]
    · isplitl [HS Hrb]
      · isplitl [HS]; · iexact HS
        iexact Hrb
      iexact Hg
    isplitl [Ho]; · iexact Ho
    isplitl [H0]; · iexact H0
    isplitl [H1]; · iexact H1
    isplitl [H2]; · iexact H2
    iexact H3
  · rw [Dat.leavesExact_idle (dat3 V c) 3 t (idleAt3_3 t (fun h => h1 ((hcond3_1 t).mp h))) (noFlush3_3 t (fun h => h1 ((hcond3_1 t).mp h)))]
    by_cases h0 : t.val % 16 = 0
    · rw [acc3_reset V c t h0]
      by_cases hz : t.val = 0
      · rw [PhiS3_castSucc V c t, PhiS3_zero V c _ _ hz, PhiA3_eq]
        iintro ⟨⟨⟨HS, Hrb⟩, Hg⟩, Ho, ⟨%d0, H0⟩, ⟨%d1, H1⟩, ⟨%d2, H2⟩, ⟨%d3, H3⟩⟩
        iapply (run3_A c (grid3.coords t) _ _ _ _ _ _ _ _ _ _ ((hcond3_0 t).mpr h0) (fun h => h1 ((hcond3_1 t).mp h)) (iblk3 V c 0 t) (iblk3 V c 1 t) (iblk3 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hrb Hg]
        · isplitl [HS Hrb]
          · isplitl [HS]; · iexact HS
            iexact Hrb
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS, Hrb⟩, Hg⟩, Ho, ⟨%d0, H0⟩, ⟨%d1, H1⟩, ⟨%d2, H2⟩, ⟨%d3, H3⟩⟩
        iapply (run3_A c (grid3.coords t) _ _ _ _ _ _ _ _ _ _ ((hcond3_0 t).mpr h0) (fun h => h1 ((hcond3_1 t).mp h)) (iblk3 V c 0 t) (iblk3 V c 1 t) (iblk3 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS Hrb Hg]
        · isplitl [HS Hrb]
          · isplitl [HS]; · iexact HS
            iexact Hrb
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [acc3_step V c t h0, PhiS3_castSucc V c t, PhiS3_pos V c _ _ hz]
      iintro ⟨⟨⟨HS, Hrb⟩, Hg⟩, Ho, ⟨%d0, H0⟩, ⟨%d1, H1⟩, ⟨%d2, H2⟩, ⟨%d3, H3⟩⟩
      iapply (run3_B c (grid3.coords t) _ _ _ _ _ _ _ _ _ _ (fun h => h0 ((hcond3_0 t).mp h)) (fun h => h1 ((hcond3_1 t).mp h)) (iblk3 V c 0 t) (iblk3 V c 1 t) (iblk3 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrb Hg]
      · isplitl [HS Hrb]
        · isplitl [HS]; · iexact HS
          iexact Hrb
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- After the last point the invariant gives the entry invariant back: the accumulator's contents are forgotten. -/
theorem Phi_out3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 64 := N_3; omega), PhiA3_eq]
  iintro ⟨⟨HS, Hrb⟩, Hg⟩
  isplitl [HS Hrb]
  · isplitl [HS]
    · iexists _; iexact HS
    iexact Hrb
  iexact Hg

end Cert.Kernel.Hand

end
-- ==== Proof.KRun.lean ====
/-
  The run of the whole program: three chained regions, the bias reshaped on the host, the last region. Between two
  items every unscoped buffer of a core is held at a valuation — the launch memory, then each region's arrays replaced
  by what its write-backs leave, the host line's result written —, beside the generator register and a core that owes
  nothing. Every weakly fair execution terminates; at the end the result buffer holds what the last region's
  write-backs leave and every argument what it was launched with.
-/
import proofs.«116801_j83777632076060_2_alg».proof.Proof.KFrame0
import proofs.«116801_j83777632076060_2_alg».proof.Proof.KFrame1
import proofs.«116801_j83777632076060_2_alg».proof.Proof.KFrame2
import proofs.«116801_j83777632076060_2_alg».proof.Proof.KFrame3
import Idealize.ShloMosaic.Lib.Pipeline.RegionsLoop
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev VW0 : (c : Dev nD) → (b : Ref sig .tc) → Buf (Elt F) ((c : Thread nD τ).loc b) := fun c b => W0 m ρ c b

/-- At region 0's exit: its arrays at what the pipeline leaves, every other buffer as entered. -/
def W1 (c : Dev nD) : Valuation τ sig (Elt F) :=
  Pipeline.withArrays spec0 c (W0 m ρ c) fun w => (dat0 (VW0 m ρ) c).arrAt w cfg0.N
theorem W1_arr (c : Dev nD) (w : Fin cfg0.W) :
    W1 m ρ c (Proc.devRef .tc (Pipeline.arrRef spec0 w)) = (dat0 (VW0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VW1 : (c : Dev nD) → (b : Ref sig .tc) → Buf (Elt F) ((c : Thread nD τ).loc b) := fun c b => W1 m ρ c b
theorem hF0 (c : Dev nD) (w : Fin cfg0.W) : (dat0 (VW0 m ρ) c).arrAt w cfg0.N = VW1 m ρ c (Pipeline.arrRef spec0 w) :=
  (W1_arr m ρ c w).symm
theorem hrest0 (c : Dev nD) : ∀ b, b ∉ Finset.univ.image (Pipeline.arrRef spec0) → VW1 m ρ c b = VW0 m ρ c b :=
  fun b hb => W1_of_ne m ρ c b fun w e => hb (Finset.mem_image.mpr ⟨w, Finset.mem_univ _, e⟩)
/-- Region 0 changes no buffer but its output array: an input window's array ends as entered, any other is bypassed. -/
theorem W1_keep (c : Dev nD) (b : Ref sig .tc) (hb : b ≠ main_v0) :
    W1 m ρ c (Proc.devRef .tc b) = W0 m ρ c (Proc.devRef .tc b) := by
  by_cases h : ∃ w, Pipeline.arrRef spec0 w = b
  · obtain ⟨w, rfl⟩ := h
    rw [W1_arr]
    fin_cases w
    · exact ((dat0 (VW0 m ρ) c).arrAt_in 0 rfl _).trans (A_eq0 (VW0 m ρ) c 0)
    · exact ((dat0 (VW0 m ρ) c).arrAt_in 1 rfl _).trans (A_eq0 (VW0 m ρ) c 1)
    · exact absurd rfl hb
  · exact W1_of_ne m ρ c b fun w e => h ⟨w, e⟩

/-- At region 1's exit: its arrays at what the pipeline leaves, every other buffer as entered. -/
def W2 (c : Dev nD) : Valuation τ sig (Elt F) :=
  Pipeline.withArrays spec1 c (W1 m ρ c) fun w => (dat1 (VW1 m ρ) c).arrAt w cfg1.N
theorem W2_arr (c : Dev nD) (w : Fin cfg1.W) :
    W2 m ρ c (Proc.devRef .tc (Pipeline.arrRef spec1 w)) = (dat1 (VW1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev VW2 : (c : Dev nD) → (b : Ref sig .tc) → Buf (Elt F) ((c : Thread nD τ).loc b) := fun c b => W2 m ρ c b
theorem hF1 (c : Dev nD) (w : Fin cfg1.W) : (dat1 (VW1 m ρ) c).arrAt w cfg1.N = VW2 m ρ c (Pipeline.arrRef spec1 w) :=
  (W2_arr m ρ c w).symm
theorem hrest1 (c : Dev nD) : ∀ b, b ∉ Finset.univ.image (Pipeline.arrRef spec1) → VW2 m ρ c b = VW1 m ρ c b :=
  fun b hb => W2_of_ne m ρ c b fun w e => hb (Finset.mem_image.mpr ⟨w, Finset.mem_univ _, e⟩)
/-- Region 1 changes no buffer but its output array: an input window's array ends as entered, any other is bypassed. -/
theorem W2_keep (c : Dev nD) (b : Ref sig .tc) (hb : b ≠ main_v1) :
    W2 m ρ c (Proc.devRef .tc b) = W1 m ρ c (Proc.devRef .tc b) := by
  by_cases h : ∃ w, Pipeline.arrRef spec1 w = b
  · obtain ⟨w, rfl⟩ := h
    rw [W2_arr]
    fin_cases w
    · exact ((dat1 (VW1 m ρ) c).arrAt_in 0 rfl _).trans (A_eq1 (VW1 m ρ) c 0)
    · exact ((dat1 (VW1 m ρ) c).arrAt_in 1 rfl _).trans (A_eq1 (VW1 m ρ) c 1)
    · exact absurd rfl hb
  · exact W2_of_ne m ρ c b fun w e => h ⟨w, e⟩

/-- At region 2's exit: its arrays at what the pipeline leaves, every other buffer as entered. -/
def W3 (c : Dev nD) : Valuation τ sig (Elt F) :=
  Pipeline.withArrays spec2 c (W2 m ρ c) fun w => (dat2 (VW2 m ρ) c).arrAt w cfg2.N
theorem W3_arr (c : Dev nD) (w : Fin cfg2.W) :
    W3 m ρ c (Proc.devRef .tc (Pipeline.arrRef spec2 w)) = (dat2 (VW2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev VW3 : (c : Dev nD) → (b : Ref sig .tc) → Buf (Elt F) ((c : Thread nD τ).loc b) := fun c b => W3 m ρ c b
theorem hF2 (c : Dev nD) (w : Fin cfg2.W) : (dat2 (VW2 m ρ) c).arrAt w cfg2.N = VW3 m ρ c (Pipeline.arrRef spec2 w) :=
  (W3_arr m ρ c w).symm
theorem hrest2 (c : Dev nD) : ∀ b, b ∉ Finset.univ.image (Pipeline.arrRef spec2) → VW3 m ρ c b = VW2 m ρ c b :=
  fun b hb => W3_of_ne m ρ c b fun w e => hb (Finset.mem_image.mpr ⟨w, Finset.mem_univ _, e⟩)
/-- Region 2 changes no buffer but its output array: an input window's array ends as entered, any other is bypassed. -/
theorem W3_keep (c : Dev nD) (b : Ref sig .tc) (hb : b ≠ main_v2) :
    W3 m ρ c (Proc.devRef .tc b) = W2 m ρ c (Proc.devRef .tc b) := by
  by_cases h : ∃ w, Pipeline.arrRef spec2 w = b
  · obtain ⟨w, rfl⟩ := h
    rw [W3_arr]
    fin_cases w
    · exact ((dat2 (VW2 m ρ) c).arrAt_in 0 rfl _).trans (A_eq2 (VW2 m ρ) c 0)
    · exact ((dat2 (VW2 m ρ) c).arrAt_in 1 rfl _).trans (A_eq2 (VW2 m ρ) c 1)
    · exact absurd rfl hb
  · exact W3_of_ne m ρ c b fun w e => h ⟨w, e⟩

/-- After the host line that reshapes the bias (region 3's entry). -/
abbrev W4 : Dev nD → Valuation τ sig (Elt F) := fun c => StableHlo.after hostOps3 (W3 m ρ c)
abbrev VW4 : (c : Dev nD) → (b : Ref sig .tc) → Buf (Elt F) ((c : Thread nD τ).loc b) := fun c b => W4 m ρ c b
/-- The host line writes only its own result. -/
theorem W4_keep (c : Dev nD) (b : Ref sig .tc) (hb : b ≠ main_v3) :
    W4 m ρ c (Proc.devRef .tc b) = W3 m ρ c (Proc.devRef .tc b) :=
  StableHlo.after_of_forall_not_mem (b := Proc.devRef .tc b) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))

/-- At region 3's exit: its arrays at what the pipeline leaves, every other buffer as entered. -/
def W5 (c : Dev nD) : Valuation τ sig (Elt F) :=
  Pipeline.withArrays spec3 c (W4 m ρ c) fun w => (dat3 (VW4 m ρ) c).arrAt w cfg3.N
theorem W5_arr (c : Dev nD) (w : Fin cfg3.W) :
    W5 m ρ c (Proc.devRef .tc (Pipeline.arrRef spec3 w)) = (dat3 (VW4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev VW5 : (c : Dev nD) → (b : Ref sig .tc) → Buf (Elt F) ((c : Thread nD τ).loc b) := fun c b => W5 m ρ c b
theorem hF3 (c : Dev nD) (w : Fin cfg3.W) : (dat3 (VW4 m ρ) c).arrAt w cfg3.N = VW5 m ρ c (Pipeline.arrRef spec3 w) :=
  (W5_arr m ρ c w).symm
theorem hrest3 (c : Dev nD) : ∀ b, b ∉ Finset.univ.image (Pipeline.arrRef spec3) → VW5 m ρ c b = VW4 m ρ c b :=
  fun b hb => W5_of_ne m ρ c b fun w e => hb (Finset.mem_image.mpr ⟨w, Finset.mem_univ _, e⟩)
/-- Region 3 changes no buffer but its output array: an input window's array ends as entered, any other is bypassed. -/
theorem W5_keep (c : Dev nD) (b : Ref sig .tc) (hb : b ≠ main_v4) :
    W5 m ρ c (Proc.devRef .tc b) = W4 m ρ c (Proc.devRef .tc b) := by
  by_cases h : ∃ w, Pipeline.arrRef spec3 w = b
  · obtain ⟨w, rfl⟩ := h
    rw [W5_arr]
    fin_cases w
    · exact ((dat3 (VW4 m ρ) c).arrAt_in 0 rfl _).trans (A_eq3 (VW4 m ρ) c 0)
    · exact ((dat3 (VW4 m ρ) c).arrAt_in 1 rfl _).trans (A_eq3 (VW4 m ρ) c 1)
    · exact ((dat3 (VW4 m ρ) c).arrAt_in 2 rfl _).trans (A_eq3 (VW4 m ρ) c 2)
    · exact absurd rfl hb
  · exact W5_of_ne m ρ c b fun w e => h ⟨w, e⟩

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_keep m ρ c main_arg0 (by decide)
    _ = W3 m ρ c (Proc.devRef .tc main_arg0) := W4_keep m ρ c main_arg0 (by decide)
    _ = W2 m ρ c (Proc.devRef .tc main_arg0) := W3_keep m ρ c main_arg0 (by decide)
    _ = W1 m ρ c (Proc.devRef .tc main_arg0) := W2_keep m ρ c main_arg0 (by decide)
    _ = W0 m ρ c (Proc.devRef .tc main_arg0) := W1_keep m ρ c main_arg0 (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_keep m ρ c main_arg1 (by decide)
    _ = W3 m ρ c (Proc.devRef .tc main_arg1) := W4_keep m ρ c main_arg1 (by decide)
    _ = W2 m ρ c (Proc.devRef .tc main_arg1) := W3_keep m ρ c main_arg1 (by decide)
    _ = W1 m ρ c (Proc.devRef .tc main_arg1) := W2_keep m ρ c main_arg1 (by decide)
    _ = W0 m ρ c (Proc.devRef .tc main_arg1) := W1_keep m ρ c main_arg1 (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_keep m ρ c main_arg2 (by decide)
    _ = W3 m ρ c (Proc.devRef .tc main_arg2) := W4_keep m ρ c main_arg2 (by decide)
    _ = W2 m ρ c (Proc.devRef .tc main_arg2) := W3_keep m ρ c main_arg2 (by decide)
    _ = W1 m ρ c (Proc.devRef .tc main_arg2) := W2_keep m ρ c main_arg2 (by decide)
    _ = W0 m ρ c (Proc.devRef .tc main_arg2) := W1_keep m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_keep m ρ c main_arg3 (by decide)
    _ = W3 m ρ c (Proc.devRef .tc main_arg3) := W4_keep m ρ c main_arg3 (by decide)
    _ = W2 m ρ c (Proc.devRef .tc main_arg3) := W3_keep m ρ c main_arg3 (by decide)
    _ = W1 m ρ c (Proc.devRef .tc main_arg3) := W2_keep m ρ c main_arg3 (by decide)
    _ = W0 m ρ c (Proc.devRef .tc main_arg3) := W1_keep m ρ c main_arg3 (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_keep m ρ c main_arg4 (by decide)
    _ = W3 m ρ c (Proc.devRef .tc main_arg4) := W4_keep m ρ c main_arg4 (by decide)
    _ = W2 m ρ c (Proc.devRef .tc main_arg4) := W3_keep m ρ c main_arg4 (by decide)
    _ = W1 m ρ c (Proc.devRef .tc main_arg4) := W2_keep m ρ c main_arg4 (by decide)
    _ = W0 m ρ c (Proc.devRef .tc main_arg4) := W1_keep m ρ c main_arg4 (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_keep m ρ c main_arg5 (by decide)
    _ = W3 m ρ c (Proc.devRef .tc main_arg5) := W4_keep m ρ c main_arg5 (by decide)
    _ = W2 m ρ c (Proc.devRef .tc main_arg5) := W3_keep m ρ c main_arg5 (by decide)
    _ = W1 m ρ c (Proc.devRef .tc main_arg5) := W2_keep m ρ c main_arg5 (by decide)
    _ = W0 m ρ c (Proc.devRef .tc main_arg5) := W1_keep m ρ c main_arg5 (by decide)
    _ = m ((c : Thread nD τ).loc main_arg5) := rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (VW0 m ρ) c
  | ⟨1, _⟩ => fun c => dat1 (VW1 m ρ) c
  | ⟨2, _⟩ => fun c => dat2 (VW2 m ρ) c
  | ⟨3, _⟩ => fun c => dat3 (VW4 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered with every unscoped buffer at `W0`, left with them at `W1`; its arrays
    split out of the unscoped buffers and put back at what the write-backs leave; the generator register into the
    entry invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VW0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VW0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VW0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Phi_out0 (VW0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VW0 m ρ c) (VW1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W1`, left with them at `W2`; its arrays
    split out of the unscoped buffers and put back at what the write-backs leave; the generator register into the
    entry invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VW1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (VW1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VW1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi_out1 (VW1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VW1 m ρ c) (VW2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W2`, left with them at `W3`; its arrays
    split out of the unscoped buffers and put back at what the write-backs leave; the generator register into the
    entry invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VW2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (VW2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (VW2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from Phi_out2 (VW2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (VW2 m ρ c) (VW3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W4`, left with them at `W5`; its arrays
    split out of the unscoped buffers and put back at what the write-backs leave; the generator register into the
    entry invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VW4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (VW4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (VW4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m ρ 3 c).Φ (Fin.last _) ⊢ Pipeline.ΦA spec3 c from Phi_out3 (VW4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (VW4 m ρ c) (VW5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ), .region (reg2 m ρ),
    .host (hseg hostOps3 hostOps3_sub hostOps3_fresh' (W3 m ρ)),
    .region (reg3 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting; the result
    buffer ends at what the last region's write-backs leave and every argument array as launched. -/
theorem run_main : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v4 (by decide)),
        (h c _ (mem_uc main_arg0 (by decide))).trans (W5_main_arg0 m ρ c),
        (h c _ (mem_uc main_arg1 (by decide))).trans (W5_main_arg1 m ρ c),
        (h c _ (mem_uc main_arg2 (by decide))).trans (W5_main_arg2 m ρ c),
        (h c _ (mem_uc main_arg3 (by decide))).trans (W5_main_arg3 m ρ c),
        (h c _ (mem_uc main_arg4 (by decide))).trans (W5_main_arg4 m ρ c),
        (h c _ (mem_uc main_arg5 (by decide))).trans (W5_main_arg5 m ρ c)⟩)

end Cert.Kernel.Hand

end
-- ==== Proof.Blocks.lean ====
/-
  What the four chained kernels hold, point by point, as functions of the arrays each region is entered with.
  Each region walks a 4 × 16 grid: the outer coordinate picks 1024 rows of the weight, the inner one a slab of 256
  contracted coordinates. The accumulator is reset where the inner coordinate is 0, takes the product of the point's
  two blocks at every point, and is written to the output window where the inner coordinate is 15.
-/
import proofs.«116801_j83777632076060_2_alg».proof.Proof.Gen.KernelIdeal.Launch
import proofs.«116801_j83777632076060_2_alg».proof.Proof.Gen.KernelIdeal.Skeleton
import proofs.«116801_j83777632076060_2_alg».proof.Proof.Gen.KernelIdeal.Points

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator of region 0 after the body at position `n`: the product of the point's two blocks added to what
    the point before left, or to zero where the inner coordinate starts again (every sixteenth position). -/
def acc0 (c : Dev nD) : (n : ℕ) → n < cfg0.N → Vec F S1024x2048 .f32
  | 0, h => k0_pay2 (iblk0 V c 0 ⟨0, h⟩) (iblk0 V c 1 ⟨0, h⟩) (k0_pay1 (F := F))
  | n + 1, h => k0_pay2 (iblk0 V c 0 ⟨n + 1, h⟩) (iblk0 V c 1 ⟨n + 1, h⟩)
      (if (n + 1) % 16 = 0 then (k0_pay1 (F := F)) else acc0 c n (Nat.lt_of_succ_lt h))

/-- What the body stores into the output window's buffer at a point whose inner coordinate is the last. -/
def out0 (c : Dev nD) (t : Fin cfg0.N) : Vec F S1024x2048 .bf16 :=
  k0_pay3 (acc0 V c t.val t.isLt)

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator of region 1 after the body at position `n`: the product of the point's two blocks added to what
    the point before left, or to zero where the inner coordinate starts again (every sixteenth position). -/
def acc1 (c : Dev nD) : (n : ℕ) → n < cfg1.N → Vec F S1024x2048 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩)
      (if (n + 1) % 16 = 0 then (k1_pay1 (F := F)) else acc1 c n (Nat.lt_of_succ_lt h))

/-- What the body stores into the output window's buffer at a point whose inner coordinate is the last. -/
def out1 (c : Dev nD) (t : Fin cfg1.N) : Vec F S1024x2048 .bf16 :=
  k1_pay3 (acc1 V c t.val t.isLt)

/-! ## Region 2 -/

/-- Window `w`'s block at point `t` of region 2, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator of region 2 after the body at position `n`: the product of the point's two blocks added to what
    the point before left, or to zero where the inner coordinate starts again (every sixteenth position). -/
def acc2 (c : Dev nD) : (n : ℕ) → n < cfg2.N → Vec F S1024x2048 .f32
  | 0, h => k2_pay2 (iblk2 V c 0 ⟨0, h⟩) (iblk2 V c 1 ⟨0, h⟩) (k2_pay1 (F := F))
  | n + 1, h => k2_pay2 (iblk2 V c 0 ⟨n + 1, h⟩) (iblk2 V c 1 ⟨n + 1, h⟩)
      (if (n + 1) % 16 = 0 then (k2_pay1 (F := F)) else acc2 c n (Nat.lt_of_succ_lt h))

/-- What the body stores into the output window's buffer at a point whose inner coordinate is the last. -/
def out2 (c : Dev nD) (t : Fin cfg2.N) : Vec F S1024x2048 .bf16 :=
  k2_pay3 (acc2 V c t.val t.isLt)

/-! ## Region 3 -/

/-- Window `w`'s block at point `t` of region 3, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator of region 3 after the body at position `n`: the product of the point's two blocks added to what
    the point before left, or to zero where the inner coordinate starts again (every sixteenth position). -/
def acc3 (c : Dev nD) : (n : ℕ) → n < cfg3.N → Vec F S2048x1024 .f32
  | 0, h => k3_pay2 (iblk3 V c 0 ⟨0, h⟩) (iblk3 V c 1 ⟨0, h⟩) (k3_pay1 (F := F))
  | n + 1, h => k3_pay2 (iblk3 V c 0 ⟨n + 1, h⟩) (iblk3 V c 1 ⟨n + 1, h⟩)
      (if (n + 1) % 16 = 0 then (k3_pay1 (F := F)) else acc3 c n (Nat.lt_of_succ_lt h))

/-- What the body stores into the output window's buffer at a point whose inner coordinate is the last. -/
def out3 (c : Dev nD) (t : Fin cfg3.N) : Vec F S2048x1024 .f32 :=
  k3_pay3 (iblk3 V c 2 t) (acc3 V c t.val t.isLt)

end Cert.KernelIdeal.Hand

end
-- ==== Proof.Body0.lean ====
/-
  The body of kernel 0 on whole staging buffers, in each of the three cases its two conditionals meet on the grid:
  the inner coordinate 0 (the accumulator is zeroed first), strictly between, and 15 (the accumulator is also written
  to the output window). In every case the accumulator ends at the product of the two input blocks added to what it
  held (to zero in the first case); the inputs are left as they were.
-/
import proofs.«116801_j83777632076060_2_alg».proof.Proof.Blocks
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional of the body: the inner coordinate is 0. -/
abbrev cond0_0 (i : grid0.Coords) : Prop := (Scalar.cmpi .ne (Scalar.extui (Scalar.cmpi .eq (BitVec.ofNat 32 (i 1).val) 0#32)) 0#32) = 1#1
/-- The second conditional of the body: the inner coordinate is 15. -/
abbrev cond0_1 (i : grid0.Coords) : Prop := k0_cond2 i = 1#1

/-- The offsets of every access of these bodies: zero on both axes. -/
theorem hz2_0 : (![0, 0] : Fin 2 → Nat) = fun _ => 0 := by funext a; fin_cases a <;> rfl

set_option maxHeartbeats 1000000 in
theorem run0_A (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x2048 .bf16) (harg4 : arg4.IsWhole) (arg5 : Memref sig .tc .vmem S1024x2048 .f32) (harg5 : arg5.IsWhole)
    (hc0 : cond0_0 i) (hc1 : ¬cond0_1 i)
    (x0 : Vec F S1024x256 .f32) (x1 : Vec F S2048x256 .f32) (xi : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 (k0_pay1 (F := F)))) -∗ K ⟨⟩))
      ⊢ wp frame (wpE (defs₀ (F := F)) Variants.none c none) E (cc0__stage1_kernel i arg2 harg2 arg3 harg3 arg4 harg4 arg5 harg5) K := by
  simp only [cc0__stage1_kernel_eq_skeleton]; unfold cc0__stage1_kernel_skel
  unfold owns
  iintro ⟨⟨%f0, %hf0, H0⟩, ⟨%f1, %hf1, H1⟩, ⟨%fo, %hfo, Ho⟩, ⟨%ds, %fs, -, HS⟩, Hk⟩
  obtain rfl := harg2.eq_unread hf0; obtain rfl := harg3.eq_unread hf1; obtain rfl := harg4.eq_unread hfo
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexists _; isplitr; · ipureintro; exact harg4.read_unread _
    iexact Ho
  iexists _; isplitr
  swap; · iexact HS
  ipureintro
  sl_unfold_run_names
  rw [View.read_writes_eq_canon _ _ _ (fun y => ⟨_, List.mem_cons.mpr (Or.inl rfl), View.mem_set_unit_zero hz2_0 inb_S1024x2048_S1024x2048_0_0 y⟩), View.canon_cons_unit_zero hz2_0]
  simp only [View.readAt_eq_ld, harg2.read_unread, harg3.read_unread, harg4.read_unread, harg5.read_unread, View.ld_unit_zero (S := S1024x256) hz2_0, View.ld_unit_zero (S := S2048x256) hz2_0, View.ld_unit_zero (S := S1024x2048) hz2_0, View.readCov_unit_zero (S := S1024x2048) arg5.view hz2_0]

set_option maxHeartbeats 1000000 in
theorem run0_B (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x2048 .bf16) (harg4 : arg4.IsWhole) (arg5 : Memref sig .tc .vmem S1024x2048 .f32) (harg5 : arg5.IsWhole)
    (hc0 : ¬cond0_0 i) (hc1 : ¬cond0_1 i)
    (x0 : Vec F S1024x256 .f32) (x1 : Vec F S2048x256 .f32) (xi : Vec F S1024x2048 .bf16) (xs : Vec F S1024x2048 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 xs)) -∗ K ⟨⟩))
      ⊢ wp frame (wpE (defs₀ (F := F)) Variants.none c none) E (cc0__stage1_kernel i arg2 harg2 arg3 harg3 arg4 harg4 arg5 harg5) K := by
  simp only [cc0__stage1_kernel_eq_skeleton]; unfold cc0__stage1_kernel_skel
  unfold owns
  iintro ⟨⟨%f0, %hf0, H0⟩, ⟨%f1, %hf1, H1⟩, ⟨%fo, %hfo, Ho⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexists _; isplitr; · ipureintro; exact harg4.read_unread _
    iexact Ho
  iexists _; isplitr
  swap; · iexact HS
  ipureintro
  rw [View.read_writes_eq_canon _ _ _ (fun y => ⟨_, List.mem_singleton_self _, View.mem_set_unit_zero hz2_0 inb_S1024x2048_S1024x2048_0_0 y⟩), View.canon_unit_zero hz2_0]
  simp only [View.readAt_eq_ld, harg2.read_unread, harg3.read_unread, harg4.read_unread, harg5.read_unread, View.ld_unit_zero (S := S1024x256) hz2_0, View.ld_unit_zero (S := S2048x256) hz2_0, View.ld_unit_zero (S := S1024x2048) hz2_0]

set_option maxHeartbeats 1000000 in
theorem run0_C (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x2048 .bf16) (harg4 : arg4.IsWhole) (arg5 : Memref sig .tc .vmem S1024x2048 .f32) (harg5 : arg5.IsWhole)
    (hc0 : ¬cond0_0 i) (hc1 : cond0_1 i)
    (x0 : Vec F S1024x256 .f32) (x1 : Vec F S2048x256 .f32) (xs : Vec F S1024x2048 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay3 (k0_pay2 x0 x1 xs)) ∗ owns (c : Thread nD τ) arg5 fullShare (k0_pay2 x0 x1 xs)) -∗ K ⟨⟩))
      ⊢ wp frame (wpE (defs₀ (F := F)) Variants.none c none) E (cc0__stage1_kernel i arg2 harg2 arg3 harg3 arg4 harg4 arg5 harg5) K := by
  simp only [cc0__stage1_kernel_eq_skeleton]; unfold cc0__stage1_kernel_skel
  unfold owns
  iintro ⟨⟨%f0, %hf0, H0⟩, ⟨%f1, %hf1, H1⟩, ⟨%do_, %fo, -, Ho⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexists _; isplitr
    swap; · iexact Ho
    ipureintro
    sl_unfold_run_names
    rw [View.read_writes_eq_canon _ _ _ (fun y => ⟨_, List.mem_singleton_self _, View.mem_set_unit_zero hz2_0 inb_S1024x2048_S1024x2048_0_0 y⟩), View.canon_unit_zero hz2_0]
    simp only [View.readAt_eq_ld, harg2.read_unread, harg3.read_unread, harg4.read_unread, harg5.read_unread, View.ld_unit_zero (S := S1024x256) hz2_0, View.ld_unit_zero (S := S2048x256) hz2_0, View.ld_unit_zero (S := S1024x2048) hz2_0, View.readCov_unit_zero (S := S1024x2048) arg5.view hz2_0]
  iexists _; isplitr
  swap; · iexact HS
  ipureintro
  sl_unfold_run_names
  rw [View.read_writes_eq_canon _ _ _ (fun y => ⟨_, List.mem_cons.mpr (Or.inl rfl), View.mem_set_unit_zero hz2_0 inb_S1024x2048_S1024x2048_0_0 y⟩), View.canon_cons_unit_zero hz2_0]
  simp only [View.readAt_eq_ld, harg2.read_unread, harg3.read_unread, harg4.read_unread, harg5.read_unread, View.ld_unit_zero (S := S1024x256) hz2_0, View.ld_unit_zero (S := S2048x256) hz2_0, View.ld_unit_zero (S := S1024x2048) hz2_0, View.readCov_unit_zero (S := S1024x2048) arg5.view hz2_0]

end Cert.KernelIdeal.Hand

end
-- ==== Proof.Frame0.lean ====
/-
  Region 0 as a pipelined loop with a tracked accumulator: the proof data of its pipeline at the arrays the region is
  entered with — every input window's buffer at its block, the output window's at what the last inner point stores,
  the scratch accumulator carried from point to point at `acc0` —, and the body's obligation at every grid point,
  by cases on the inner coordinate (0, strictly between, 15).
-/
import proofs.«116801_j83777632076060_2_alg».proof.Proof.Body0
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The conditions and the idle points, decided over the grid -/

theorem hcond0_0 : ∀ t : Fin cfg0.N, cond0_0 (grid0.coords t) ↔ t.val % 16 = 0 :=
  (by decide +kernel : ∀ t : Fin grid0.N, cond0_0 (grid0.coords t) ↔ t.val % 16 = 0)
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last inner point the output window is idle and not written back; at it, live. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The staging memrefs at a point, and the scratch -/

abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .bf16 := win0_2.stage (cfg0.slots t 2)
abbrev hs0_2 (t : Fin cfg0.N) : (ms0_2 t).IsWhole := hstage0_2 ((cfg0.slots t 2).cast nbuf0_2)
abbrev scM0 : Memref sig .tc .vmem S1024x2048 .f32 := Memref.whole cc0_scratch0

/-- The core's scoped buffers that are neither a staging buffer of this pipeline nor its scratch, at some contents
    each: carried through the region unopened. -/
abbrev restBut0 (c : Dev nD) : sProp 𝕄 :=
  Pipeline.scopedRestBut (Ix := Unit) (Name := ℕ) (U := UR sig nD τ) (Lvl := ℕ) (Val := Elt F) spec0 c [cc0_scratch0]

/-- The region's entry invariant: the scratch as an owned memref at some contents, the other scoped buffers, the
    generator register at some state. -/
theorem PhiA0_eq (c : Dev nD) :
    (Pipeline.ΦA spec0 c : sProp 𝕄)
      = iprop(iprop((∃ d, owns (c : Thread nD τ) scM0 fullShare d) ∗ restBut0 c) ∗ (∃ r, prngReg c r)) := by
  unfold Pipeline.ΦA
  rw [Pipeline.scopedRest_split_of_list spec0 c [cc0_scratch0] (by decide) (by decide)]
  simp only [scM0, owns_whole]; try rfl

variable (V : (c : Dev nD) → (b : Ref sig .tc) → Buf (Elt F) ((c : Thread nD τ).loc b))

/-! ## The accumulator's recursion, at a point -/

theorem acc0_reset (c : Dev nD) (t : Fin cfg0.N) (h0 : t.val % 16 = 0) :
    acc0 V c t.val t.isLt = k0_pay2 (iblk0 V c 0 t) (iblk0 V c 1 t) (k0_pay1 (F := F)) := by
  obtain ⟨n, hn⟩ := t
  cases n with
  | zero => rfl
  | succ n => dsimp only at h0 ⊢; rw [acc0, if_pos h0]

theorem acc0_step (c : Dev nD) (t : Fin cfg0.N) (h0 : ¬t.val % 16 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h0
  | succ n => dsimp only at h0 ⊢; rw [acc0, if_neg h0]; rfl

/-! ## The invariant and the proof data -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Before the first point the scratch holds anything; after point `n` it holds the accumulator `acc0` there. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ restBut0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ restBut0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ restBut0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 16 = 15
  · have h0 : ¬t.val % 16 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    unfold out0
    rw [acc0_step V c t h0, PhiS0_castSucc V c t, PhiS0_pos V c _ _ hz]
    iintro ⟨⟨⟨HS, Hrb⟩, Hg⟩, Ho, ⟨%d0, H0⟩, ⟨%d1, H1⟩, ⟨%d2, H2⟩⟩
    iapply (run0_C c (grid0.coords t) _ _ _ _ _ _ _ _ (fun h => h0 ((hcond0_0 t).mp h)) ((hcond0_1 t).mpr h1) (iblk0 V c 0 t) (iblk0 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrb Hg]
    · isplitl [HS Hrb]
      · isplitl [HS]; · iexact HS
        iexact Hrb
      iexact Hg
    isplitl [Ho]; · iexact Ho
    isplitl [H0]; · iexact H0
    isplitl [H1]; · iexact H1
    iexact H2
  · rw [Dat.leavesExact_idle (dat0 V c) 2 t (idleAt0_2 t (fun h => h1 ((hcond0_1 t).mp h))) (noFlush0_2 t (fun h => h1 ((hcond0_1 t).mp h)))]
    by_cases h0 : t.val % 16 = 0
    · rw [acc0_reset V c t h0]
      by_cases hz : t.val = 0
      · rw [PhiS0_castSucc V c t, PhiS0_zero V c _ _ hz, PhiA0_eq]
        iintro ⟨⟨⟨HS, Hrb⟩, Hg⟩, Ho, ⟨%d0, H0⟩, ⟨%d1, H1⟩, ⟨%d2, H2⟩⟩
        iapply (run0_A c (grid0.coords t) _ _ _ _ _ _ _ _ ((hcond0_0 t).mpr h0) (fun h => h1 ((hcond0_1 t).mp h)) (iblk0 V c 0 t) (iblk0 V c 1 t) _ Set.univ _)
        isplitl [H0]; · iexact H0
        isplitl [H1]; · iexact H1
        isplitl [H2]; · iexact H2
        isplitl [HS]; · iexact HS
        iintro ⟨H0, H1, H2, HS⟩
        isplitl [HS Hrb Hg]
        · isplitl [HS Hrb]
          · isplitl [HS]; · iexact HS
            iexact Hrb
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS, Hrb⟩, Hg⟩, Ho, ⟨%d0, H0⟩, ⟨%d1, H1⟩, ⟨%d2, H2⟩⟩
        iapply (run0_A c (grid0.coords t) _ _ _ _ _ _ _ _ ((hcond0_0 t).mpr h0) (fun h => h1 ((hcond0_1 t).mp h)) (iblk0 V c 0 t) (iblk0 V c 1 t) _ Set.univ _)
        isplitl [H0]; · iexact H0
        isplitl [H1]; · iexact H1
        isplitl [H2]; · iexact H2
        isplitl [HS]; · iexists _; iexact HS
        iintro ⟨H0, H1, H2, HS⟩
        isplitl [HS Hrb Hg]
        · isplitl [HS Hrb]
          · isplitl [HS]; · iexact HS
            iexact Hrb
          iexact Hg
        isplitl [Ho]; · iexact Ho
        isplitl [H0]; · iexact H0
        isplitl [H1]; · iexact H1
        iexists _; iexact H2
    · have hz : t.val ≠ 0 := fun e => h0 (by rw [e])
      rw [acc0_step V c t h0, PhiS0_castSucc V c t, PhiS0_pos V c _ _ hz]
      iintro ⟨⟨⟨HS, Hrb⟩, Hg⟩, Ho, ⟨%d0, H0⟩, ⟨%d1, H1⟩, ⟨%d2, H2⟩⟩
      iapply (run0_B c (grid0.coords t) _ _ _ _ _ _ _ _ (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hrb Hg]
      · isplitl [HS Hrb]
        · isplitl [HS]; · iexact HS
          iexact Hrb
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After the last point the invariant gives the entry invariant back: the accumulator's contents are forgotten. -/
theorem Phi_out0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS, Hrb⟩, Hg⟩
  isplitl [HS Hrb]
  · isplitl [HS]
    · iexists _; iexact HS
    iexact Hrb
  iexact Hg

end Cert.KernelIdeal.Hand

end
-- ==== Proof.Body1.lean ====
/-
  The body of kernel 1 on whole staging buffers, in each of the three cases its two conditionals meet on the grid:
  the inner coordinate 0 (the accumulator is zeroed first), strictly between, and 15 (the accumulator is also written
  to the output window). In every case the accumulator ends at the product of the two input blocks added to what it
  held (to zero in the first case); the inputs are left as they were.
-/
import proofs.«116801_j83777632076060_2_alg».proof.Proof.Blocks
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional of the body: the inner coordinate is 0. -/
abbrev cond1_0 (i : grid1.Coords) : Prop := (Scalar.cmpi .ne (Scalar.extui (Scalar.cmpi .eq (BitVec.ofNat 32 (i 1).val) 0#32)) 0#32) = 1#1
/-- The second conditional of the body: the inner coordinate is 15. -/
abbrev cond1_1 (i : grid1.Coords) : Prop := k1_cond2 i = 1#1

/-- The offsets of every access of these bodies: zero on both axes. -/
theorem hz2_1 : (![0, 0] : Fin 2 → Nat) = fun _ => 0 := by funext a; fin_cases a <;> rfl

set_option maxHeartbeats 1000000 in
theorem run1_A (c : Dev nD) (i : grid1.Coords) (arg2 : Memref sig .tc .vmem S1024x256 .f32) (harg2 : arg2.IsWhole) (arg3 : Memref sig .tc .vmem S256x2048 .bf16) (harg3 : arg3.IsWhole) (arg4 : Memref sig .tc .vmem S1024x2048 .bf16) (harg4 : arg4.IsWhole) (arg5 : Memref sig .tc .vmem S1024x2048 .f32) (harg5 : arg5.IsWhole)
    (hc0 : cond1_0 i) (hc1 : ¬cond1_1 i)
    (x0 : Vec F S1024x256 .f32) (x1 : Vec F S256x2048 .bf16) (xi : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 (k1_pay1 (F := F)))) -∗ K ⟨⟩))
      ⊢ wp frame (wpE (defs₀ (F := F)) Variants.none c none) E (cc1__stage_mid_kernel i arg2 harg2 arg3 harg3 arg4 harg4 arg5 harg5) K := by
  simp only [cc1__stage_mid_kernel_eq_skeleton]; unfold cc1__stage_mid_kernel_skel
  unfold owns
  iintro ⟨⟨%f0, %hf0, H0⟩, ⟨%f1, %hf1, H1⟩, ⟨%fo, %hfo, Ho⟩, ⟨%ds, %fs, -, HS⟩, Hk⟩
  obtain rfl := harg2.eq_unread hf0; obtain rfl := harg3.eq_unread hf1; obtain rfl := harg4.eq_unread hfo
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexists _; isplitr; · ipureintro; exact harg4.read_unread _
    iexact Ho
  iexists _; isplitr
  swap; · iexact HS
  ipureintro
  sl_unfold_run_names
  rw [View.read_writes_eq_canon _ _ _ (fun y => ⟨_, List.mem_cons.mpr (Or.inl rfl), View.mem_set_unit_zero hz2_1 inb_S1024x2048_S1024x2048_0_0 y⟩), View.canon_cons_unit_zero hz2_1]
  simp only [View.readAt_eq_ld, harg2.read_unread, harg3.read_unread, harg4.read_unread, harg5.read_unread, View.ld_unit_zero (S := S1024x256) hz2_1, View.ld_unit_zero (S := S256x2048) hz2_1, View.ld_unit_zero (S := S1024x2048) hz2_1, View.readCov_unit_zero (S := S1024x2048) arg5.view hz2_1]

set_option maxHeartbeats 1000000 in
theorem run1_B (c : Dev nD) (i : grid1.Coords) (arg2 : Memref sig .tc .vmem S1024x256 .f32) (harg2 : arg2.IsWhole) (arg3 : Memref sig .tc .vmem S256x2048 .bf16) (harg3 : arg3.IsWhole) (arg4 : Memref sig .tc .vmem S1024x2048 .bf16) (harg4 : arg4.IsWhole) (arg5 : Memref sig .tc .vmem S1024x2048 .f32) (harg5 : arg5.IsWhole)
    (hc0 : ¬cond1_0 i) (hc1 : ¬cond1_1 i)
    (x0 : Vec F S1024x256 .f32) (x1 : Vec F S256x2048 .bf16) (xi : Vec F S1024x2048 .bf16) (xs : Vec F S1024x2048 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 xs)) -∗ K ⟨⟩))
      ⊢ wp frame (wpE (defs₀ (F := F)) Variants.none c none) E (cc1__stage_mid_kernel i arg2 harg2 arg3 harg3 arg4 harg4 arg5 harg5) K := by
  simp only [cc1__stage_mid_kernel_eq_skeleton]; unfold cc1__stage_mid_kernel_skel
  unfold owns
  iintro ⟨⟨%f0, %hf0, H0⟩, ⟨%f1, %hf1, H1⟩, ⟨%fo, %hfo, Ho⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexists _; isplitr; · ipureintro; exact harg4.read_unread _
    iexact Ho
  iexists _; isplitr
  swap; · iexact HS
  ipureintro
  rw [View.read_writes_eq_canon _ _ _ (fun y => ⟨_, List.mem_singleton_self _, View.mem_set_unit_zero hz2_1 inb_S1024x2048_S1024x2048_0_0 y⟩), View.canon_unit_zero hz2_1]
  simp only [View.readAt_eq_ld, harg2.read_unread, harg3.read_unread, harg4.read_unread, harg5.read_unread, View.ld_unit_zero (S := S1024x256) hz2_1, View.ld_unit_zero (S := S256x2048) hz2_1, View.ld_unit_zero (S := S1024x2048) hz2_1]

set_option maxHeartbeats 1000000 in
theorem run1_C (c : Dev nD) (i : grid1.Coords) (arg2 : Memref sig .tc .vmem S1024x256 .f32) (harg2 : arg2.IsWhole) (arg3 : Memref sig .tc .vmem S256x2048 .bf16) (harg3 : arg3.IsWhole) (arg4 : Memref sig .tc .vmem S1024x2048 .bf16) (harg4 : arg4.IsWhole) (arg5 : Memref sig .tc .vmem S1024x2048 .f32) (harg5 : arg5.IsWhole)
    (hc0 : ¬cond1_0 i) (hc1 : cond1_1 i)
    (x0 : Vec F S1024x256 .f32) (x1 : Vec F S256x2048 .bf16) (xs : Vec F S1024x2048 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay3 (k1_pay2 x0 x1 xs)) ∗ owns (c : Thread nD τ) arg5 fullShare (k1_pay2 x0 x1 xs)) -∗ K ⟨⟩))
      ⊢ wp frame (wpE (defs₀ (F := F)) Variants.none c none) E (cc1__stage_mid_kernel i arg2 harg2 arg3 harg3 arg4 harg4 arg5 harg5) K := by
  simp only [cc1__stage_mid_kernel_eq_skeleton]; unfold cc1__stage_mid_kernel_skel
  unfold owns
  iintro ⟨⟨%f0, %hf0, H0⟩, ⟨%f1, %hf1, H1⟩, ⟨%do_, %fo, -, Ho⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexists _; isplitr
    swap; · iexact Ho
    ipureintro
    sl_unfold_run_names
    rw [View.read_writes_eq_canon _ _ _ (fun y => ⟨_, List.mem_singleton_self _, View.mem_set_unit_zero hz2_1 inb_S1024x2048_S1024x2048_0_0 y⟩), View.canon_unit_zero hz2_1]
    simp only [View.readAt_eq_ld, harg2.read_unread, harg3.read_unread, harg4.read_unread, harg5.read_unread, View.ld_unit_zero (S := S1024x256) hz2_1, View.ld_unit_zero (S := S256x2048) hz2_1, View.ld_unit_zero (S := S1024x2048) hz2_1, View.readCov_unit_zero (S := S1024x2048) arg5.view hz2_1]
  iexists _; isplitr
  swap; · iexact HS
  ipureintro
  sl_unfold_run_names
  rw [View.read_writes_eq_canon _ _ _ (fun y => ⟨_, List.mem_cons.mpr (Or.inl rfl), View.mem_set_unit_zero hz2_1 inb_S1024x2048_S1024x2048_0_0 y⟩), View.canon_cons_unit_zero hz2_1]
  simp only [View.readAt_eq_ld, harg2.read_unread, harg3.read_unread, harg4.read_unread, harg5.read_unread, View.ld_unit_zero (S := S1024x256) hz2_1, View.ld_unit_zero (S := S256x2048) hz2_1, View.ld_unit_zero (S := S1024x2048) hz2_1, View.readCov_unit_zero (S := S1024x2048) arg5.view hz2_1]

end Cert.KernelIdeal.Hand

end
-- ==== Proof.Frame1.lean ====
/-
  Region 1 as a pipelined loop with a tracked accumulator: the proof data of its pipeline at the arrays the region is
  entered with — every input window's buffer at its block, the output window's at what the last inner point stores,
  the scratch accumulator carried from point to point at `acc1` —, and the body's obligation at every grid point,
  by cases on the inner coordinate (0, strictly between, 15).
-/
import proofs.«116801_j83777632076060_2_alg».proof.Proof.Body1
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The conditions and the idle points, decided over the grid -/

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last inner point the output window is idle and not written back; at it, live. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The staging memrefs at a point, and the scratch -/

abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x2048 .bf16 := win1_2.stage (cfg1.slots t 2)
abbrev hs1_2 (t : Fin cfg1.N) : (ms1_2 t).IsWhole := hstage1_2 ((cfg1.slots t 2).cast nbuf1_2)
abbrev scM1 : Memref sig .tc .vmem S1024x2048 .f32 := Memref.whole cc1_scratch0

/-- The core's scoped buffers that are neither a staging buffer of this pipeline nor its scratch, at some contents
    each: carried through the region unopened. -/
abbrev restBut1 (c : Dev nD) : sProp 𝕄 :=
  Pipeline.scopedRestBut (Ix := Unit) (Name := ℕ) (U := UR sig nD τ) (Lvl := ℕ) (Val := Elt F) spec1 c [cc1_scratch0]

/-- The region's entry invariant: the scratch as an owned memref at some contents, the other scoped buffers, the
    generator register at some state. -/
theorem PhiA1_eq (c : Dev nD) :
    (Pipeline.ΦA spec1 c : sProp 𝕄)
      = iprop(iprop((∃ d, owns (c : Thread nD τ) scM1 fullShare d) ∗ restBut1 c) ∗ (∃ r, prngReg c r)) := by
  unfold Pipeline.ΦA
  rw [Pipeline.scopedRest_split_of_list spec1 c [cc1_scratch0] (by decide) (by decide)]
  simp only [scM1, owns_whole]; try rfl

variable (V : (c : Dev nD) → (b : Ref sig .tc) → Buf (Elt F) ((c : Thread nD τ).loc b))

/-! ## The accumulator's recursion, at a point -/

theorem acc1_reset (c : Dev nD) (t : Fin cfg1.N) (h0 : t.val % 16 = 0) :
    acc1 V c t.val t.isLt = k1_pay2 (iblk1 V c 0 t) (iblk1 V c 1 t) (k1_pay1 (F := F)) := by
  obtain ⟨n, hn⟩ := t
  cases n with
  | zero => rfl
  | succ n => dsimp only at h0 ⊢; rw [acc1, if_pos h0]

theorem acc1_step (c : Dev nD) (t : Fin cfg1.N) (h0 : ¬t.val % 16 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => dsimp only at h0 ⊢; rw [acc1, if_neg h0]; rfl

/-! ## The invariant and the proof data -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Before the first point the scratch holds anything; after point `n` it holds the accumulator `acc1` there. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ restBut1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn) ∗ restBut1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega)) ∗ restBut1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 16 = 15
  · have h0 : ¬t.val % 16 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    unfold out1
    rw [acc1_step V c t h0, PhiS1_castSucc V c t, PhiS1_pos V c _ _ hz]
    iintro ⟨⟨⟨HS, Hrb⟩, Hg⟩, Ho, ⟨%d0, H0⟩, ⟨%d1, H1⟩, ⟨%d2, H2⟩⟩
    iapply (run1_C c (grid1.coords t) _ _ _ _ _ _ _ _ (fun h => h0 ((hcond1_0 t).mp h)) ((hcond1_1 t).mpr h1) (iblk1 V c 0 t) (iblk1 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrb Hg]
    · isplitl [HS Hrb]
      · isplitl [HS]; · iexact HS
        iexact Hrb
      iexact Hg
    isplitl [Ho]; · iexact Ho
    isplitl [H0]; · iexact H0
    isplitl [H1]; · iexact H1
    iexact H2
  · rw [Dat.leavesExact_idle (dat1 V c) 2 t (idleAt1_2 t (fun h => h1 ((hcond1_1 t).mp h))) (noFlush1_2 t (fun h => h1 ((hcond1_1 t).mp h)))]
    by_cases h0 : t.val % 16 = 0
    · rw [acc1_reset V c t h0]
      by_cases hz : t.val = 0
      · rw [PhiS1_castSucc V c t, PhiS1_zero V c _ _ hz, PhiA1_eq]
        iintro ⟨⟨⟨HS, Hrb⟩, Hg⟩, Ho, ⟨%d0, H0⟩, ⟨%d1, H1⟩, ⟨%d2, H2⟩⟩
        iapply (run1_A c (grid1.coords t) _ _ _ _ _ _ _ _ ((hcond1_0 t).mpr h0) (fun h => h1 ((hcond1_1 t).mp h)) (iblk1 V c 0 t) (iblk1 V c 1 t) _ Set.univ _)
        isplitl [H0]; · iexact H0
        isplitl [H1]; · iexact H1
        isplitl [H2]; · iexact H2
        isplitl [HS]; · iexact HS
        iintro ⟨H0, H1, H2, HS⟩
        isplitl [HS Hrb Hg]
        · isplitl [HS Hrb]
          · isplitl [HS]; · iexact HS
            iexact Hrb
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS, Hrb⟩, Hg⟩, Ho, ⟨%d0, H0⟩, ⟨%d1, H1⟩, ⟨%d2, H2⟩⟩
        iapply (run1_A c (grid1.coords t) _ _ _ _ _ _ _ _ ((hcond1_0 t).mpr h0) (fun h => h1 ((hcond1_1 t).mp h)) (iblk1 V c 0 t) (iblk1 V c 1 t) _ Set.univ _)
        isplitl [H0]; · iexact H0
        isplitl [H1]; · iexact H1
        isplitl [H2]; · iexact H2
        isplitl [HS]; · iexists _; iexact HS
        iintro ⟨H0, H1, H2, HS⟩
        isplitl [HS Hrb Hg]
        · isplitl [HS Hrb]
          · isplitl [HS]; · iexact HS
            iexact Hrb
          iexact Hg
        isplitl [Ho]; · iexact Ho
        isplitl [H0]; · iexact H0
        isplitl [H1]; · iexact H1
        iexists _; iexact H2
    · have hz : t.val ≠ 0 := fun e => h0 (by rw [e])
      rw [acc1_step V c t h0, PhiS1_castSucc V c t, PhiS1_pos V c _ _ hz]
      iintro ⟨⟨⟨HS, Hrb⟩, Hg⟩, Ho, ⟨%d0, H0⟩, ⟨%d1, H1⟩, ⟨%d2, H2⟩⟩
      iapply (run1_B c (grid1.coords t) _ _ _ _ _ _ _ _ (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hrb Hg]
      · isplitl [HS Hrb]
        · isplitl [HS]; · iexact HS
          iexact Hrb
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After the last point the invariant gives the entry invariant back: the accumulator's contents are forgotten. -/
theorem Phi_out1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, Hrb⟩, Hg⟩
  isplitl [HS Hrb]
  · isplitl [HS]
    · iexists _; iexact HS
    iexact Hrb
  iexact Hg

end Cert.KernelIdeal.Hand

end
-- ==== Proof.Body2.lean ====
/-
  The body of kernel 2 on whole staging buffers, in each of the three cases its two conditionals meet on the grid:
  the inner coordinate 0 (the accumulator is zeroed first), strictly between, and 15 (the accumulator is also written
  to the output window). In every case the accumulator ends at the product of the two input blocks added to what it
  held (to zero in the first case); the inputs are left as they were.
-/
import proofs.«116801_j83777632076060_2_alg».proof.Proof.Blocks
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional of the body: the inner coordinate is 0. -/
abbrev cond2_0 (i : grid2.Coords) : Prop := (Scalar.cmpi .ne (Scalar.extui (Scalar.cmpi .eq (BitVec.ofNat 32 (i 1).val) 0#32)) 0#32) = 1#1
/-- The second conditional of the body: the inner coordinate is 15. -/
abbrev cond2_1 (i : grid2.Coords) : Prop := k2_cond2 i = 1#1

/-- The offsets of every access of these bodies: zero on both axes. -/
theorem hz2_2 : (![0, 0] : Fin 2 → Nat) = fun _ => 0 := by funext a; fin_cases a <;> rfl

set_option maxHeartbeats 1000000 in
theorem run2_A (c : Dev nD) (i : grid2.Coords) (arg2 : Memref sig .tc .vmem S1024x256 .f32) (harg2 : arg2.IsWhole) (arg3 : Memref sig .tc .vmem S256x2048 .bf16) (harg3 : arg3.IsWhole) (arg4 : Memref sig .tc .vmem S1024x2048 .bf16) (harg4 : arg4.IsWhole) (arg5 : Memref sig .tc .vmem S1024x2048 .f32) (harg5 : arg5.IsWhole)
    (hc0 : cond2_0 i) (hc1 : ¬cond2_1 i)
    (x0 : Vec F S1024x256 .f32) (x1 : Vec F S256x2048 .bf16) (xi : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k2_pay2 x0 x1 (k2_pay1 (F := F)))) -∗ K ⟨⟩))
      ⊢ wp frame (wpE (defs₀ (F := F)) Variants.none c none) E (cc2__stage_mid_kernel i arg2 harg2 arg3 harg3 arg4 harg4 arg5 harg5) K := by
  simp only [cc2__stage_mid_kernel_eq_skeleton]; unfold cc2__stage_mid_kernel_skel
  unfold owns
  iintro ⟨⟨%f0, %hf0, H0⟩, ⟨%f1, %hf1, H1⟩, ⟨%fo, %hfo, Ho⟩, ⟨%ds, %fs, -, HS⟩, Hk⟩
  obtain rfl := harg2.eq_unread hf0; obtain rfl := harg3.eq_unread hf1; obtain rfl := harg4.eq_unread hfo
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexists _; isplitr; · ipureintro; exact harg4.read_unread _
    iexact Ho
  iexists _; isplitr
  swap; · iexact HS
  ipureintro
  sl_unfold_run_names
  rw [View.read_writes_eq_canon _ _ _ (fun y => ⟨_, List.mem_cons.mpr (Or.inl rfl), View.mem_set_unit_zero hz2_2 inb_S1024x2048_S1024x2048_0_0 y⟩), View.canon_cons_unit_zero hz2_2]
  simp only [View.readAt_eq_ld, harg2.read_unread, harg3.read_unread, harg4.read_unread, harg5.read_unread, View.ld_unit_zero (S := S1024x256) hz2_2, View.ld_unit_zero (S := S256x2048) hz2_2, View.ld_unit_zero (S := S1024x2048) hz2_2, View.readCov_unit_zero (S := S1024x2048) arg5.view hz2_2]

set_option maxHeartbeats 1000000 in
theorem run2_B (c : Dev nD) (i : grid2.Coords) (arg2 : Memref sig .tc .vmem S1024x256 .f32) (harg2 : arg2.IsWhole) (arg3 : Memref sig .tc .vmem S256x2048 .bf16) (harg3 : arg3.IsWhole) (arg4 : Memref sig .tc .vmem S1024x2048 .bf16) (harg4 : arg4.IsWhole) (arg5 : Memref sig .tc .vmem S1024x2048 .f32) (harg5 : arg5.IsWhole)
    (hc0 : ¬cond2_0 i) (hc1 : ¬cond2_1 i)
    (x0 : Vec F S1024x256 .f32) (x1 : Vec F S256x2048 .bf16) (xi : Vec F S1024x2048 .bf16) (xs : Vec F S1024x2048 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k2_pay2 x0 x1 xs)) -∗ K ⟨⟩))
      ⊢ wp frame (wpE (defs₀ (F := F)) Variants.none c none) E (cc2__stage_mid_kernel i arg2 harg2 arg3 harg3 arg4 harg4 arg5 harg5) K := by
  simp only [cc2__stage_mid_kernel_eq_skeleton]; unfold cc2__stage_mid_kernel_skel
  unfold owns
  iintro ⟨⟨%f0, %hf0, H0⟩, ⟨%f1, %hf1, H1⟩, ⟨%fo, %hfo, Ho⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexists _; isplitr; · ipureintro; exact harg4.read_unread _
    iexact Ho
  iexists _; isplitr
  swap; · iexact HS
  ipureintro
  rw [View.read_writes_eq_canon _ _ _ (fun y => ⟨_, List.mem_singleton_self _, View.mem_set_unit_zero hz2_2 inb_S1024x2048_S1024x2048_0_0 y⟩), View.canon_unit_zero hz2_2]
  simp only [View.readAt_eq_ld, harg2.read_unread, harg3.read_unread, harg4.read_unread, harg5.read_unread, View.ld_unit_zero (S := S1024x256) hz2_2, View.ld_unit_zero (S := S256x2048) hz2_2, View.ld_unit_zero (S := S1024x2048) hz2_2]

set_option maxHeartbeats 1000000 in
theorem run2_C (c : Dev nD) (i : grid2.Coords) (arg2 : Memref sig .tc .vmem S1024x256 .f32) (harg2 : arg2.IsWhole) (arg3 : Memref sig .tc .vmem S256x2048 .bf16) (harg3 : arg3.IsWhole) (arg4 : Memref sig .tc .vmem S1024x2048 .bf16) (harg4 : arg4.IsWhole) (arg5 : Memref sig .tc .vmem S1024x2048 .f32) (harg5 : arg5.IsWhole)
    (hc0 : ¬cond2_0 i) (hc1 : cond2_1 i)
    (x0 : Vec F S1024x256 .f32) (x1 : Vec F S256x2048 .bf16) (xs : Vec F S1024x2048 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k2_pay3 (k2_pay2 x0 x1 xs)) ∗ owns (c : Thread nD τ) arg5 fullShare (k2_pay2 x0 x1 xs)) -∗ K ⟨⟩))
      ⊢ wp frame (wpE (defs₀ (F := F)) Variants.none c none) E (cc2__stage_mid_kernel i arg2 harg2 arg3 harg3 arg4 harg4 arg5 harg5) K := by
  simp only [cc2__stage_mid_kernel_eq_skeleton]; unfold cc2__stage_mid_kernel_skel
  unfold owns
  iintro ⟨⟨%f0, %hf0, H0⟩, ⟨%f1, %hf1, H1⟩, ⟨%do_, %fo, -, Ho⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexists _; isplitr
    swap; · iexact Ho
    ipureintro
    sl_unfold_run_names
    rw [View.read_writes_eq_canon _ _ _ (fun y => ⟨_, List.mem_singleton_self _, View.mem_set_unit_zero hz2_2 inb_S1024x2048_S1024x2048_0_0 y⟩), View.canon_unit_zero hz2_2]
    simp only [View.readAt_eq_ld, harg2.read_unread, harg3.read_unread, harg4.read_unread, harg5.read_unread, View.ld_unit_zero (S := S1024x256) hz2_2, View.ld_unit_zero (S := S256x2048) hz2_2, View.ld_unit_zero (S := S1024x2048) hz2_2, View.readCov_unit_zero (S := S1024x2048) arg5.view hz2_2]
  iexists _; isplitr
  swap; · iexact HS
  ipureintro
  sl_unfold_run_names
  rw [View.read_writes_eq_canon _ _ _ (fun y => ⟨_, List.mem_cons.mpr (Or.inl rfl), View.mem_set_unit_zero hz2_2 inb_S1024x2048_S1024x2048_0_0 y⟩), View.canon_cons_unit_zero hz2_2]
  simp only [View.readAt_eq_ld, harg2.read_unread, harg3.read_unread, harg4.read_unread, harg5.read_unread, View.ld_unit_zero (S := S1024x256) hz2_2, View.ld_unit_zero (S := S256x2048) hz2_2, View.ld_unit_zero (S := S1024x2048) hz2_2, View.readCov_unit_zero (S := S1024x2048) arg5.view hz2_2]

end Cert.KernelIdeal.Hand

end
-- ==== Proof.Frame2.lean ====
/-
  Region 2 as a pipelined loop with a tracked accumulator: the proof data of its pipeline at the arrays the region is
  entered with — every input window's buffer at its block, the output window's at what the last inner point stores,
  the scratch accumulator carried from point to point at `acc2` —, and the body's obligation at every grid point,
  by cases on the inner coordinate (0, strictly between, 15).
-/
import proofs.«116801_j83777632076060_2_alg».proof.Proof.Body2
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The conditions and the idle points, decided over the grid -/

theorem hcond2_0 : ∀ t : Fin cfg2.N, cond2_0 (grid2.coords t) ↔ t.val % 16 = 0 :=
  (by decide +kernel : ∀ t : Fin grid2.N, cond2_0 (grid2.coords t) ↔ t.val % 16 = 0)
theorem hcond2_1 : ∀ t : Fin cfg2.N, cond2_1 (grid2.coords t) ↔ t.val % 16 = 15 :=
  (by decide +kernel : ∀ t : Fin grid2.N, cond2_1 (grid2.coords t) ↔ t.val % 16 = 15)

theorem liveAt2_0 : ∀ t : Fin cfg2.N, cfg2.idle 0 (grid2.coords t) = false := by decide +kernel
theorem liveAt2_1 : ∀ t : Fin cfg2.N, cfg2.idle 1 (grid2.coords t) = false := by decide +kernel
/-- Away from the last inner point the output window is idle and not written back; at it, live. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-! ## The staging memrefs at a point, and the scratch -/

abbrev ms2_0 (t : Fin cfg2.N) : Memref sig .tc .vmem S1024x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x2048 .bf16 := win2_2.stage (cfg2.slots t 2)
abbrev hs2_2 (t : Fin cfg2.N) : (ms2_2 t).IsWhole := hstage2_2 ((cfg2.slots t 2).cast nbuf2_2)
abbrev scM2 : Memref sig .tc .vmem S1024x2048 .f32 := Memref.whole cc2_scratch0

/-- The core's scoped buffers that are neither a staging buffer of this pipeline nor its scratch, at some contents
    each: carried through the region unopened. -/
abbrev restBut2 (c : Dev nD) : sProp 𝕄 :=
  Pipeline.scopedRestBut (Ix := Unit) (Name := ℕ) (U := UR sig nD τ) (Lvl := ℕ) (Val := Elt F) spec2 c [cc2_scratch0]

/-- The region's entry invariant: the scratch as an owned memref at some contents, the other scoped buffers, the
    generator register at some state. -/
theorem PhiA2_eq (c : Dev nD) :
    (Pipeline.ΦA spec2 c : sProp 𝕄)
      = iprop(iprop((∃ d, owns (c : Thread nD τ) scM2 fullShare d) ∗ restBut2 c) ∗ (∃ r, prngReg c r)) := by
  unfold Pipeline.ΦA
  rw [Pipeline.scopedRest_split_of_list spec2 c [cc2_scratch0] (by decide) (by decide)]
  simp only [scM2, owns_whole]; try rfl

variable (V : (c : Dev nD) → (b : Ref sig .tc) → Buf (Elt F) ((c : Thread nD τ).loc b))

/-! ## The accumulator's recursion, at a point -/

theorem acc2_reset (c : Dev nD) (t : Fin cfg2.N) (h0 : t.val % 16 = 0) :
    acc2 V c t.val t.isLt = k2_pay2 (iblk2 V c 0 t) (iblk2 V c 1 t) (k2_pay1 (F := F)) := by
  obtain ⟨n, hn⟩ := t
  cases n with
  | zero => rfl
  | succ n => dsimp only at h0 ⊢; rw [acc2, if_pos h0]

theorem acc2_step (c : Dev nD) (t : Fin cfg2.N) (h0 : ¬t.val % 16 = 0) :
    acc2 V c t.val t.isLt = k2_pay2 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h0
  | succ n => dsimp only at h0 ⊢; rw [acc2, if_neg h0]; rfl

/-! ## The invariant and the proof data -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Before the first point the scratch holds anything; after point `n` it holds the accumulator `acc2` there. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ restBut2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare (acc2 V c n hn) ∗ restBut2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare (acc2 V c (n - 1) (by omega)) ∗ restBut2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h1 : t.val % 16 = 15
  · have h0 : ¬t.val % 16 = 0 := by omega
    have hz : t.val ≠ 0 := by omega
    rw [show (dat2 V c).leavesExact 2 t = owns (c : Thread nD τ) (ms2_2 t) fullShare ((dat2 V c).after 2 t) from by
      unfold Dat.leavesExact; rw [liveAt2_2 t ((hcond2_1 t).mpr h1)], after2_2]
    unfold out2
    rw [acc2_step V c t h0, PhiS2_castSucc V c t, PhiS2_pos V c _ _ hz]
    iintro ⟨⟨⟨HS, Hrb⟩, Hg⟩, Ho, ⟨%d0, H0⟩, ⟨%d1, H1⟩, ⟨%d2, H2⟩⟩
    iapply (run2_C c (grid2.coords t) _ _ _ _ _ _ _ _ (fun h => h0 ((hcond2_0 t).mp h)) ((hcond2_1 t).mpr h1) (iblk2 V c 0 t) (iblk2 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrb Hg]
    · isplitl [HS Hrb]
      · isplitl [HS]; · iexact HS
        iexact Hrb
      iexact Hg
    isplitl [Ho]; · iexact Ho
    isplitl [H0]; · iexact H0
    isplitl [H1]; · iexact H1
    iexact H2
  · rw [Dat.leavesExact_idle (dat2 V c) 2 t (idleAt2_2 t (fun h => h1 ((hcond2_1 t).mp h))) (noFlush2_2 t (fun h => h1 ((hcond2_1 t).mp h)))]
    by_cases h0 : t.val % 16 = 0
    · rw [acc2_reset V c t h0]
      by_cases hz : t.val = 0
      · rw [PhiS2_castSucc V c t, PhiS2_zero V c _ _ hz, PhiA2_eq]
        iintro ⟨⟨⟨HS, Hrb⟩, Hg⟩, Ho, ⟨%d0, H0⟩, ⟨%d1, H1⟩, ⟨%d2, H2⟩⟩
        iapply (run2_A c (grid2.coords t) _ _ _ _ _ _ _ _ ((hcond2_0 t).mpr h0) (fun h => h1 ((hcond2_1 t).mp h)) (iblk2 V c 0 t) (iblk2 V c 1 t) _ Set.univ _)
        isplitl [H0]; · iexact H0
        isplitl [H1]; · iexact H1
        isplitl [H2]; · iexact H2
        isplitl [HS]; · iexact HS
        iintro ⟨H0, H1, H2, HS⟩
        isplitl [HS Hrb Hg]
        · isplitl [HS Hrb]
          · isplitl [HS]; · iexact HS
            iexact Hrb
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS, Hrb⟩, Hg⟩, Ho, ⟨%d0, H0⟩, ⟨%d1, H1⟩, ⟨%d2, H2⟩⟩
        iapply (run2_A c (grid2.coords t) _ _ _ _ _ _ _ _ ((hcond2_0 t).mpr h0) (fun h => h1 ((hcond2_1 t).mp h)) (iblk2 V c 0 t) (iblk2 V c 1 t) _ Set.univ _)
        isplitl [H0]; · iexact H0
        isplitl [H1]; · iexact H1
        isplitl [H2]; · iexact H2
        isplitl [HS]; · iexists _; iexact HS
        iintro ⟨H0, H1, H2, HS⟩
        isplitl [HS Hrb Hg]
        · isplitl [HS Hrb]
          · isplitl [HS]; · iexact HS
            iexact Hrb
          iexact Hg
        isplitl [Ho]; · iexact Ho
        isplitl [H0]; · iexact H0
        isplitl [H1]; · iexact H1
        iexists _; iexact H2
    · have hz : t.val ≠ 0 := fun e => h0 (by rw [e])
      rw [acc2_step V c t h0, PhiS2_castSucc V c t, PhiS2_pos V c _ _ hz]
      iintro ⟨⟨⟨HS, Hrb⟩, Hg⟩, Ho, ⟨%d0, H0⟩, ⟨%d1, H1⟩, ⟨%d2, H2⟩⟩
      iapply (run2_B c (grid2.coords t) _ _ _ _ _ _ _ _ (fun h => h0 ((hcond2_0 t).mp h)) (fun h => h1 ((hcond2_1 t).mp h)) (iblk2 V c 0 t) (iblk2 V c 1 t) _ _ Set.univ _)
      isplitl [H0]; · iexact H0
      isplitl [H1]; · iexact H1
      isplitl [H2]; · iexact H2
      isplitl [HS]; · iexact HS
      iintro ⟨H0, H1, H2, HS⟩
      isplitl [HS Hrb Hg]
      · isplitl [HS Hrb]
        · isplitl [HS]; · iexact HS
          iexact Hrb
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- After the last point the invariant gives the entry invariant back: the accumulator's contents are forgotten. -/
theorem Phi_out2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨HS, Hrb⟩, Hg⟩
  isplitl [HS Hrb]
  · isplitl [HS]
    · iexists _; iexact HS
    iexact Hrb
  iexact Hg

end Cert.KernelIdeal.Hand

end
-- ==== Proof.Body3.lean ====
/-
  The body of kernel 3 on whole staging buffers, in each of the three cases its two conditionals meet on the grid:
  the inner coordinate 0 (the accumulator is zeroed first), strictly between, and 15 (the accumulator is also written
  to the output window). In every case the accumulator ends at the product of the two input blocks added to what it
  held (to zero in the first case); the inputs are left as they were.
-/
import proofs.«116801_j83777632076060_2_alg».proof.Proof.Blocks
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional of the body: the inner coordinate is 0. -/
abbrev cond3_0 (i : grid3.Coords) : Prop := (Scalar.cmpi .ne (Scalar.extui (Scalar.cmpi .eq (BitVec.ofNat 32 (i 1).val) 0#32)) 0#32) = 1#1
/-- The second conditional of the body: the inner coordinate is 15. -/
abbrev cond3_1 (i : grid3.Coords) : Prop := k3_cond2 i = 1#1

/-- The offsets of every access of these bodies: zero on both axes. -/
theorem hz2_3 : (![0, 0] : Fin 2 → Nat) = fun _ => 0 := by funext a; fin_cases a <;> rfl

set_option maxHeartbeats 1000000 in
theorem run3_A (c : Dev nD) (i : grid3.Coords) (arg2 : Memref sig .tc .vmem S1024x256 .f32) (harg2 : arg2.IsWhole) (arg3 : Memref sig .tc .vmem S256x2048 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole)
    (hc0 : cond3_0 i) (hc1 : ¬cond3_1 i)
    (x0 : Vec F S1024x256 .f32) (x1 : Vec F S256x2048 .bf16) (x2 : Vec F S1x1024 .f32) (xi : Vec F S2048x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare (k3_pay2 x0 x1 (k3_pay1 (F := F)))) -∗ K ⟨⟩))
      ⊢ wp frame (wpE (defs₀ (F := F)) Variants.none c none) E (cc3__stage_last_kernel i arg2 harg2 arg3 harg3 arg4 harg4 arg5 harg5 arg6 harg6) K := by
  simp only [cc3__stage_last_kernel_eq_skeleton]; unfold cc3__stage_last_kernel_skel
  unfold owns
  iintro ⟨⟨%f0, %hf0, H0⟩, ⟨%f1, %hf1, H1⟩, ⟨%f2, %hf2, H2⟩, ⟨%fo, %hfo, Ho⟩, ⟨%ds, %fs, -, HS⟩, Hk⟩
  obtain rfl := harg2.eq_unread hf0; obtain rfl := harg3.eq_unread hf1; obtain rfl := harg4.eq_unread hf2; obtain rfl := harg5.eq_unread hfo
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [Ho]
  · iexists _; isplitr; · ipureintro; exact harg5.read_unread _
    iexact Ho
  iexists _; isplitr
  swap; · iexact HS
  ipureintro
  sl_unfold_run_names
  rw [View.read_writes_eq_canon _ _ _ (fun y => ⟨_, List.mem_cons.mpr (Or.inl rfl), View.mem_set_unit_zero hz2_3 inb_S2048x1024_S2048x1024_0_0 y⟩), View.canon_cons_unit_zero hz2_3]
  simp only [View.readAt_eq_ld, harg2.read_unread, harg3.read_unread, harg4.read_unread, harg5.read_unread, harg6.read_unread, View.ld_unit_zero (S := S1024x256) hz2_3, View.ld_unit_zero (S := S256x2048) hz2_3, View.ld_unit_zero (S := S1x1024) hz2_3, View.ld_unit_zero (S := S2048x1024) hz2_3, View.readCov_unit_zero (S := S2048x1024) arg6.view hz2_3]

set_option maxHeartbeats 1000000 in
theorem run3_B (c : Dev nD) (i : grid3.Coords) (arg2 : Memref sig .tc .vmem S1024x256 .f32) (harg2 : arg2.IsWhole) (arg3 : Memref sig .tc .vmem S256x2048 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole)
    (hc0 : ¬cond3_0 i) (hc1 : ¬cond3_1 i)
    (x0 : Vec F S1024x256 .f32) (x1 : Vec F S256x2048 .bf16) (x2 : Vec F S1x1024 .f32) (xi : Vec F S2048x1024 .f32) (xs : Vec F S2048x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare (k3_pay2 x0 x1 xs)) -∗ K ⟨⟩))
      ⊢ wp frame (wpE (defs₀ (F := F)) Variants.none c none) E (cc3__stage_last_kernel i arg2 harg2 arg3 harg3 arg4 harg4 arg5 harg5 arg6 harg6) K := by
  simp only [cc3__stage_last_kernel_eq_skeleton]; unfold cc3__stage_last_kernel_skel
  unfold owns
  iintro ⟨⟨%f0, %hf0, H0⟩, ⟨%f1, %hf1, H1⟩, ⟨%f2, %hf2, H2⟩, ⟨%fo, %hfo, Ho⟩, ⟨%fs, %hfs, HS⟩, Hk⟩
  obtain rfl := harg2.eq_unread hf0; obtain rfl := harg3.eq_unread hf1; obtain rfl := harg4.eq_unread hf2; obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [Ho]
  · iexists _; isplitr; · ipureintro; exact harg5.read_unread _
    iexact Ho
  iexists _; isplitr
  swap; · iexact HS
  ipureintro
  rw [View.read_writes_eq_canon _ _ _ (fun y => ⟨_, List.mem_singleton_self _, View.mem_set_unit_zero hz2_3 inb_S2048x1024_S2048x1024_0_0 y⟩), View.canon_unit_zero hz2_3]
  simp only [View.readAt_eq_ld, harg2.read_unread, harg3.read_unread, harg4.read_unread, harg5.read_unread, harg6.read_unread, View.ld_unit_zero (S := S1024x256) hz2_3, View.ld_unit_zero (S := S256x2048) hz2_3, View.ld_unit_zero (S := S1x1024) hz2_3, View.ld_unit_zero (S := S2048x1024) hz2_3]

set_option maxHeartbeats 1000000 in
theorem run3_C (c : Dev nD) (i : grid3.Coords) (arg2 : Memref sig .tc .vmem S1024x256 .f32) (harg2 : arg2.IsWhole) (arg3 : Memref sig .tc .vmem S256x2048 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole)
    (hc0 : ¬cond3_0 i) (hc1 : cond3_1 i)
    (x0 : Vec F S1024x256 .f32) (x1 : Vec F S256x2048 .bf16) (x2 : Vec F S1x1024 .f32) (xs : Vec F S2048x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k3_pay3 x2 (k3_pay2 x0 x1 xs)) ∗ owns (c : Thread nD τ) arg6 fullShare (k3_pay2 x0 x1 xs)) -∗ K ⟨⟩))
      ⊢ wp frame (wpE (defs₀ (F := F)) Variants.none c none) E (cc3__stage_last_kernel i arg2 harg2 arg3 harg3 arg4 harg4 arg5 harg5 arg6 harg6) K := by
  simp only [cc3__stage_last_kernel_eq_skeleton]; unfold cc3__stage_last_kernel_skel
  unfold owns
  iintro ⟨⟨%f0, %hf0, H0⟩, ⟨%f1, %hf1, H1⟩, ⟨%f2, %hf2, H2⟩, ⟨%do_, %fo, -, Ho⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [Ho]
  · iexists _; isplitr
    swap; · iexact Ho
    ipureintro
    sl_unfold_run_names
    rw [View.read_writes_eq_canon _ _ _ (fun y => ⟨_, List.mem_singleton_self _, View.mem_set_unit_zero hz2_3 inb_S2048x1024_S2048x1024_0_0 y⟩), View.canon_unit_zero hz2_3]
    simp only [View.readAt_eq_ld, harg2.read_unread, harg3.read_unread, harg4.read_unread, harg5.read_unread, harg6.read_unread, View.ld_unit_zero (S := S1024x256) hz2_3, View.ld_unit_zero (S := S256x2048) hz2_3, View.ld_unit_zero (S := S1x1024) hz2_3, View.ld_unit_zero (S := S2048x1024) hz2_3, View.readCov_unit_zero (S := S2048x1024) arg6.view hz2_3]
  iexists _; isplitr
  swap; · iexact HS
  ipureintro
  sl_unfold_run_names
  rw [View.read_writes_eq_canon _ _ _ (fun y => ⟨_, List.mem_cons.mpr (Or.inl rfl), View.mem_set_unit_zero hz2_3 inb_S2048x1024_S2048x1024_0_0 y⟩), View.canon_cons_unit_zero hz2_3]
  simp only [View.readAt_eq_ld, harg2.read_unread, harg3.read_unread, harg4.read_unread, harg5.read_unread, harg6.read_unread, View.ld_unit_zero (S := S1024x256) hz2_3, View.ld_unit_zero (S := S256x2048) hz2_3, View.ld_unit_zero (S := S1x1024) hz2_3, View.ld_unit_zero (S := S2048x1024) hz2_3, View.readCov_unit_zero (S := S2048x1024) arg6.view hz2_3]

end Cert.KernelIdeal.Hand

end
-- ==== Proof.Frame3.lean ====
/-
  Region 3 as a pipelined loop with a tracked accumulator: the proof data of its pipeline at the arrays the region is
  entered with — every input window's buffer at its block, the output window's at what the last inner point stores,
  the scratch accumulator carried from point to point at `acc3` —, and the body's obligation at every grid point,
  by cases on the inner coordinate (0, strictly between, 15).
-/
import proofs.«116801_j83777632076060_2_alg».proof.Proof.Body3
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The conditions and the idle points, decided over the grid -/

theorem hcond3_0 : ∀ t : Fin cfg3.N, cond3_0 (grid3.coords t) ↔ t.val % 16 = 0 :=
  (by decide +kernel : ∀ t : Fin grid3.N, cond3_0 (grid3.coords t) ↔ t.val % 16 = 0)
theorem hcond3_1 : ∀ t : Fin cfg3.N, cond3_1 (grid3.coords t) ↔ t.val % 16 = 15 :=
  (by decide +kernel : ∀ t : Fin grid3.N, cond3_1 (grid3.coords t) ↔ t.val % 16 = 15)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from the last inner point the output window is idle and not written back; at it, live. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

/-! ## The staging memrefs at a point, and the scratch -/

abbrev ms3_0 (t : Fin cfg3.N) : Memref sig .tc .vmem S1024x256 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S256x2048 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x1024 .f32 := win3_3.stage (cfg3.slots t 3)
abbrev hs3_3 (t : Fin cfg3.N) : (ms3_3 t).IsWhole := hstage3_3 ((cfg3.slots t 3).cast nbuf3_3)
abbrev scM3 : Memref sig .tc .vmem S2048x1024 .f32 := Memref.whole cc3_scratch0

/-- The core's scoped buffers that are neither a staging buffer of this pipeline nor its scratch, at some contents
    each: carried through the region unopened. -/
abbrev restBut3 (c : Dev nD) : sProp 𝕄 :=
  Pipeline.scopedRestBut (Ix := Unit) (Name := ℕ) (U := UR sig nD τ) (Lvl := ℕ) (Val := Elt F) spec3 c [cc3_scratch0]

/-- The region's entry invariant: the scratch as an owned memref at some contents, the other scoped buffers, the
    generator register at some state. -/
theorem PhiA3_eq (c : Dev nD) :
    (Pipeline.ΦA spec3 c : sProp 𝕄)
      = iprop(iprop((∃ d, owns (c : Thread nD τ) scM3 fullShare d) ∗ restBut3 c) ∗ (∃ r, prngReg c r)) := by
  unfold Pipeline.ΦA
  rw [Pipeline.scopedRest_split_of_list spec3 c [cc3_scratch0] (by decide) (by decide)]
  simp only [scM3, owns_whole]; try rfl

variable (V : (c : Dev nD) → (b : Ref sig .tc) → Buf (Elt F) ((c : Thread nD τ).loc b))

/-! ## The accumulator's recursion, at a point -/

theorem acc3_reset (c : Dev nD) (t : Fin cfg3.N) (h0 : t.val % 16 = 0) :
    acc3 V c t.val t.isLt = k3_pay2 (iblk3 V c 0 t) (iblk3 V c 1 t) (k3_pay1 (F := F)) := by
  obtain ⟨n, hn⟩ := t
  cases n with
  | zero => rfl
  | succ n => dsimp only at h0 ⊢; rw [acc3, if_pos h0]

theorem acc3_step (c : Dev nD) (t : Fin cfg3.N) (h0 : ¬t.val % 16 = 0) :
    acc3 V c t.val t.isLt = k3_pay2 (iblk3 V c 0 t) (iblk3 V c 1 t) (acc3 V c (t.val - 1) (Nat.lt_of_le_of_lt (Nat.sub_le _ _) t.isLt)) := by
  obtain ⟨n, hn⟩ := t
  cases n with
  | zero => exact absurd (Nat.zero_mod _) h0
  | succ n => dsimp only at h0 ⊢; rw [acc3, if_neg h0]; rfl

/-! ## The invariant and the proof data -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Before the first point the scratch holds anything; after point `n` it holds the accumulator `acc3` there. -/
def PhiS3 (c : Dev nD) : (n : ℕ) → n ≤ cfg3.N → sProp 𝕄
  | 0, _ => Pipeline.ΦA spec3 c
  | n + 1, hn => iprop(iprop(owns (c : Thread nD τ) scM3 fullShare (acc3 V c n hn) ∗ restBut3 c) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare (acc3 V c n hn) ∗ restBut3 c) ∗ (∃ r, prngReg c r)) := rfl
theorem PhiS3_pos (c : Dev nD) (n : ℕ) (h : n ≤ cfg3.N) (hz : n ≠ 0) :
    PhiS3 V c n h = iprop(iprop(owns (c : Thread nD τ) scM3 fullShare (acc3 V c (n - 1) (by omega)) ∗ restBut3 c) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3 V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h1 : t.val % 16 = 15
  · have h0 : ¬t.val % 16 = 0 := by omega
    have hz : t.val ≠ 0 := by omega
    rw [show (dat3 V c).leavesExact 3 t = owns (c : Thread nD τ) (ms3_3 t) fullShare ((dat3 V c).after 3 t) from by
      unfold Dat.leavesExact; rw [liveAt3_3 t ((hcond3_1 t).mpr h1)], after3_3]
    unfold out3
    rw [acc3_step V c t h0, PhiS3_castSucc V c t, PhiS3_pos V c _ _ hz]
    iintro ⟨⟨⟨HS, Hrb⟩, Hg⟩, Ho, ⟨%d0, H0⟩, ⟨%d1, H1⟩, ⟨%d2, H2⟩, ⟨%d3, H3⟩⟩
    iapply (run3_C c (grid3.coords t) _ _ _ _ _ _ _ _ _ _ (fun h => h0 ((hcond3_0 t).mp h)) ((hcond3_1 t).mpr h1) (iblk3 V c 0 t) (iblk3 V c 1 t) (iblk3 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hrb Hg]
    · isplitl [HS Hrb]
      · isplitl [HS]; · iexact HS
        iexact Hrb
      iexact Hg
    isplitl [Ho]; · iexact Ho
    isplitl [H0]; · iexact H0
    isplitl [H1]; · iexact H1
    isplitl [H2]; · iexact H2
    iexact H3
  · rw [Dat.leavesExact_idle (dat3 V c) 3 t (idleAt3_3 t (fun h => h1 ((hcond3_1 t).mp h))) (noFlush3_3 t (fun h => h1 ((hcond3_1 t).mp h)))]
    by_cases h0 : t.val % 16 = 0
    · rw [acc3_reset V c t h0]
      by_cases hz : t.val = 0
      · rw [PhiS3_castSucc V c t, PhiS3_zero V c _ _ hz, PhiA3_eq]
        iintro ⟨⟨⟨HS, Hrb⟩, Hg⟩, Ho, ⟨%d0, H0⟩, ⟨%d1, H1⟩, ⟨%d2, H2⟩, ⟨%d3, H3⟩⟩
        iapply (run3_A c (grid3.coords t) _ _ _ _ _ _ _ _ _ _ ((hcond3_0 t).mpr h0) (fun h => h1 ((hcond3_1 t).mp h)) (iblk3 V c 0 t) (iblk3 V c 1 t) (iblk3 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hrb Hg]
        · isplitl [HS Hrb]
          · isplitl [HS]; · iexact HS
            iexact Hrb
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS, Hrb⟩, Hg⟩, Ho, ⟨%d0, H0⟩, ⟨%d1, H1⟩, ⟨%d2, H2⟩, ⟨%d3, H3⟩⟩
        iapply (run3_A c (grid3.coords t) _ _ _ _ _ _ _ _ _ _ ((hcond3_0 t).mpr h0) (fun h => h1 ((hcond3_1 t).mp h)) (iblk3 V c 0 t) (iblk3 V c 1 t) (iblk3 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS Hrb Hg]
        · isplitl [HS Hrb]
          · isplitl [HS]; · iexact HS
            iexact Hrb
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [acc3_step V c t h0, PhiS3_castSucc V c t, PhiS3_pos V c _ _ hz]
      iintro ⟨⟨⟨HS, Hrb⟩, Hg⟩, Ho, ⟨%d0, H0⟩, ⟨%d1, H1⟩, ⟨%d2, H2⟩, ⟨%d3, H3⟩⟩
      iapply (run3_B c (grid3.coords t) _ _ _ _ _ _ _ _ _ _ (fun h => h0 ((hcond3_0 t).mp h)) (fun h => h1 ((hcond3_1 t).mp h)) (iblk3 V c 0 t) (iblk3 V c 1 t) (iblk3 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrb Hg]
      · isplitl [HS Hrb]
        · isplitl [HS]; · iexact HS
          iexact Hrb
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- After the last point the invariant gives the entry invariant back: the accumulator's contents are forgotten. -/
theorem Phi_out3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 64 := N_3; omega), PhiA3_eq]
  iintro ⟨⟨HS, Hrb⟩, Hg⟩
  isplitl [HS Hrb]
  · isplitl [HS]
    · iexists _; iexact HS
    iexact Hrb
  iexact Hg

end Cert.KernelIdeal.Hand

end
-- ==== Proof.Run.lean ====
/-
  The run of the whole program: three chained regions, the bias reshaped on the host, the last region. Between two
  items every unscoped buffer of a core is held at a valuation — the launch memory, then each region's arrays replaced
  by what its write-backs leave, the host line's result written —, beside the generator register and a core that owes
  nothing. Every weakly fair execution terminates; at the end the result buffer holds what the last region's
  write-backs leave and every argument what it was launched with.
-/
import proofs.«116801_j83777632076060_2_alg».proof.Proof.Frame0
import proofs.«116801_j83777632076060_2_alg».proof.Proof.Frame1
import proofs.«116801_j83777632076060_2_alg».proof.Proof.Frame2
import proofs.«116801_j83777632076060_2_alg».proof.Proof.Frame3
import Idealize.ShloMosaic.Lib.Pipeline.RegionsLoop
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev VW0 : (c : Dev nD) → (b : Ref sig .tc) → Buf (Elt F) ((c : Thread nD τ).loc b) := fun c b => W0 m ρ c b

/-- At region 0's exit: its arrays at what the pipeline leaves, every other buffer as entered. -/
def W1 (c : Dev nD) : Valuation τ sig (Elt F) :=
  Pipeline.withArrays spec0 c (W0 m ρ c) fun w => (dat0 (VW0 m ρ) c).arrAt w cfg0.N
theorem W1_arr (c : Dev nD) (w : Fin cfg0.W) :
    W1 m ρ c (Proc.devRef .tc (Pipeline.arrRef spec0 w)) = (dat0 (VW0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VW1 : (c : Dev nD) → (b : Ref sig .tc) → Buf (Elt F) ((c : Thread nD τ).loc b) := fun c b => W1 m ρ c b
theorem hF0 (c : Dev nD) (w : Fin cfg0.W) : (dat0 (VW0 m ρ) c).arrAt w cfg0.N = VW1 m ρ c (Pipeline.arrRef spec0 w) :=
  (W1_arr m ρ c w).symm
theorem hrest0 (c : Dev nD) : ∀ b, b ∉ Finset.univ.image (Pipeline.arrRef spec0) → VW1 m ρ c b = VW0 m ρ c b :=
  fun b hb => W1_of_ne m ρ c b fun w e => hb (Finset.mem_image.mpr ⟨w, Finset.mem_univ _, e⟩)
/-- Region 0 changes no buffer but its output array: an input window's array ends as entered, any other is bypassed. -/
theorem W1_keep (c : Dev nD) (b : Ref sig .tc) (hb : b ≠ main_v0) :
    W1 m ρ c (Proc.devRef .tc b) = W0 m ρ c (Proc.devRef .tc b) := by
  by_cases h : ∃ w, Pipeline.arrRef spec0 w = b
  · obtain ⟨w, rfl⟩ := h
    rw [W1_arr]
    fin_cases w
    · exact ((dat0 (VW0 m ρ) c).arrAt_in 0 rfl _).trans (A_eq0 (VW0 m ρ) c 0)
    · exact ((dat0 (VW0 m ρ) c).arrAt_in 1 rfl _).trans (A_eq0 (VW0 m ρ) c 1)
    · exact absurd rfl hb
  · exact W1_of_ne m ρ c b fun w e => h ⟨w, e⟩

/-- At region 1's exit: its arrays at what the pipeline leaves, every other buffer as entered. -/
def W2 (c : Dev nD) : Valuation τ sig (Elt F) :=
  Pipeline.withArrays spec1 c (W1 m ρ c) fun w => (dat1 (VW1 m ρ) c).arrAt w cfg1.N
theorem W2_arr (c : Dev nD) (w : Fin cfg1.W) :
    W2 m ρ c (Proc.devRef .tc (Pipeline.arrRef spec1 w)) = (dat1 (VW1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev VW2 : (c : Dev nD) → (b : Ref sig .tc) → Buf (Elt F) ((c : Thread nD τ).loc b) := fun c b => W2 m ρ c b
theorem hF1 (c : Dev nD) (w : Fin cfg1.W) : (dat1 (VW1 m ρ) c).arrAt w cfg1.N = VW2 m ρ c (Pipeline.arrRef spec1 w) :=
  (W2_arr m ρ c w).symm
theorem hrest1 (c : Dev nD) : ∀ b, b ∉ Finset.univ.image (Pipeline.arrRef spec1) → VW2 m ρ c b = VW1 m ρ c b :=
  fun b hb => W2_of_ne m ρ c b fun w e => hb (Finset.mem_image.mpr ⟨w, Finset.mem_univ _, e⟩)
/-- Region 1 changes no buffer but its output array: an input window's array ends as entered, any other is bypassed. -/
theorem W2_keep (c : Dev nD) (b : Ref sig .tc) (hb : b ≠ main_v1) :
    W2 m ρ c (Proc.devRef .tc b) = W1 m ρ c (Proc.devRef .tc b) := by
  by_cases h : ∃ w, Pipeline.arrRef spec1 w = b
  · obtain ⟨w, rfl⟩ := h
    rw [W2_arr]
    fin_cases w
    · exact ((dat1 (VW1 m ρ) c).arrAt_in 0 rfl _).trans (A_eq1 (VW1 m ρ) c 0)
    · exact ((dat1 (VW1 m ρ) c).arrAt_in 1 rfl _).trans (A_eq1 (VW1 m ρ) c 1)
    · exact absurd rfl hb
  · exact W2_of_ne m ρ c b fun w e => h ⟨w, e⟩

/-- At region 2's exit: its arrays at what the pipeline leaves, every other buffer as entered. -/
def W3 (c : Dev nD) : Valuation τ sig (Elt F) :=
  Pipeline.withArrays spec2 c (W2 m ρ c) fun w => (dat2 (VW2 m ρ) c).arrAt w cfg2.N
theorem W3_arr (c : Dev nD) (w : Fin cfg2.W) :
    W3 m ρ c (Proc.devRef .tc (Pipeline.arrRef spec2 w)) = (dat2 (VW2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev VW3 : (c : Dev nD) → (b : Ref sig .tc) → Buf (Elt F) ((c : Thread nD τ).loc b) := fun c b => W3 m ρ c b
theorem hF2 (c : Dev nD) (w : Fin cfg2.W) : (dat2 (VW2 m ρ) c).arrAt w cfg2.N = VW3 m ρ c (Pipeline.arrRef spec2 w) :=
  (W3_arr m ρ c w).symm
theorem hrest2 (c : Dev nD) : ∀ b, b ∉ Finset.univ.image (Pipeline.arrRef spec2) → VW3 m ρ c b = VW2 m ρ c b :=
  fun b hb => W3_of_ne m ρ c b fun w e => hb (Finset.mem_image.mpr ⟨w, Finset.mem_univ _, e⟩)
/-- Region 2 changes no buffer but its output array: an input window's array ends as entered, any other is bypassed. -/
theorem W3_keep (c : Dev nD) (b : Ref sig .tc) (hb : b ≠ main_v2) :
    W3 m ρ c (Proc.devRef .tc b) = W2 m ρ c (Proc.devRef .tc b) := by
  by_cases h : ∃ w, Pipeline.arrRef spec2 w = b
  · obtain ⟨w, rfl⟩ := h
    rw [W3_arr]
    fin_cases w
    · exact ((dat2 (VW2 m ρ) c).arrAt_in 0 rfl _).trans (A_eq2 (VW2 m ρ) c 0)
    · exact ((dat2 (VW2 m ρ) c).arrAt_in 1 rfl _).trans (A_eq2 (VW2 m ρ) c 1)
    · exact absurd rfl hb
  · exact W3_of_ne m ρ c b fun w e => h ⟨w, e⟩

/-- After the host line that reshapes the bias (region 3's entry). -/
abbrev W4 : Dev nD → Valuation τ sig (Elt F) := fun c => StableHlo.after hostOps3 (W3 m ρ c)
abbrev VW4 : (c : Dev nD) → (b : Ref sig .tc) → Buf (Elt F) ((c : Thread nD τ).loc b) := fun c b => W4 m ρ c b
/-- The host line writes only its own result. -/
theorem W4_keep (c : Dev nD) (b : Ref sig .tc) (hb : b ≠ main_v3) :
    W4 m ρ c (Proc.devRef .tc b) = W3 m ρ c (Proc.devRef .tc b) :=
  StableHlo.after_of_forall_not_mem (b := Proc.devRef .tc b) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))

/-- At region 3's exit: its arrays at what the pipeline leaves, every other buffer as entered. -/
def W5 (c : Dev nD) : Valuation τ sig (Elt F) :=
  Pipeline.withArrays spec3 c (W4 m ρ c) fun w => (dat3 (VW4 m ρ) c).arrAt w cfg3.N
theorem W5_arr (c : Dev nD) (w : Fin cfg3.W) :
    W5 m ρ c (Proc.devRef .tc (Pipeline.arrRef spec3 w)) = (dat3 (VW4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev VW5 : (c : Dev nD) → (b : Ref sig .tc) → Buf (Elt F) ((c : Thread nD τ).loc b) := fun c b => W5 m ρ c b
theorem hF3 (c : Dev nD) (w : Fin cfg3.W) : (dat3 (VW4 m ρ) c).arrAt w cfg3.N = VW5 m ρ c (Pipeline.arrRef spec3 w) :=
  (W5_arr m ρ c w).symm
theorem hrest3 (c : Dev nD) : ∀ b, b ∉ Finset.univ.image (Pipeline.arrRef spec3) → VW5 m ρ c b = VW4 m ρ c b :=
  fun b hb => W5_of_ne m ρ c b fun w e => hb (Finset.mem_image.mpr ⟨w, Finset.mem_univ _, e⟩)
/-- Region 3 changes no buffer but its output array: an input window's array ends as entered, any other is bypassed. -/
theorem W5_keep (c : Dev nD) (b : Ref sig .tc) (hb : b ≠ main_v4) :
    W5 m ρ c (Proc.devRef .tc b) = W4 m ρ c (Proc.devRef .tc b) := by
  by_cases h : ∃ w, Pipeline.arrRef spec3 w = b
  · obtain ⟨w, rfl⟩ := h
    rw [W5_arr]
    fin_cases w
    · exact ((dat3 (VW4 m ρ) c).arrAt_in 0 rfl _).trans (A_eq3 (VW4 m ρ) c 0)
    · exact ((dat3 (VW4 m ρ) c).arrAt_in 1 rfl _).trans (A_eq3 (VW4 m ρ) c 1)
    · exact ((dat3 (VW4 m ρ) c).arrAt_in 2 rfl _).trans (A_eq3 (VW4 m ρ) c 2)
    · exact absurd rfl hb
  · exact W5_of_ne m ρ c b fun w e => h ⟨w, e⟩

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_keep m ρ c main_arg0 (by decide)
    _ = W3 m ρ c (Proc.devRef .tc main_arg0) := W4_keep m ρ c main_arg0 (by decide)
    _ = W2 m ρ c (Proc.devRef .tc main_arg0) := W3_keep m ρ c main_arg0 (by decide)
    _ = W1 m ρ c (Proc.devRef .tc main_arg0) := W2_keep m ρ c main_arg0 (by decide)
    _ = W0 m ρ c (Proc.devRef .tc main_arg0) := W1_keep m ρ c main_arg0 (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_keep m ρ c main_arg1 (by decide)
    _ = W3 m ρ c (Proc.devRef .tc main_arg1) := W4_keep m ρ c main_arg1 (by decide)
    _ = W2 m ρ c (Proc.devRef .tc main_arg1) := W3_keep m ρ c main_arg1 (by decide)
    _ = W1 m ρ c (Proc.devRef .tc main_arg1) := W2_keep m ρ c main_arg1 (by decide)
    _ = W0 m ρ c (Proc.devRef .tc main_arg1) := W1_keep m ρ c main_arg1 (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_keep m ρ c main_arg2 (by decide)
    _ = W3 m ρ c (Proc.devRef .tc main_arg2) := W4_keep m ρ c main_arg2 (by decide)
    _ = W2 m ρ c (Proc.devRef .tc main_arg2) := W3_keep m ρ c main_arg2 (by decide)
    _ = W1 m ρ c (Proc.devRef .tc main_arg2) := W2_keep m ρ c main_arg2 (by decide)
    _ = W0 m ρ c (Proc.devRef .tc main_arg2) := W1_keep m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_keep m ρ c main_arg3 (by decide)
    _ = W3 m ρ c (Proc.devRef .tc main_arg3) := W4_keep m ρ c main_arg3 (by decide)
    _ = W2 m ρ c (Proc.devRef .tc main_arg3) := W3_keep m ρ c main_arg3 (by decide)
    _ = W1 m ρ c (Proc.devRef .tc main_arg3) := W2_keep m ρ c main_arg3 (by decide)
    _ = W0 m ρ c (Proc.devRef .tc main_arg3) := W1_keep m ρ c main_arg3 (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_keep m ρ c main_arg4 (by decide)
    _ = W3 m ρ c (Proc.devRef .tc main_arg4) := W4_keep m ρ c main_arg4 (by decide)
    _ = W2 m ρ c (Proc.devRef .tc main_arg4) := W3_keep m ρ c main_arg4 (by decide)
    _ = W1 m ρ c (Proc.devRef .tc main_arg4) := W2_keep m ρ c main_arg4 (by decide)
    _ = W0 m ρ c (Proc.devRef .tc main_arg4) := W1_keep m ρ c main_arg4 (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_keep m ρ c main_arg5 (by decide)
    _ = W3 m ρ c (Proc.devRef .tc main_arg5) := W4_keep m ρ c main_arg5 (by decide)
    _ = W2 m ρ c (Proc.devRef .tc main_arg5) := W3_keep m ρ c main_arg5 (by decide)
    _ = W1 m ρ c (Proc.devRef .tc main_arg5) := W2_keep m ρ c main_arg5 (by decide)
    _ = W0 m ρ c (Proc.devRef .tc main_arg5) := W1_keep m ρ c main_arg5 (by decide)
    _ = m ((c : Thread nD τ).loc main_arg5) := rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (VW0 m ρ) c
  | ⟨1, _⟩ => fun c => dat1 (VW1 m ρ) c
  | ⟨2, _⟩ => fun c => dat2 (VW2 m ρ) c
  | ⟨3, _⟩ => fun c => dat3 (VW4 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered with every unscoped buffer at `W0`, left with them at `W1`; its arrays
    split out of the unscoped buffers and put back at what the write-backs leave; the generator register into the
    entry invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VW0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VW0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VW0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Phi_out0 (VW0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VW0 m ρ c) (VW1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W1`, left with them at `W2`; its arrays
    split out of the unscoped buffers and put back at what the write-backs leave; the generator register into the
    entry invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VW1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (VW1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VW1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi_out1 (VW1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VW1 m ρ c) (VW2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W2`, left with them at `W3`; its arrays
    split out of the unscoped buffers and put back at what the write-backs leave; the generator register into the
    entry invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VW2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (VW2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (VW2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from Phi_out2 (VW2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (VW2 m ρ c) (VW3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W4`, left with them at `W5`; its arrays
    split out of the unscoped buffers and put back at what the write-backs leave; the generator register into the
    entry invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VW4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (VW4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (VW4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m ρ 3 c).Φ (Fin.last _) ⊢ Pipeline.ΦA spec3 c from Phi_out3 (VW4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (VW4 m ρ c) (VW5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ), .region (reg2 m ρ),
    .host (hseg hostOps3 hostOps3_sub hostOps3_fresh' (W3 m ρ)),
    .region (reg3 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting; the result
    buffer ends at what the last region's write-backs leave and every argument array as launched. -/
theorem run_main : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v4 (by decide)),
        (h c _ (mem_uc main_arg0 (by decide))).trans (W5_main_arg0 m ρ c),
        (h c _ (mem_uc main_arg1 (by decide))).trans (W5_main_arg1 m ρ c),
        (h c _ (mem_uc main_arg2 (by decide))).trans (W5_main_arg2 m ρ c),
        (h c _ (mem_uc main_arg3 (by decide))).trans (W5_main_arg3 m ρ c),
        (h c _ (mem_uc main_arg4 (by decide))).trans (W5_main_arg4 m ρ c),
        (h c _ (mem_uc main_arg5 (by decide))).trans (W5_main_arg5 m ρ c)⟩)

end Cert.KernelIdeal.Hand

end
-- ==== Proof.Spec.lean ====
/-
  The specification of the chained product, as plain functions on the extended reals.

  With U : [2048, 4096], four square factors W3, W2, W1, W0 : [4096, 4096] and a bias : [4096], the result is
      out[b, i] = (W0 · (W1 · (W2 · (W3 · Uᵀ))))[i, b] + bias[i].
  Every intermediate is a [4096, 2048] table written here as a curried function of its row `i` and column `b`;
  a matrix product is the sum over the contracted coordinate `κ : Fin 4096` of the two entries' product.
  Nothing here mentions a program: both programs are shown to compute `out`.
-/
import Idealize.ShloMosaic.PureOps.Ideal
import Idealize.ShloMosaic.Lib.ValueIdx

noncomputable section

namespace Cert.Spec

open Idealize.ShloMosaic Idealize.ShloMosaic.ValueIdx

/-- A [4096, 4096] table, a [2048, 4096] table, a [4096, 2048] table and a [4096] row of extended reals. -/
abbrev Sq : Type := (⟨2, ![4096, 4096]⟩ : Shape).Idx → EReal
abbrev Wide : Type := (⟨2, ![2048, 4096]⟩ : Shape).Idx → EReal
abbrev Tall : Type := (⟨2, ![4096, 2048]⟩ : Shape).Idx → EReal
abbrev Row : Type := (⟨1, ![4096]⟩ : Shape).Idx → EReal

/-- The first product, against the transpose of `U` without forming it: (W · Uᵀ)[i, b] = Σ_κ W[i, κ] · U[b, κ]. -/
def first (W : Sq) (U : Wide) (i : Fin 4096) (b : Fin 2048) : EReal :=
  ∑ κ : Fin 4096, W (ix2 i κ) * U (ix2 b κ)

/-- A later product, against a table given entry by entry: (W · Y)[i, b] = Σ_κ W[i, κ] · Y[κ, b]. -/
def next (W : Sq) (Y : Fin 4096 → Fin 2048 → EReal) (i : Fin 4096) (b : Fin 2048) : EReal :=
  ∑ κ : Fin 4096, W (ix2 i κ) * Y κ b

/-- A [4096, 2048] table from its entries. -/
def tall (Y : Fin 4096 → Fin 2048 → EReal) : Tall := fun j => Y (j 0) (j 1)

theorem tall_apply (Y : Fin 4096 → Fin 2048 → EReal) (i : Fin 4096) (b : Fin 2048) : tall Y (ix2 i b) = Y i b := rfl

/-- The three intermediate tables and the last product. -/
def y1 (W3 : Sq) (U : Wide) : Fin 4096 → Fin 2048 → EReal := first W3 U
def y2 (W2 W3 : Sq) (U : Wide) : Fin 4096 → Fin 2048 → EReal := next W2 (y1 W3 U)
def y3 (W1 W2 W3 : Sq) (U : Wide) : Fin 4096 → Fin 2048 → EReal := next W1 (y2 W2 W3 U)
def y4 (W0 W1 W2 W3 : Sq) (U : Wide) : Fin 4096 → Fin 2048 → EReal := next W0 (y3 W1 W2 W3 U)

/-- The result's entry at row `b`, column `i`: the last product transposed, plus the bias of the column. -/
def outAt (U : Wide) (W0 W1 W2 W3 : Sq) (bias : Row) (b : Fin 2048) (i : Fin 4096) : EReal :=
  y4 W0 W1 W2 W3 U i b + bias (ix1 i)

/-- The result as a [2048, 4096] table. -/
def out (U : Wide) (W0 W1 W2 W3 : Sq) (bias : Row) : Wide := fun j => outAt U W0 W1 W2 W3 bias (j 0) (j 1)

theorem out_apply (U : Wide) (W0 W1 W2 W3 : Sq) (bias : Row) (b : Fin 2048) (i : Fin 4096) :
    out U W0 W1 W2 W3 bias (ix2 b i) = outAt U W0 W1 W2 W3 bias b i := rfl

end Cert.Spec

end
-- ==== Proof.Value0.lean ====
/-
  Region 0 of the chained product, as values: the array its output window ends holding is the first product
      (W · Uᵀ)[i, b] = Σ_κ W[i, κ] · U[b, κ]        (W : [4096, 4096], U : [2048, 4096], κ below 4096)
  of the two arrays the region was entered with.

  The region walks a 4 × 16 grid. Point t holds rows 1024·(t/16) … of W and the slab 256·(t%16) … of the contracted
  coordinate; its step adds, entry by entry, the slab's 256 products to an accumulator that restarts from zero at the
  first slab of each band of rows. So after position n the accumulator's entry (r, b) is the sum of the products over
  the contracted coordinates below 256·(n%16 + 1) (induction on n; the step is the splitting of a sum over a range at
  256·(n%16 + 1)), and at the last slab, n%16 = 15, over all 4096 of them. The four points with t%16 = 15 write
  their [1024, 2048] blocks back, and these four blocks tile the [4096, 2048] output.

  Over the extended reals a rounding to a narrower format is the identity and a product accumulated into zero is the
  plain sum; only associativity and commutativity of addition and 0 + x = x are used, so nothing is asked of the
  entries (infinities included).
-/
import proofs.«116801_j83777632076060_2_alg».proof.Proof.Blocks
import proofs.«116801_j83777632076060_2_alg».proof.Proof.Spec
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open scoped BigOperators

variable (V : (c : Dev nD) → (b : Ref sig .tc) → Buf (Elt Ideal) ((c : Thread nD τ).loc b))

/-! ## Region 0: the output is the first product

The region multiplies a [4096,4096] weight by the transpose of a [2048,4096] table without forming the transpose:
point `t` of the 4 × 16 grid holds rows `1024·(t/16) …` of the weight and the slab `256·(t%16) …` of the contracted
coordinate, and adds the slab's partial products to an accumulator that starts from zero at the first slab. -/

/-- The contraction record of region 0's product, under a short name. -/
abbrev dot0 := dot_S1024x256_S2048x256_S1024x2048_1_1_0_0_n_n

/-- The left operand of the product is read at the output's row … -/
theorem dot0_lhs_row (i : S1024x2048.Idx) (q : dot0.contr.Idx) : (dot0.lhsIdx i q 0).val = (i 0).val := by
  unfold DotDims.lhsIdx
  rw [dif_neg (show ¬(0 : Fin S1024x256.rank) ∈ dot0.lhsBatch by decide), dif_pos (show (0 : Fin S1024x256.rank) ∈ dot0.lhsNonContracting by decide)]
  rfl
/-- … and the contracted coordinate; -/
theorem dot0_lhs_contr (i : S1024x2048.Idx) (q : dot0.contr.Idx) : (dot0.lhsIdx i q 1).val = (q ⟨0, by decide⟩).val :=
  dot0.lhsIdx_val_of_single rfl i q
/-- the right operand at the output's column, which is ITS row, … -/
theorem dot0_rhs_row (i : S1024x2048.Idx) (q : dot0.contr.Idx) : (dot0.rhsIdx i q 0).val = (i 1).val := by
  unfold DotDims.rhsIdx
  rw [dif_neg (show ¬(0 : Fin S2048x256.rank) ∈ dot0.rhsBatch by decide), dif_pos (show (0 : Fin S2048x256.rank) ∈ dot0.rhsNonContracting by decide)]
  rfl
/-- … and the contracted coordinate. -/
theorem dot0_rhs_contr (i : S1024x2048.Idx) (q : dot0.contr.Idx) : (dot0.rhsIdx i q 1).val = (q ⟨0, by decide⟩).val :=
  dot0.rhsIdx_val_of_single rfl i q

/-- The reset value is zero everywhere. -/
theorem pay0_zero_apply (j : S1024x2048.Idx) : k0_pay1 (F := Ideal) j = 0 := by
  unfold k0_pay1
  simp only [shapeCast_self]
  exact Ideal.ofBits_zero_f32

/-- One step of the accumulation at entry (r, b): the accumulator plus the slab's 256 products of the weight
    block's row r with the table block's row b. -/
theorem pay0_step_apply (x0 : Vec Ideal S1024x256 .f32) (x1 : Vec Ideal S2048x256 .f32) (a : Vec Ideal S1024x2048 .f32)
    (r : Fin 1024) (b : Fin 2048) :
    k0_pay2 x0 x1 a (ix2 r b) = a (ix2 r b) + ∑ j : Fin 256, x0 (ix2 r j) * x1 (ix2 b j) := by
  unfold k0_pay2
  simp only [shapeCast_self]
  refine (addf_apply a _ (ix2 r b)).trans ?_
  refine congrArg (a (ix2 r b) + ·) ?_
  refine (Ideal.matmul_constant_zero_apply dot0 none _ _ (ix2 r b)).trans ?_
  rw [← Equiv.sum_comp (contrEquiv1 dot0 256 rfl rfl).symm]
  refine Finset.sum_congr rfl fun k _ => ?_
  have hk := contrEquiv1_symm_val dot0 256 rfl rfl k
  have el : dot0.lhsIdx (ix2 r b) ((contrEquiv1 dot0 256 rfl rfl).symm k) = ix2 r k := funext fun a => Fin.ext (by
    match a with
    | ⟨0, _⟩ => exact dot0_lhs_row _ _
    | ⟨1, _⟩ => exact (dot0_lhs_contr _ _).trans hk)
  have er : dot0.rhsIdx (ix2 r b) ((contrEquiv1 dot0 256 rfl rfl).symm k) = ix2 b k := funext fun a => Fin.ext (by
    match a with
    | ⟨0, _⟩ => exact dot0_rhs_row _ _
    | ⟨1, _⟩ => exact (dot0_rhs_contr _ _).trans hk)
  show x0 (dot0.lhsIdx (ix2 r b) _) * x1 (dot0.rhsIdx (ix2 r b) _) = _
  rw [el, er]

/-- What is stored to the output is the accumulator itself. -/
theorem pay0_out_apply (a : Vec Ideal S1024x2048 .f32) (j : S1024x2048.Idx) : k0_pay3 a j = a j := rfl

/-- The three windows' block indices at point `t`: the weight's block is (t/16, t%16), the table's (0, t%16),
    the output's (t/16, 0). -/
theorem idx0_facts : ∀ t : Fin cfg0.N,
    win0_0.index t (0 : Fin 2) = t.val / 16 ∧ win0_0.index t (1 : Fin 2) = t.val % 16
    ∧ win0_1.index t (0 : Fin 2) = 0 ∧ win0_1.index t (1 : Fin 2) = t.val % 16
    ∧ win0_2.index t (0 : Fin 2) = t.val / 16 ∧ win0_2.index t (1 : Fin 2) = 0 :=
  (by decide +kernel : ∀ t : Fin grid0.N, _)

/-- Entry (i, κ) of a [4096,4096] table by natural coordinates, zero outside the table. -/
def sqAt0 (A : Cert.Spec.Sq) (i κ : ℕ) : EReal :=
  if h : i < 4096 ∧ κ < 4096 then A (ix2 ⟨i, h.1⟩ ⟨κ, h.2⟩) else 0

/-- Entry (b, κ) of a [2048,4096] table by natural coordinates, zero outside the table. -/
def wideAt0 (B : Cert.Spec.Wide) (b κ : ℕ) : EReal :=
  if h : b < 2048 ∧ κ < 4096 then B (ix2 ⟨b, h.1⟩ ⟨κ, h.2⟩) else 0

/-- The weight window's block at point `t` of any [4096,4096] table: entry (r, j) of the block is entry
    (1024·(t/16) + r, 256·(t%16) + j) of the table. -/
theorem readW0 (A : Cert.Spec.Sq) (t : Fin cfg0.N) (r : Fin 1024) (j : Fin 256) :
    ((cfg0.win 0).blk t).view.read (Elt Ideal) A (ix2 r j)
      = sqAt0 A (1024 * (t.val / 16) + r.val) (256 * (t.val % 16) + j.val) := by
  have hN : cfg0.N = 64 := N_0
  have ht := t.isLt
  obtain ⟨e0, e1, -⟩ := idx0_facts t
  unfold sqAt0
  rw [dif_pos ⟨by omega, by omega⟩]
  show A (((cfg0.win 0).blk t).view.emb (ix2 r j)) = A _
  refine congrArg A (funext fun a => Fin.ext ?_)
  match a with
  | ⟨0, _⟩ => show win0_0.index t (0 : Fin 2) * 1024 + 1 * r.val = 1024 * (t.val / 16) + r.val; omega
  | ⟨1, _⟩ => show win0_0.index t (1 : Fin 2) * 256 + 1 * j.val = 256 * (t.val % 16) + j.val; omega

/-- The table window's block at point `t` of any [2048,4096] table: entry (b, j) of the block is entry
    (b, 256·(t%16) + j) of the table. -/
theorem readU0 (B : Cert.Spec.Wide) (t : Fin cfg0.N) (b : Fin 2048) (j : Fin 256) :
    ((cfg0.win 1).blk t).view.read (Elt Ideal) B (ix2 b j)
      = wideAt0 B b.val (256 * (t.val % 16) + j.val) := by
  have hN : cfg0.N = 64 := N_0
  have ht := t.isLt
  obtain ⟨-, -, e2, e3, -⟩ := idx0_facts t
  unfold wideAt0
  rw [dif_pos ⟨by omega, by omega⟩]
  show B (((cfg0.win 1).blk t).view.emb (ix2 b j)) = B _
  refine congrArg B (funext fun a => Fin.ext ?_)
  match a with
  | ⟨0, _⟩ => show win0_1.index t (0 : Fin 2) * 2048 + 1 * b.val = b.val; omega
  | ⟨1, _⟩ => show win0_1.index t (1 : Fin 2) * 256 + 1 * j.val = 256 * (t.val % 16) + j.val; omega

/-- The product of the two tables' entries at contracted coordinate κ, by natural coordinates. -/
def term0 (A : Cert.Spec.Sq) (B : Cert.Spec.Wide) (i b κ : ℕ) : EReal := sqAt0 A i κ * wideAt0 B b κ

/-- The slab of position `n`: the 256 products of the two blocks' rows r and b are the products of the tables'
    entries at rows 1024·(n/16) + r and b over the contracted coordinates 256·(n%16) …. -/
theorem slab0 (c : Dev nD) (n : ℕ) (h : n < cfg0.N) (r : Fin 1024) (b : Fin 2048)
    (x0 : Vec Ideal S1024x256 .f32) (x1 : Vec Ideal S2048x256 .f32)
    (h0 : x0 = iblk0 V c 0 ⟨n, h⟩) (h1 : x1 = iblk0 V c 1 ⟨n, h⟩) :
    ∑ j : Fin 256, x0 (ix2 r j) * x1 (ix2 b j)
      = ∑ j ∈ Finset.range 256,
          term0 (V c main_arg4) (V c main_arg0) (1024 * (n / 16) + r.val) b.val (256 * (n % 16) + j) := by
  rw [← Fin.sum_univ_eq_sum_range
    (fun j => term0 (V c main_arg4) (V c main_arg0) (1024 * (n / 16) + r.val) b.val (256 * (n % 16) + j)) 256]
  refine Finset.sum_congr rfl fun j _ => ?_
  have hW : x0 (ix2 r j) = sqAt0 (V c main_arg4) (1024 * (n / 16) + r.val) (256 * (n % 16) + j.val) := by
    rw [h0]; exact readW0 (V c main_arg4) ⟨n, h⟩ r j
  have hU : x1 (ix2 b j) = wideAt0 (V c main_arg0) b.val (256 * (n % 16) + j.val) := by
    rw [h1]; exact readU0 (V c main_arg0) ⟨n, h⟩ b j
  rw [hW, hU]
  rfl

/-- THE ACCUMULATOR after position `n`, at entry (r, b): the products over the contracted coordinates below
    256·(n%16 + 1), of row 1024·(n/16) + r of the weight with row b of the table. -/
theorem acc0_apply (c : Dev nD) (r : Fin 1024) (b : Fin 2048) : ∀ (n : ℕ) (h : n < cfg0.N),
    acc0 V c n h (ix2 r b)
      = ∑ κ ∈ Finset.range (256 * (n % 16 + 1)),
          term0 (V c main_arg4) (V c main_arg0) (1024 * (n / 16) + r.val) b.val κ
  | 0, h => by
    rw [acc0]
    refine (pay0_step_apply _ _ _ r b).trans ?_
    rw [pay0_zero_apply, zero_add, slab0 V c 0 h r b _ _ rfl rfl]
    simp only [Nat.zero_div, Nat.zero_mod, Nat.mul_zero, Nat.zero_add, Nat.mul_one]
  | n + 1, h => by
    rw [acc0]
    refine (pay0_step_apply _ _ _ r b).trans ?_
    rw [slab0 V c (n + 1) h r b _ _ rfl rfl]
    by_cases hm : (n + 1) % 16 = 0
    · rw [if_pos hm, pay0_zero_apply, zero_add, hm]
      simp only [Nat.mul_zero, Nat.zero_add, Nat.mul_one]
    · rw [if_neg hm, acc0_apply c r b n (Nat.lt_of_succ_lt h)]
      have e1 : (n + 1) / 16 = n / 16 := by omega
      have e2 : (n + 1) % 16 = n % 16 + 1 := by omega
      rw [e1, e2, show 256 * (n % 16 + 1 + 1) = 256 * (n % 16 + 1) + 256 by omega, Finset.sum_range_add]

/-- The first product's entry as the sum over the natural contracted coordinates below 4096. -/
theorem first0_eq (A : Cert.Spec.Sq) (B : Cert.Spec.Wide) (i : Fin 4096) (b : Fin 2048) :
    Cert.Spec.first A B i b = ∑ κ ∈ Finset.range 4096, term0 A B i.val b.val κ := by
  unfold Cert.Spec.first
  rw [← Fin.sum_univ_eq_sum_range (fun κ => term0 A B i.val b.val κ) 4096]
  refine Finset.sum_congr rfl fun κ _ => ?_
  unfold term0 sqAt0 wideAt0
  rw [dif_pos ⟨i.isLt, κ.isLt⟩, dif_pos ⟨b.isLt, κ.isLt⟩]

/-- The output window's block at point `t` of any [4096,2048] table: entry (r, b) of the block is entry
    (1024·(t/16) + r, b) of the table. -/
theorem readO0 (G : Cert.Spec.Tall) (t : Fin cfg0.N) (r : Fin 1024) (b : Fin 2048)
    (hi : 1024 * (t.val / 16) + r.val < 4096) :
    ((cfg0.win 2).blk t).view.read (Elt Ideal) G (ix2 r b) = G (ix2 ⟨1024 * (t.val / 16) + r.val, hi⟩ b) := by
  obtain ⟨-, -, -, -, e4, e5⟩ := idx0_facts t
  show G (((cfg0.win 2).blk t).view.emb (ix2 r b)) = G _
  refine congrArg G (funext fun a => Fin.ext ?_)
  match a with
  | ⟨0, _⟩ => show win0_2.index t (0 : Fin 2) * 1024 + 1 * r.val = 1024 * (t.val / 16) + r.val; omega
  | ⟨1, _⟩ => show win0_2.index t (1 : Fin 2) * 2048 + 1 * b.val = b.val; omega

/-- WHAT A WRITING POINT WRITES BACK is its block of the first product: at the last slab the accumulator holds the
    whole sum over the 4096 contracted coordinates. -/
theorem flushed0_eq (c : Dev nD) (dat : Pipeline.Dat τ (Elt Ideal) Unit ℕ (UR sig nD τ) ℕ cfg0 c)
    (hafter : ∀ t : Fin cfg0.N, t.val % 16 = 15 → dat.after 2 t = out0 V c t)
    (t : Fin cfg0.N) (hf : (cfg0.win 2).flush t = true) :
    dat.flushed 2 t = ((cfg0.win 2).blk t).view.read (Elt Ideal)
      (Cert.Spec.tall (Cert.Spec.first (V c main_arg4) (V c main_arg0))) := by
  have hN : cfg0.N = 64 := N_0
  have ht := t.isLt
  have h15 : t.val % 16 = 15 := (flush0_2 t).mp hf
  show (cfg0.win 2).cut (grid0.coords t) (dat.after 2 t) = _
  rw [hafter t h15]
  funext y
  obtain ⟨r, b, rfl⟩ : ∃ (r : Fin 1024) (b : Fin 2048), y = ix2 r b := ⟨y 0, y 1, eq_ix2 y⟩
  rw [readO0 _ t r b (by omega), Cert.Spec.tall_apply, first0_eq]
  show acc0 V c t.val t.isLt (ix2 r b) = _
  rw [acc0_apply, h15]

/-- An index of the output array is in point `t`'s block iff each coordinate is in the block's range on its axis. -/
theorem mem_blk0 (t : Fin cfg0.N) (i : S4096x2048.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v0).slice (win0_2.rect t)).set ↔ _
  rw [View.set_slice_whole, Rect.mem_set_unit]
  exact Iff.rfl

/-- THE COVER: row i of the output lies in the block written at the last slab of its band of 1024 rows. -/
theorem cover0 (i : S4096x2048.Idx) :
    ∃ t : Fin cfg0.N, (cfg0.win 2).flush t = true ∧ i ∈ ((cfg0.win 2).blk t).view.set := by
  have hN : cfg0.N = 64 := N_0
  have hi0 : (i 0).val < 4096 := (i 0).isLt
  have hi1 : (i 1).val < 2048 := (i 1).isLt
  obtain ⟨t, tv⟩ : ∃ t : Fin cfg0.N, t.val = 16 * ((i 0).val / 1024) + 15 := ⟨⟨_, by omega⟩, rfl⟩
  refine ⟨t, (flush0_2 t).mpr (by omega), ?_⟩
  rw [mem_blk0]
  obtain ⟨-, -, -, -, e4, e5⟩ := idx0_facts t
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 2048 ≤ (i 1).val ∧ (i 1).val < win0_2.index t (1 : Fin 2) * 2048 + 2048
    omega

/-- THE OUTPUT ARRAY of region 0 after the run: the first product of the weight and the table the region was entered
    with, whatever the output array held before. -/
theorem final0 (c : Dev nD) (dat : Pipeline.Dat τ (Elt Ideal) Unit ℕ (UR sig nD τ) ℕ cfg0 c)
    (hA : ∀ w, dat.A w = V c (Pipeline.arrRef spec0 w))
    (hafter : ∀ t : Fin cfg0.N, t.val % 16 = 15 → dat.after 2 t = out0 V c t) :
    dat.arrAt 2 cfg0.N = Cert.Spec.tall (Cert.Spec.first (V c main_arg4) (V c main_arg0)) :=
  dat.arrAt_eq_of_cover 2 _ (fun t hf => flushed0_eq V c dat hafter t hf) cover0

end Cert.KernelIdeal.Hand

end
-- ==== Proof.LibBlockSum.lean ====
/-
  A sum over a contraction axis cut into equal blocks: adding up, block after block, the sum over each block's positions
  gives the sum over the whole axis. Only commutativity and associativity of addition are used, so it holds in any
  commutative additive monoid — the extended reals included, infinities and all.
-/
import Mathlib.Algebra.BigOperators.Fin
import Mathlib.Algebra.BigOperators.Intervals

open scoped BigOperators

namespace LibBlockSum

/-- `a` consecutive blocks of `b` positions each make up the first `a * b` positions. -/
theorem sum_range_blocks {M : Type*} [AddCommMonoid M] (f : ℕ → M) (b : ℕ) :
    ∀ a : ℕ, ∑ s ∈ Finset.range a, ∑ j ∈ Finset.range b, f (b * s + j) = ∑ k ∈ Finset.range (a * b), f k
  | 0 => by simp
  | a + 1 => by
    rw [Finset.sum_range_succ, sum_range_blocks f b a, Nat.succ_mul, Finset.sum_range_add, Nat.mul_comm b a]

/-- The same with each block and the whole axis indexed by `Fin`. -/
theorem sum_blocks {M : Type*} [AddCommMonoid M] (f : ℕ → M) (a b : ℕ) :
    ∑ s ∈ Finset.range a, ∑ j : Fin b, f (b * s + j.val) = ∑ k : Fin (a * b), f k.val := by
  rw [Fin.sum_univ_eq_sum_range (fun k => f k) (a * b), ← sum_range_blocks f b a]
  exact Finset.sum_congr rfl fun s _ => Fin.sum_univ_eq_sum_range (fun j => f (b * s + j)) b

end LibBlockSum
-- ==== Proof.Value1.lean ====
/-
  Region 1 of the chained product: the array its output window ends holding is the matrix product of the weight the
  region reads with the table the region before it left.
-/
import proofs.«116801_j83777632076060_2_alg».proof.Proof.Blocks
import proofs.«116801_j83777632076060_2_alg».proof.Proof.Spec
import proofs.«116801_j83777632076060_2_alg».proof.Proof.LibBlockSum
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open scoped BigOperators

/-! ## The body's three payloads at an index -/

/-- The reset value is zero everywhere. -/
theorem pay1_1_apply (j : S1024x2048.Idx) : k1_pay1 (F := Ideal) j = 0 := by
  unfold k1_pay1
  simp only [shapeCast_self]
  exact Ideal.ofBits_zero_f32

/-- The written value is the accumulator: a change of format is the identity on extended reals. -/
theorem pay3_1_eq (a : Vec Ideal S1024x2048 .f32) : k1_pay3 (F := Ideal) a = a := rfl

/-- The product's left operand is read along the output's row and the contracted coordinate … -/
theorem lhs1_0 (i : S1024x2048.Idx) (q : dot_S1024x256_S256x2048_S1024x2048_1_0_0_1_n_n.contr.Idx) :
    (dot_S1024x256_S256x2048_S1024x2048_1_0_0_1_n_n.lhsIdx i q 0).val = (i 0).val := by
  unfold DotDims.lhsIdx
  rw [dif_neg (show ¬(0 : Fin S1024x256.rank) ∈ dot_S1024x256_S256x2048_S1024x2048_1_0_0_1_n_n.lhsBatch by decide), dif_pos (show (0 : Fin S1024x256.rank) ∈ dot_S1024x256_S256x2048_S1024x2048_1_0_0_1_n_n.lhsNonContracting by decide)]
  rfl
theorem lhs1_1 (i : S1024x2048.Idx) (q : dot_S1024x256_S256x2048_S1024x2048_1_0_0_1_n_n.contr.Idx) :
    (dot_S1024x256_S256x2048_S1024x2048_1_0_0_1_n_n.lhsIdx i q 1).val = (q ⟨0, by decide⟩).val :=
  dot_S1024x256_S256x2048_S1024x2048_1_0_0_1_n_n.lhsIdx_val_of_single rfl i q
/-- … and the right operand along the contracted coordinate and the output's column. -/
theorem rhs1_0 (i : S1024x2048.Idx) (q : dot_S1024x256_S256x2048_S1024x2048_1_0_0_1_n_n.contr.Idx) :
    (dot_S1024x256_S256x2048_S1024x2048_1_0_0_1_n_n.rhsIdx i q 0).val = (q ⟨0, by decide⟩).val :=
  dot_S1024x256_S256x2048_S1024x2048_1_0_0_1_n_n.rhsIdx_val_of_single rfl i q
theorem rhs1_1 (i : S1024x2048.Idx) (q : dot_S1024x256_S256x2048_S1024x2048_1_0_0_1_n_n.contr.Idx) :
    (dot_S1024x256_S256x2048_S1024x2048_1_0_0_1_n_n.rhsIdx i q 1).val = (i 1).val := by
  unfold DotDims.rhsIdx
  rw [dif_neg (show ¬(1 : Fin S256x2048.rank) ∈ dot_S1024x256_S256x2048_S1024x2048_1_0_0_1_n_n.rhsBatch by decide), dif_pos (show (1 : Fin S256x2048.rank) ∈ dot_S1024x256_S256x2048_S1024x2048_1_0_0_1_n_n.rhsNonContracting by decide)]
  rfl

/-- The accumulated value at (r, b): what was there plus the sum over the slab's 256 contracted coordinates of the
    products of the weight block's row `r` with the table block's column `b`. -/
theorem pay2_1_apply (x0 : Vec Ideal S1024x256 .f32) (x1 : Vec Ideal S256x2048 .bf16) (a : Vec Ideal S1024x2048 .f32)
    (r : Fin 1024) (b : Fin 2048) :
    k1_pay2 x0 x1 a (ix2 r b) = a (ix2 r b) + ∑ j : Fin 256, x0 (ix2 r j) * x1 (ix2 j b) := by
  unfold k1_pay2
  simp only [shapeCast_self]
  rw [addf_apply]
  refine congrArg (a (ix2 r b) + ·) ?_
  simp only [matmul]
  rw [Ideal.matmul_constant_zero_apply, ← Equiv.sum_comp (contrEquiv1 dot_S1024x256_S256x2048_S1024x2048_1_0_0_1_n_n 256 rfl rfl).symm]
  refine Finset.sum_congr rfl fun k _ => ?_
  have hk := contrEquiv1_symm_val dot_S1024x256_S256x2048_S1024x2048_1_0_0_1_n_n 256 rfl rfl k
  have el : dot_S1024x256_S256x2048_S1024x2048_1_0_0_1_n_n.lhsIdx (ix2 r b) ((contrEquiv1 dot_S1024x256_S256x2048_S1024x2048_1_0_0_1_n_n 256 rfl rfl).symm k) = ix2 r k := funext fun a => Fin.ext (by
    match a with
    | ⟨0, _⟩ => exact lhs1_0 _ _
    | ⟨1, _⟩ => exact (lhs1_1 _ _).trans hk)
  have er : dot_S1024x256_S256x2048_S1024x2048_1_0_0_1_n_n.rhsIdx (ix2 r b) ((contrEquiv1 dot_S1024x256_S256x2048_S1024x2048_1_0_0_1_n_n 256 rfl rfl).symm k) = ix2 k b := funext fun a => Fin.ext (by
    match a with
    | ⟨0, _⟩ => exact (rhs1_0 _ _).trans hk
    | ⟨1, _⟩ => exact rhs1_1 _ _)
  rw [el, er]
  rfl

/-! ## The blocks the body reads -/

variable (V : (c : Dev nD) → (b : Ref sig .tc) → Buf (Elt Ideal) ((c : Thread nD τ).loc b))

/-- The three windows' block indices at position `t`: the weight's block (t / 16, t % 16), the table's (t % 16, 0), the
    output's (t / 16, 0). -/
theorem idx1 : ∀ t : Fin cfg1.N, win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = t.val / 16 ∧ win1_2.index t (1 : Fin 2) = 0 :=
  (by decide +kernel : ∀ t : Fin grid1.N, _)

/-- The weight's block at position `t`, entry (r, j), is the weight's entry (1024 (t / 16) + r, 256 (t % 16) + j). -/
theorem blockW1 (c : Dev nD) (t : Fin cfg1.N) (r : Fin 1024) (j : Fin 256) (ρ κ : Fin 4096)
    (hρ : ρ.val = 1024 * (t.val / 16) + r.val) (hκ : κ.val = 256 * (t.val % 16) + j.val) :
    iblk1 V c 0 t (ix2 r j) = V c main_arg3 (ix2 ρ κ) := by
  obtain ⟨e0, e1, -⟩ := idx1 t
  unfold iblk1
  rw [View.read_apply]
  show V c main_arg3 _ = V c main_arg3 _
  refine congrArg (V c main_arg3) (funext fun a => Fin.ext ?_)
  match a with
  | ⟨0, _⟩ => show win1_0.index t (0 : Fin 2) * 1024 + 1 * r.val = ρ.val; omega
  | ⟨1, _⟩ => show win1_0.index t (1 : Fin 2) * 256 + 1 * j.val = κ.val; omega

/-- The table's block at position `t`, entry (j, b), is the table's entry (256 (t % 16) + j, b). -/
theorem blockY1 (c : Dev nD) (t : Fin cfg1.N) (j : Fin 256) (b : Fin 2048) (κ : Fin 4096)
    (hκ : κ.val = 256 * (t.val % 16) + j.val) :
    iblk1 V c 1 t (ix2 j b) = V c main_v0 (ix2 κ b) := by
  obtain ⟨-, -, e2, e3, -⟩ := idx1 t
  unfold iblk1
  rw [View.read_apply]
  show V c main_v0 _ = V c main_v0 _
  refine congrArg (V c main_v0) (funext fun a => Fin.ext ?_)
  match a with
  | ⟨0, _⟩ => show win1_1.index t (0 : Fin 2) * 256 + 1 * j.val = κ.val; omega
  | ⟨1, _⟩ => show win1_1.index t (1 : Fin 2) * 2048 + 1 * b.val = b.val; omega

/-! ## The accumulator, position by position -/

/-- The weight the region reads and the table the region before it left, as tables of extended reals. -/
abbrev Wgt1 (c : Dev nD) : Cert.Spec.Sq := V c main_arg3
abbrev Yin1 (c : Dev nD) : Cert.Spec.Tall := V c main_v0

/-- The product of the weight's entry (ρ, κ) with the table's entry (κ, b), row and contracted coordinate given as
    naturals; zero outside the tables. -/
def term1 (c : Dev nD) (ρ : ℕ) (b : Fin 2048) (κ : ℕ) : EReal :=
  if h : ρ < 4096 ∧ κ < 4096 then
    Wgt1 V c (ix2 (⟨ρ, h.1⟩ : Fin 4096) (⟨κ, h.2⟩ : Fin 4096)) * Yin1 V c (ix2 (⟨κ, h.2⟩ : Fin 4096) b)
  else 0

/-- One position's step: the body adds, at (r, b), the products over the position's slab of 256 contracted coordinates
    of the weight's row 1024 (n / 16) + r with the table's column b. -/
theorem step1 (c : Dev nD) (n : ℕ) (h : n < cfg1.N) (a : Vec Ideal S1024x2048 .f32) (r : Fin 1024) (b : Fin 2048) :
    k1_pay2 (iblk1 V c 0 ⟨n, h⟩) (iblk1 V c 1 ⟨n, h⟩) a (ix2 r b)
      = a (ix2 r b) + ∑ j : Fin 256, term1 V c (1024 * (n / 16) + r.val) b (256 * (n % 16) + j.val) := by
  have hn : n < 64 := by have := h; rw [show cfg1.N = 64 from N_1] at this; exact this
  rw [pay2_1_apply (iblk1 V c 0 ⟨n, h⟩) (iblk1 V c 1 ⟨n, h⟩) a r b]
  refine congrArg (a (ix2 r b) + ·) (Finset.sum_congr rfl fun j _ => ?_)
  have hr := r.isLt
  have hj := j.isLt
  have hρ : 1024 * (n / 16) + r.val < 4096 := by omega
  have hκ : 256 * (n % 16) + j.val < 4096 := by omega
  unfold term1
  rw [dif_pos ⟨hρ, hκ⟩, blockW1 V c ⟨n, h⟩ r j ⟨_, hρ⟩ ⟨_, hκ⟩ rfl rfl, blockY1 V c ⟨n, h⟩ j b ⟨_, hκ⟩ rfl]

/-- After position n the accumulator holds, at (r, b), the products over the slabs 0 … n % 16 of the row band n / 16. -/
theorem acc1_apply (c : Dev nD) : ∀ (n : ℕ) (h : n < cfg1.N) (r : Fin 1024) (b : Fin 2048),
    acc1 V c n h (ix2 r b)
      = ∑ s ∈ Finset.range (n % 16 + 1), ∑ j : Fin 256, term1 V c (1024 * (n / 16) + r.val) b (256 * s + j.val)
  | 0, h, r, b => by
    rw [acc1, step1 V c 0 h _ r b, pay1_1_apply, zero_add]
    show _ = ∑ s ∈ Finset.range 1, _
    rw [Finset.sum_range_one]
  | n + 1, h, r, b => by
    rw [acc1, step1 V c (n + 1) h _ r b]
    by_cases hm : (n + 1) % 16 = 0
    · rw [if_pos hm, pay1_1_apply, zero_add, hm, Finset.sum_range_one]
    · rw [if_neg hm, acc1_apply c n _ r b]
      have h1 : (n + 1) % 16 = n % 16 + 1 := by omega
      have h2 : (n + 1) / 16 = n / 16 := by omega
      rw [h1, h2, Finset.sum_range_succ _ (n % 16 + 1)]

/-- The same at any index of the accumulator. -/
theorem acc1_at (c : Dev nD) (n : ℕ) (h : n < cfg1.N) (y : S1024x2048.Idx) :
    acc1 V c n h y
      = ∑ s ∈ Finset.range (n % 16 + 1), ∑ j : Fin 256, term1 V c (1024 * (n / 16) + (y 0).val) (y 1) (256 * s + j.val) := by
  obtain ⟨r, b, rfl⟩ : ∃ (r : Fin 1024) (b : Fin 2048), y = ix2 r b := ⟨y 0, y 1, eq_ix2 y⟩
  exact acc1_apply V c n h r b

/-- All sixteen slabs of a row: the sum over the 4096 contracted coordinates, the specification's product entry. -/
theorem full1 (c : Dev nD) (ρ : Fin 4096) (b : Fin 2048) :
    ∑ s ∈ Finset.range 16, ∑ j : Fin 256, term1 V c ρ.val b (256 * s + j.val)
      = Cert.Spec.next (Wgt1 V c) (fun κ β => Yin1 V c (ix2 κ β)) ρ b := by
  rw [LibBlockSum.sum_blocks (term1 V c ρ.val b) 16 256]
  show ∑ k : Fin 4096, term1 V c ρ.val b k.val = _
  unfold Cert.Spec.next
  refine Finset.sum_congr rfl fun k _ => ?_
  unfold term1
  rw [dif_pos ⟨ρ.isLt, k.isLt⟩]

/-! ## From the blocks to the array -/

/-- What the position that ends a row band writes back is that band of the specification's product. -/
theorem flushed1_eq (c : Dev nD) (dat : Pipeline.Dat τ (Elt Ideal) Unit ℕ (UR sig nD τ) ℕ cfg1 c)
    (hafter : ∀ t : Fin cfg1.N, t.val % 16 = 15 → dat.after 2 t = out1 V c t)
    (t : Fin cfg1.N) (hf : (cfg1.win 2).flush t = true) :
    dat.flushed 2 t = ((cfg1.win 2).blk t).view.read (Elt Ideal)
      (Cert.Spec.tall (Cert.Spec.next (Wgt1 V c) (fun κ β => Yin1 V c (ix2 κ β)))) := by
  have h15 : t.val % 16 = 15 := (flush1_2 t).mp hf
  obtain ⟨-, -, -, -, e4, e5⟩ := idx1 t
  funext y
  show dat.after 2 t ((cfg1.win 2).xinj (cfg1.grid.coords t) y)
    = Cert.Spec.next (Wgt1 V c) (fun κ β => Yin1 V c (ix2 κ β)) ((((cfg1.win 2).blk t).view.emb y) 0) ((((cfg1.win 2).blk t).view.emb y) 1)
  rw [hafter t h15]
  show acc1 V c t.val t.isLt ((cfg1.win 2).xinj (cfg1.grid.coords t) y) = _
  rw [acc1_at, h15]
  refine Eq.trans ?_ (full1 V c ((((cfg1.win 2).blk t).view.emb y) 0) ((((cfg1.win 2).blk t).view.emb y) 1))
  have e0 : 1024 * (t.val / 16) + (y 0).val = ((((cfg1.win 2).blk t).view.emb y) 0).val := by
    show _ = win1_2.index t (0 : Fin 2) * 1024 + 1 * (y 0).val
    omega
  have e1 : (y 1 : Fin 2048) = (((cfg1.win 2).blk t).view.emb y) 1 := Fin.ext (by
    show (y 1).val = win1_2.index t (1 : Fin 2) * 2048 + 1 * (y 1).val
    omega)
  refine Finset.sum_congr rfl fun s _ => Finset.sum_congr rfl fun j _ => ?_
  exact congrArg₂ (fun ρ β => term1 V c ρ β (256 * s + j.val)) e0 e1

/-- Every entry of the output array lies in the block written back at the end of its row band. -/
theorem cover1 (i : S4096x2048.Idx) :
    ∃ t : Fin cfg1.N, (cfg1.win 2).flush t = true ∧ i ∈ ((cfg1.win 2).blk t).view.set := by
  have hi0 : (i 0).val < 4096 := (i 0).isLt
  have hi1 : (i 1).val < 2048 := (i 1).isLt
  have hN : cfg1.N = 64 := N_1
  obtain ⟨t, ht⟩ : ∃ t : Fin cfg1.N, t.val = 16 * ((i 0).val / 1024) + 15 := ⟨⟨16 * ((i 0).val / 1024) + 15, by rw [hN]; omega⟩, rfl⟩
  obtain ⟨-, -, -, -, e4, e5⟩ := idx1 t
  refine ⟨t, (flush1_2 t).mpr (by omega), ?_⟩
  show i ∈ ((View.whole main_v1).slice (win1_2.rect t)).set
  rw [View.set_slice_whole, Rect.mem_set_unit]
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 2048 ≤ (i 1).val ∧ (i 1).val < win1_2.index t (1 : Fin 2) * 2048 + 2048
    omega

/-- The output array of region 1 ends holding the product of the region's weight with the table it was entered with:
    entry (i, b) is the sum over the 4096 contracted coordinates κ of weight[i, κ] · table[κ, b]. -/
theorem final1 (c : Dev nD) (dat : Pipeline.Dat τ (Elt Ideal) Unit ℕ (UR sig nD τ) ℕ cfg1 c)
    (hA : ∀ w, dat.A w = V c (Pipeline.arrRef spec1 w))
    (hafter : ∀ t : Fin cfg1.N, t.val % 16 = 15 → dat.after 2 t = out1 V c t) :
    dat.arrAt 2 cfg1.N = Cert.Spec.tall (Cert.Spec.next (V c main_arg3) (fun κ b => V c main_v0 (ix2 κ b))) :=
  dat.arrAt_eq_of_cover 2 (Cert.Spec.tall (Cert.Spec.next (Wgt1 V c) (fun κ β => Yin1 V c (ix2 κ β))))
    (fun t hf => flushed1_eq V c dat hafter t hf) (fun i => cover1 i)

end Cert.KernelIdeal.Hand

end
-- ==== Proof.Value2.lean ====
/-
  Region 2 of the chained product: the array its output window ends holding is the matrix product of the weight the
  region reads with the table the region before it left.
-/
import proofs.«116801_j83777632076060_2_alg».proof.Proof.Blocks
import proofs.«116801_j83777632076060_2_alg».proof.Proof.Spec
import proofs.«116801_j83777632076060_2_alg».proof.Proof.LibBlockSum
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open scoped BigOperators

/-! ## The body's three payloads at an index -/

/-- The reset value is zero everywhere. -/
theorem pay1_2_apply (j : S1024x2048.Idx) : k2_pay1 (F := Ideal) j = 0 := by
  unfold k2_pay1
  simp only [shapeCast_self]
  exact Ideal.ofBits_zero_f32

/-- The written value is the accumulator: a change of format is the identity on extended reals. -/
theorem pay3_2_eq (a : Vec Ideal S1024x2048 .f32) : k2_pay3 (F := Ideal) a = a := rfl

/-- The product's left operand is read along the output's row and the contracted coordinate … -/
theorem lhs2_0 (i : S1024x2048.Idx) (q : dot_S1024x256_S256x2048_S1024x2048_1_0_0_1_n_n.contr.Idx) :
    (dot_S1024x256_S256x2048_S1024x2048_1_0_0_1_n_n.lhsIdx i q 0).val = (i 0).val := by
  unfold DotDims.lhsIdx
  rw [dif_neg (show ¬(0 : Fin S1024x256.rank) ∈ dot_S1024x256_S256x2048_S1024x2048_1_0_0_1_n_n.lhsBatch by decide), dif_pos (show (0 : Fin S1024x256.rank) ∈ dot_S1024x256_S256x2048_S1024x2048_1_0_0_1_n_n.lhsNonContracting by decide)]
  rfl
theorem lhs2_1 (i : S1024x2048.Idx) (q : dot_S1024x256_S256x2048_S1024x2048_1_0_0_1_n_n.contr.Idx) :
    (dot_S1024x256_S256x2048_S1024x2048_1_0_0_1_n_n.lhsIdx i q 1).val = (q ⟨0, by decide⟩).val :=
  dot_S1024x256_S256x2048_S1024x2048_1_0_0_1_n_n.lhsIdx_val_of_single rfl i q
/-- … and the right operand along the contracted coordinate and the output's column. -/
theorem rhs2_0 (i : S1024x2048.Idx) (q : dot_S1024x256_S256x2048_S1024x2048_1_0_0_1_n_n.contr.Idx) :
    (dot_S1024x256_S256x2048_S1024x2048_1_0_0_1_n_n.rhsIdx i q 0).val = (q ⟨0, by decide⟩).val :=
  dot_S1024x256_S256x2048_S1024x2048_1_0_0_1_n_n.rhsIdx_val_of_single rfl i q
theorem rhs2_1 (i : S1024x2048.Idx) (q : dot_S1024x256_S256x2048_S1024x2048_1_0_0_1_n_n.contr.Idx) :
    (dot_S1024x256_S256x2048_S1024x2048_1_0_0_1_n_n.rhsIdx i q 1).val = (i 1).val := by
  unfold DotDims.rhsIdx
  rw [dif_neg (show ¬(1 : Fin S256x2048.rank) ∈ dot_S1024x256_S256x2048_S1024x2048_1_0_0_1_n_n.rhsBatch by decide), dif_pos (show (1 : Fin S256x2048.rank) ∈ dot_S1024x256_S256x2048_S1024x2048_1_0_0_1_n_n.rhsNonContracting by decide)]
  rfl

/-- The accumulated value at (r, b): what was there plus the sum over the slab's 256 contracted coordinates of the
    products of the weight block's row `r` with the table block's column `b`. -/
theorem pay2_2_apply (x0 : Vec Ideal S1024x256 .f32) (x1 : Vec Ideal S256x2048 .bf16) (a : Vec Ideal S1024x2048 .f32)
    (r : Fin 1024) (b : Fin 2048) :
    k2_pay2 x0 x1 a (ix2 r b) = a (ix2 r b) + ∑ j : Fin 256, x0 (ix2 r j) * x1 (ix2 j b) := by
  unfold k2_pay2
  simp only [shapeCast_self]
  rw [addf_apply]
  refine congrArg (a (ix2 r b) + ·) ?_
  simp only [matmul]
  rw [Ideal.matmul_constant_zero_apply, ← Equiv.sum_comp (contrEquiv1 dot_S1024x256_S256x2048_S1024x2048_1_0_0_1_n_n 256 rfl rfl).symm]
  refine Finset.sum_congr rfl fun k _ => ?_
  have hk := contrEquiv1_symm_val dot_S1024x256_S256x2048_S1024x2048_1_0_0_1_n_n 256 rfl rfl k
  have el : dot_S1024x256_S256x2048_S1024x2048_1_0_0_1_n_n.lhsIdx (ix2 r b) ((contrEquiv1 dot_S1024x256_S256x2048_S1024x2048_1_0_0_1_n_n 256 rfl rfl).symm k) = ix2 r k := funext fun a => Fin.ext (by
    match a with
    | ⟨0, _⟩ => exact lhs2_0 _ _
    | ⟨1, _⟩ => exact (lhs2_1 _ _).trans hk)
  have er : dot_S1024x256_S256x2048_S1024x2048_1_0_0_1_n_n.rhsIdx (ix2 r b) ((contrEquiv1 dot_S1024x256_S256x2048_S1024x2048_1_0_0_1_n_n 256 rfl rfl).symm k) = ix2 k b := funext fun a => Fin.ext (by
    match a with
    | ⟨0, _⟩ => exact (rhs2_0 _ _).trans hk
    | ⟨1, _⟩ => exact rhs2_1 _ _)
  rw [el, er]
  rfl

/-! ## The blocks the body reads -/

variable (V : (c : Dev nD) → (b : Ref sig .tc) → Buf (Elt Ideal) ((c : Thread nD τ).loc b))

/-- The three windows' block indices at position `t`: the weight's block (t / 16, t % 16), the table's (t % 16, 0), the
    output's (t / 16, 0). -/
theorem idx2 : ∀ t : Fin cfg2.N, win2_0.index t (0 : Fin 2) = t.val / 16 ∧ win2_0.index t (1 : Fin 2) = t.val % 16
    ∧ win2_1.index t (0 : Fin 2) = t.val % 16 ∧ win2_1.index t (1 : Fin 2) = 0
    ∧ win2_2.index t (0 : Fin 2) = t.val / 16 ∧ win2_2.index t (1 : Fin 2) = 0 :=
  (by decide +kernel : ∀ t : Fin grid2.N, _)

/-- The weight's block at position `t`, entry (r, j), is the weight's entry (1024 (t / 16) + r, 256 (t % 16) + j). -/
theorem blockW2 (c : Dev nD) (t : Fin cfg2.N) (r : Fin 1024) (j : Fin 256) (ρ κ : Fin 4096)
    (hρ : ρ.val = 1024 * (t.val / 16) + r.val) (hκ : κ.val = 256 * (t.val % 16) + j.val) :
    iblk2 V c 0 t (ix2 r j) = V c main_arg2 (ix2 ρ κ) := by
  obtain ⟨e0, e1, -⟩ := idx2 t
  unfold iblk2
  rw [View.read_apply]
  show V c main_arg2 _ = V c main_arg2 _
  refine congrArg (V c main_arg2) (funext fun a => Fin.ext ?_)
  match a with
  | ⟨0, _⟩ => show win2_0.index t (0 : Fin 2) * 1024 + 1 * r.val = ρ.val; omega
  | ⟨1, _⟩ => show win2_0.index t (1 : Fin 2) * 256 + 1 * j.val = κ.val; omega

/-- The table's block at position `t`, entry (j, b), is the table's entry (256 (t % 16) + j, b). -/
theorem blockY2 (c : Dev nD) (t : Fin cfg2.N) (j : Fin 256) (b : Fin 2048) (κ : Fin 4096)
    (hκ : κ.val = 256 * (t.val % 16) + j.val) :
    iblk2 V c 1 t (ix2 j b) = V c main_v1 (ix2 κ b) := by
  obtain ⟨-, -, e2, e3, -⟩ := idx2 t
  unfold iblk2
  rw [View.read_apply]
  show V c main_v1 _ = V c main_v1 _
  refine congrArg (V c main_v1) (funext fun a => Fin.ext ?_)
  match a with
  | ⟨0, _⟩ => show win2_1.index t (0 : Fin 2) * 256 + 1 * j.val = κ.val; omega
  | ⟨1, _⟩ => show win2_1.index t (1 : Fin 2) * 2048 + 1 * b.val = b.val; omega

/-! ## The accumulator, position by position -/

/-- The weight the region reads and the table the region before it left, as tables of extended reals. -/
abbrev Wgt2 (c : Dev nD) : Cert.Spec.Sq := V c main_arg2
abbrev Yin2 (c : Dev nD) : Cert.Spec.Tall := V c main_v1

/-- The product of the weight's entry (ρ, κ) with the table's entry (κ, b), row and contracted coordinate given as
    naturals; zero outside the tables. -/
def term2 (c : Dev nD) (ρ : ℕ) (b : Fin 2048) (κ : ℕ) : EReal :=
  if h : ρ < 4096 ∧ κ < 4096 then
    Wgt2 V c (ix2 (⟨ρ, h.1⟩ : Fin 4096) (⟨κ, h.2⟩ : Fin 4096)) * Yin2 V c (ix2 (⟨κ, h.2⟩ : Fin 4096) b)
  else 0

/-- One position's step: the body adds, at (r, b), the products over the position's slab of 256 contracted coordinates
    of the weight's row 1024 (n / 16) + r with the table's column b. -/
theorem step2 (c : Dev nD) (n : ℕ) (h : n < cfg2.N) (a : Vec Ideal S1024x2048 .f32) (r : Fin 1024) (b : Fin 2048) :
    k2_pay2 (iblk2 V c 0 ⟨n, h⟩) (iblk2 V c 1 ⟨n, h⟩) a (ix2 r b)
      = a (ix2 r b) + ∑ j : Fin 256, term2 V c (1024 * (n / 16) + r.val) b (256 * (n % 16) + j.val) := by
  have hn : n < 64 := by have := h; rw [show cfg2.N = 64 from N_2] at this; exact this
  rw [pay2_2_apply (iblk2 V c 0 ⟨n, h⟩) (iblk2 V c 1 ⟨n, h⟩) a r b]
  refine congrArg (a (ix2 r b) + ·) (Finset.sum_congr rfl fun j _ => ?_)
  have hr := r.isLt
  have hj := j.isLt
  have hρ : 1024 * (n / 16) + r.val < 4096 := by omega
  have hκ : 256 * (n % 16) + j.val < 4096 := by omega
  unfold term2
  rw [dif_pos ⟨hρ, hκ⟩, blockW2 V c ⟨n, h⟩ r j ⟨_, hρ⟩ ⟨_, hκ⟩ rfl rfl, blockY2 V c ⟨n, h⟩ j b ⟨_, hκ⟩ rfl]

/-- After position n the accumulator holds, at (r, b), the products over the slabs 0 … n % 16 of the row band n / 16. -/
theorem acc2_apply (c : Dev nD) : ∀ (n : ℕ) (h : n < cfg2.N) (r : Fin 1024) (b : Fin 2048),
    acc2 V c n h (ix2 r b)
      = ∑ s ∈ Finset.range (n % 16 + 1), ∑ j : Fin 256, term2 V c (1024 * (n / 16) + r.val) b (256 * s + j.val)
  | 0, h, r, b => by
    rw [acc2, step2 V c 0 h _ r b, pay1_2_apply, zero_add]
    show _ = ∑ s ∈ Finset.range 1, _
    rw [Finset.sum_range_one]
  | n + 1, h, r, b => by
    rw [acc2, step2 V c (n + 1) h _ r b]
    by_cases hm : (n + 1) % 16 = 0
    · rw [if_pos hm, pay1_2_apply, zero_add, hm, Finset.sum_range_one]
    · rw [if_neg hm, acc2_apply c n _ r b]
      have h1 : (n + 1) % 16 = n % 16 + 1 := by omega
      have h2 : (n + 1) / 16 = n / 16 := by omega
      rw [h1, h2, Finset.sum_range_succ _ (n % 16 + 1)]

/-- The same at any index of the accumulator. -/
theorem acc2_at (c : Dev nD) (n : ℕ) (h : n < cfg2.N) (y : S1024x2048.Idx) :
    acc2 V c n h y
      = ∑ s ∈ Finset.range (n % 16 + 1), ∑ j : Fin 256, term2 V c (1024 * (n / 16) + (y 0).val) (y 1) (256 * s + j.val) := by
  obtain ⟨r, b, rfl⟩ : ∃ (r : Fin 1024) (b : Fin 2048), y = ix2 r b := ⟨y 0, y 1, eq_ix2 y⟩
  exact acc2_apply V c n h r b

/-- All sixteen slabs of a row: the sum over the 4096 contracted coordinates, the specification's product entry. -/
theorem full2 (c : Dev nD) (ρ : Fin 4096) (b : Fin 2048) :
    ∑ s ∈ Finset.range 16, ∑ j : Fin 256, term2 V c ρ.val b (256 * s + j.val)
      = Cert.Spec.next (Wgt2 V c) (fun κ β => Yin2 V c (ix2 κ β)) ρ b := by
  rw [LibBlockSum.sum_blocks (term2 V c ρ.val b) 16 256]
  show ∑ k : Fin 4096, term2 V c ρ.val b k.val = _
  unfold Cert.Spec.next
  refine Finset.sum_congr rfl fun k _ => ?_
  unfold term2
  rw [dif_pos ⟨ρ.isLt, k.isLt⟩]

/-! ## From the blocks to the array -/

/-- What the position that ends a row band writes back is that band of the specification's product. -/
theorem flushed2_eq (c : Dev nD) (dat : Pipeline.Dat τ (Elt Ideal) Unit ℕ (UR sig nD τ) ℕ cfg2 c)
    (hafter : ∀ t : Fin cfg2.N, t.val % 16 = 15 → dat.after 2 t = out2 V c t)
    (t : Fin cfg2.N) (hf : (cfg2.win 2).flush t = true) :
    dat.flushed 2 t = ((cfg2.win 2).blk t).view.read (Elt Ideal)
      (Cert.Spec.tall (Cert.Spec.next (Wgt2 V c) (fun κ β => Yin2 V c (ix2 κ β)))) := by
  have h15 : t.val % 16 = 15 := (flush2_2 t).mp hf
  obtain ⟨-, -, -, -, e4, e5⟩ := idx2 t
  funext y
  show dat.after 2 t ((cfg2.win 2).xinj (cfg2.grid.coords t) y)
    = Cert.Spec.next (Wgt2 V c) (fun κ β => Yin2 V c (ix2 κ β)) ((((cfg2.win 2).blk t).view.emb y) 0) ((((cfg2.win 2).blk t).view.emb y) 1)
  rw [hafter t h15]
  show acc2 V c t.val t.isLt ((cfg2.win 2).xinj (cfg2.grid.coords t) y) = _
  rw [acc2_at, h15]
  refine Eq.trans ?_ (full2 V c ((((cfg2.win 2).blk t).view.emb y) 0) ((((cfg2.win 2).blk t).view.emb y) 1))
  have e0 : 1024 * (t.val / 16) + (y 0).val = ((((cfg2.win 2).blk t).view.emb y) 0).val := by
    show _ = win2_2.index t (0 : Fin 2) * 1024 + 1 * (y 0).val
    omega
  have e1 : (y 1 : Fin 2048) = (((cfg2.win 2).blk t).view.emb y) 1 := Fin.ext (by
    show (y 1).val = win2_2.index t (1 : Fin 2) * 2048 + 1 * (y 1).val
    omega)
  refine Finset.sum_congr rfl fun s _ => Finset.sum_congr rfl fun j _ => ?_
  exact congrArg₂ (fun ρ β => term2 V c ρ β (256 * s + j.val)) e0 e1

/-- Every entry of the output array lies in the block written back at the end of its row band. -/
theorem cover2 (i : S4096x2048.Idx) :
    ∃ t : Fin cfg2.N, (cfg2.win 2).flush t = true ∧ i ∈ ((cfg2.win 2).blk t).view.set := by
  have hi0 : (i 0).val < 4096 := (i 0).isLt
  have hi1 : (i 1).val < 2048 := (i 1).isLt
  have hN : cfg2.N = 64 := N_2
  obtain ⟨t, ht⟩ : ∃ t : Fin cfg2.N, t.val = 16 * ((i 0).val / 1024) + 15 := ⟨⟨16 * ((i 0).val / 1024) + 15, by rw [hN]; omega⟩, rfl⟩
  obtain ⟨-, -, -, -, e4, e5⟩ := idx2 t
  refine ⟨t, (flush2_2 t).mpr (by omega), ?_⟩
  show i ∈ ((View.whole main_v2).slice (win2_2.rect t)).set
  rw [View.set_slice_whole, Rect.mem_set_unit]
  intro a
  match a with
  | ⟨0, _⟩ =>
    show win2_2.index t (0 : Fin 2) * 1024 ≤ (i 0).val ∧ (i 0).val < win2_2.index t (0 : Fin 2) * 1024 + 1024
    omega
  | ⟨1, _⟩ =>
    show win2_2.index t (1 : Fin 2) * 2048 ≤ (i 1).val ∧ (i 1).val < win2_2.index t (1 : Fin 2) * 2048 + 2048
    omega

/-- The output array of region 2 ends holding the product of the region's weight with the table it was entered with:
    entry (i, b) is the sum over the 4096 contracted coordinates κ of weight[i, κ] · table[κ, b]. -/
theorem final2 (c : Dev nD) (dat : Pipeline.Dat τ (Elt Ideal) Unit ℕ (UR sig nD τ) ℕ cfg2 c)
    (hA : ∀ w, dat.A w = V c (Pipeline.arrRef spec2 w))
    (hafter : ∀ t : Fin cfg2.N, t.val % 16 = 15 → dat.after 2 t = out2 V c t) :
    dat.arrAt 2 cfg2.N = Cert.Spec.tall (Cert.Spec.next (V c main_arg2) (fun κ b => V c main_v1 (ix2 κ b))) :=
  dat.arrAt_eq_of_cover 2 (Cert.Spec.tall (Cert.Spec.next (Wgt2 V c) (fun κ β => Yin2 V c (ix2 κ β))))
    (fun t hf => flushed2_eq V c dat hafter t hf) (fun i => cover2 i)

end Cert.KernelIdeal.Hand

end
-- ==== Proof.Value3.lean ====
/-
  Region 3 of the chained product: what its output array ends holding.

  The region walks a 4 × 16 grid. At point (i, k) it multiplies the slab Y[256k … 256k+255, ·] (transposed) by the
  slab W[1024i … 1024i+1023, 256k … 256k+255] (transposed), adding into an accumulator of shape [2048, 1024] that was
  zeroed where k = 0; where k = 15 the accumulator plus the bias row of the band is written to columns
  1024i … 1024i+1023 of the [2048, 4096] result. Summing the sixteen slabs of 256 contracted coordinates gives the
  whole contraction over 4096, so the result at (b, ρ) is Σ_κ W[ρ, κ] · Y[κ, b] + bias[ρ].
-/
import proofs.«116801_j83777632076060_2_alg».proof.Proof.Blocks
import proofs.«116801_j83777632076060_2_alg».proof.Proof.Spec
import proofs.«116801_j83777632076060_2_alg».proof.Proof.LibBlockSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

/-! ## The three payloads at an index -/

/-- The reset value of the accumulator is zero everywhere. -/
theorem pay3_1_apply (j : S2048x1024.Idx) : k3_pay1 (F := Ideal) j = 0 := by
  unfold k3_pay1
  simp only [shapeCast_self]
  exact Ideal.ofBits_zero_f32

/-- The left operand's index of the slab product at output (b, r) and contracted coordinate q: its column is b. -/
theorem dot3_lhs_1 (i : S2048x1024.Idx) (q : dot_S256x2048_S1024x256_S2048x1024_0_1_1_0_n_n.contr.Idx) :
    (dot_S256x2048_S1024x256_S2048x1024_0_1_1_0_n_n.lhsIdx i q 1).val = (i 0).val := by
  unfold DotDims.lhsIdx
  rw [dif_neg (show ¬(1 : Fin S256x2048.rank) ∈ dot_S256x2048_S1024x256_S2048x1024_0_1_1_0_n_n.lhsBatch by decide),
    dif_pos (show (1 : Fin S256x2048.rank) ∈ dot_S256x2048_S1024x256_S2048x1024_0_1_1_0_n_n.lhsNonContracting by decide)]
  rfl
/-- Its row is the contracted coordinate. -/
theorem dot3_lhs_0 (i : S2048x1024.Idx) (q : dot_S256x2048_S1024x256_S2048x1024_0_1_1_0_n_n.contr.Idx) :
    (dot_S256x2048_S1024x256_S2048x1024_0_1_1_0_n_n.lhsIdx i q 0).val = (q ⟨0, by decide⟩).val :=
  dot_S256x2048_S1024x256_S2048x1024_0_1_1_0_n_n.lhsIdx_val_of_single rfl i q
/-- The right operand's index: its row is r. -/
theorem dot3_rhs_0 (i : S2048x1024.Idx) (q : dot_S256x2048_S1024x256_S2048x1024_0_1_1_0_n_n.contr.Idx) :
    (dot_S256x2048_S1024x256_S2048x1024_0_1_1_0_n_n.rhsIdx i q 0).val = (i 1).val := by
  unfold DotDims.rhsIdx
  rw [dif_neg (show ¬(0 : Fin S1024x256.rank) ∈ dot_S256x2048_S1024x256_S2048x1024_0_1_1_0_n_n.rhsBatch by decide),
    dif_pos (show (0 : Fin S1024x256.rank) ∈ dot_S256x2048_S1024x256_S2048x1024_0_1_1_0_n_n.rhsNonContracting by decide)]
  rfl
/-- Its column is the contracted coordinate. -/
theorem dot3_rhs_1 (i : S2048x1024.Idx) (q : dot_S256x2048_S1024x256_S2048x1024_0_1_1_0_n_n.contr.Idx) :
    (dot_S256x2048_S1024x256_S2048x1024_0_1_1_0_n_n.rhsIdx i q 1).val = (q ⟨0, by decide⟩).val :=
  dot_S256x2048_S1024x256_S2048x1024_0_1_1_0_n_n.rhsIdx_val_of_single rfl i q

/-- One step of the accumulator at (b, r): what it held plus Σ_j Y-slab[j, b] · W-slab[r, j] over the slab's 256
    contracted coordinates. -/
theorem pay3_2_apply (x0 : Vec Ideal S1024x256 .f32) (x1 : Vec Ideal S256x2048 .bf16) (a : Vec Ideal S2048x1024 .f32)
    (b : Fin 2048) (r : Fin 1024) :
    k3_pay2 x0 x1 a (ix2 b r) = a (ix2 b r) + ∑ j : Fin 256, x1 (ix2 j b) * x0 (ix2 r j) := by
  unfold k3_pay2
  simp only [shapeCast_self, addf_apply, Ideal.matmul_constant_zero_apply]
  refine congrArg (a (ix2 b r) + ·) ?_
  rw [← Equiv.sum_comp (contrEquiv1 dot_S256x2048_S1024x256_S2048x1024_0_1_1_0_n_n 256 rfl rfl).symm]
  refine Finset.sum_congr rfl fun k _ => ?_
  have hk := contrEquiv1_symm_val dot_S256x2048_S1024x256_S2048x1024_0_1_1_0_n_n 256 rfl rfl k
  have el : dot_S256x2048_S1024x256_S2048x1024_0_1_1_0_n_n.lhsIdx (ix2 b r)
      ((contrEquiv1 dot_S256x2048_S1024x256_S2048x1024_0_1_1_0_n_n 256 rfl rfl).symm k) = ix2 k b :=
    funext fun a => Fin.ext (by
      match a with
      | ⟨0, _⟩ => exact (dot3_lhs_0 _ _).trans hk
      | ⟨1, _⟩ => exact dot3_lhs_1 _ _)
  have er : dot_S256x2048_S1024x256_S2048x1024_0_1_1_0_n_n.rhsIdx (ix2 b r)
      ((contrEquiv1 dot_S256x2048_S1024x256_S2048x1024_0_1_1_0_n_n 256 rfl rfl).symm k) = ix2 r k :=
    funext fun a => Fin.ext (by
      match a with
      | ⟨0, _⟩ => exact dot3_rhs_0 _ _
      | ⟨1, _⟩ => exact (dot3_rhs_1 _ _).trans hk)
  rw [el, er]
  rfl

/-- The value written out at (b, r): the accumulator plus the bias of column r. -/
theorem pay3_3_apply (v : Vec Ideal S1x1024 .f32) (a : Vec Ideal S2048x1024 .f32) (b : Fin 2048) (r : Fin 1024) :
    k3_pay3 v a (ix2 b r) = a (ix2 b r) + v (ix2 (0 : Fin 1) r) := by
  unfold k3_pay3
  simp only [shapeCast_self, addf_apply]
  exact congrArg (a (ix2 b r) + ·) (broadcastTo_1b_ab_apply v _ b r)

/-! ## Where each window's block sits -/

/-- The block indices at point t = 16·i + k: the weight's block is (i, k), the operand's (k, 0), the bias's and the
    result's (0, i). -/
theorem idx3_facts : ∀ t : Fin cfg3.N,
    win3_0.index t (0 : Fin 2) = t.val / 16 ∧ win3_0.index t (1 : Fin 2) = t.val % 16
    ∧ win3_1.index t (0 : Fin 2) = t.val % 16 ∧ win3_1.index t (1 : Fin 2) = 0
    ∧ win3_2.index t (0 : Fin 2) = 0 ∧ win3_2.index t (1 : Fin 2) = t.val / 16
    ∧ win3_3.index t (0 : Fin 2) = 0 ∧ win3_3.index t (1 : Fin 2) = t.val / 16 :=
  (by decide +kernel : ∀ t : Fin grid3.N, _)

/-- The weight's block at point t read at (r, j) is the array at (1024·(t / 16) + r, 256·(t % 16) + j). -/
theorem blkW3_apply (A : S4096x4096.Idx → EReal) (t : Fin cfg3.N) (r : Fin 1024) (j : Fin 256)
    (hr : 1024 * (t.val / 16) + r.val < 4096) (hj : 256 * (t.val % 16) + j.val < 4096) :
    ((cfg3.win 0).blk t).view.read (Elt Ideal) A (ix2 r j) = A (ix2 ⟨1024 * (t.val / 16) + r.val, hr⟩ ⟨256 * (t.val % 16) + j.val, hj⟩) := by
  show A (((cfg3.win 0).blk t).view.emb (ix2 r j)) = A _
  refine congrArg A ?_
  obtain ⟨e0, e1, -⟩ := idx3_facts t
  funext a; apply Fin.ext
  match a with
  | ⟨0, _⟩ => show win3_0.index t (0 : Fin 2) * 1024 + 1 * r.val = 1024 * (t.val / 16) + r.val; omega
  | ⟨1, _⟩ => show win3_0.index t (1 : Fin 2) * 256 + 1 * j.val = 256 * (t.val % 16) + j.val; omega

/-- The operand's block at point t read at (j, b) is the array at (256·(t % 16) + j, b). -/
theorem blkY3_apply (A : S4096x2048.Idx → EReal) (t : Fin cfg3.N) (j : Fin 256) (b : Fin 2048)
    (hj : 256 * (t.val % 16) + j.val < 4096) :
    ((cfg3.win 1).blk t).view.read (Elt Ideal) A (ix2 j b) = A (ix2 ⟨256 * (t.val % 16) + j.val, hj⟩ b) := by
  show A (((cfg3.win 1).blk t).view.emb (ix2 j b)) = A _
  refine congrArg A ?_
  obtain ⟨-, -, e0, e1, -⟩ := idx3_facts t
  funext a; apply Fin.ext
  match a with
  | ⟨0, _⟩ => show win3_1.index t (0 : Fin 2) * 256 + 1 * j.val = 256 * (t.val % 16) + j.val; omega
  | ⟨1, _⟩ => show win3_1.index t (1 : Fin 2) * 2048 + 1 * b.val = b.val; omega

/-- The bias's block at point t read at (0, r) is the array at (0, 1024·(t / 16) + r). -/
theorem blkB3_apply (A : S1x4096.Idx → EReal) (t : Fin cfg3.N) (r : Fin 1024)
    (hr : 1024 * (t.val / 16) + r.val < 4096) :
    ((cfg3.win 2).blk t).view.read (Elt Ideal) A (ix2 (0 : Fin 1) r) = A (ix2 (0 : Fin 1) ⟨1024 * (t.val / 16) + r.val, hr⟩) := by
  show A (((cfg3.win 2).blk t).view.emb (ix2 (0 : Fin 1) r)) = A _
  refine congrArg A ?_
  obtain ⟨-, -, -, -, e0, e1, -⟩ := idx3_facts t
  funext a; apply Fin.ext
  match a with
  | ⟨0, _⟩ => show win3_2.index t (0 : Fin 2) * 1 + 1 * 0 = 0; omega
  | ⟨1, _⟩ => show win3_2.index t (1 : Fin 2) * 1024 + 1 * r.val = 1024 * (t.val / 16) + r.val; omega

/-! ## The accumulator -/

/-- The product Y[κ, b] · W[ρ, κ] as a function of natural ρ and κ, zero past the arrays' extents. -/
def term3 (A0 : S4096x4096.Idx → EReal) (A1 : S4096x2048.Idx → EReal) (ρ : ℕ) (b : Fin 2048) (κ : ℕ) : EReal :=
  if h : ρ < 4096 ∧ κ < 4096 then A1 (ix2 ⟨κ, h.2⟩ b) * A0 (ix2 ⟨ρ, h.1⟩ ⟨κ, h.2⟩) else 0

/-- A slab's 256 products, when its two blocks are the arrays' entries from contracted coordinate σ on in row ρ. -/
theorem slab3_sum (x0 : Vec Ideal S1024x256 .f32) (x1 : Vec Ideal S256x2048 .bf16)
    (A0 : S4096x4096.Idx → EReal) (A1 : S4096x2048.Idx → EReal) (ρ σ : ℕ) (b : Fin 2048) (r : Fin 1024)
    (hρ : ρ < 4096) (hσ : σ + 256 ≤ 4096)
    (h0 : ∀ (j : Fin 256) (hj : σ + j.val < 4096), x0 (ix2 r j) = A0 (ix2 ⟨ρ, hρ⟩ ⟨σ + j.val, hj⟩))
    (h1 : ∀ (j : Fin 256) (hj : σ + j.val < 4096), x1 (ix2 j b) = A1 (ix2 ⟨σ + j.val, hj⟩ b)) :
    ∑ j : Fin 256, x1 (ix2 j b) * x0 (ix2 r j) = ∑ x ∈ Finset.range 256, term3 A0 A1 ρ b (σ + x) := by
  rw [← Fin.sum_univ_eq_sum_range (fun x => term3 A0 A1 ρ b (σ + x)) 256]
  refine Finset.sum_congr rfl fun j _ => ?_
  have hj : σ + j.val < 4096 := by have := j.isLt; omega
  unfold term3
  rw [dif_pos ⟨hρ, hj⟩, h0 j hj, h1 j hj]

variable (V : (c : Dev nD) → (b : Ref sig .tc) → Buf (Elt Ideal) ((c : Thread nD τ).loc b))

/-- One point's step at (b, r): the accumulator plus the products over the point's slab of 256 contracted
    coordinates, those from 256·(t % 16) on, in row 1024·(t / 16) + r of the weight. -/
theorem step3_apply (c : Dev nD) (t : Fin cfg3.N) (a : Vec Ideal S2048x1024 .f32) (b : Fin 2048) (r : Fin 1024) :
    k3_pay2 (iblk3 V c 0 t) (iblk3 V c 1 t) a (ix2 b r)
      = a (ix2 b r) + ∑ x ∈ Finset.range 256,
          term3 (V c main_arg1) (V c main_v2) (1024 * (t.val / 16) + r.val) b (256 * (t.val % 16) + x) := by
  refine (pay3_2_apply (iblk3 V c 0 t) (iblk3 V c 1 t) a b r).trans ?_
  refine congrArg (a (ix2 b r) + ·) ?_
  have hN : cfg3.N = 64 := N_3
  have ht : t.val < 64 := hN ▸ t.isLt
  have hr : 1024 * (t.val / 16) + r.val < 4096 := by have := r.isLt; omega
  have hσ : 256 * (t.val % 16) + 256 ≤ 4096 := by omega
  exact slab3_sum (iblk3 V c 0 t) (iblk3 V c 1 t) (V c main_arg1) (V c main_v2) _ _ b r hr hσ
    (fun j hj => blkW3_apply (V c main_arg1) t r j hr hj) (fun j hj => blkY3_apply (V c main_v2) t j b hj)

/-- The accumulator after position n at (b, r): the products over the first 256·(n % 16 + 1) contracted coordinates,
    in row 1024·(n / 16) + r of the weight. -/
theorem acc3_apply (c : Dev nD) : ∀ (n : ℕ) (h : n < cfg3.N) (b : Fin 2048) (r : Fin 1024),
    acc3 V c n h (ix2 b r)
      = ∑ κ ∈ Finset.range (256 * (n % 16 + 1)), term3 (V c main_arg1) (V c main_v2) (1024 * (n / 16) + r.val) b κ
  | 0, h, b, r => by
    show k3_pay2 (iblk3 V c 0 ⟨0, h⟩) (iblk3 V c 1 ⟨0, h⟩) (k3_pay1 (F := Ideal)) (ix2 b r) = _
    rw [step3_apply V c ⟨0, h⟩ _ b r, pay3_1_apply, zero_add]
    refine Finset.sum_congr rfl fun x _ => ?_
    show term3 _ _ (1024 * (0 / 16) + r.val) b (256 * (0 % 16) + x) = _
    rw [show 256 * (0 % 16) + x = x by omega]
  | n + 1, h, b, r => by
    show k3_pay2 (iblk3 V c 0 ⟨n + 1, h⟩) (iblk3 V c 1 ⟨n + 1, h⟩)
      (if (n + 1) % 16 = 0 then (k3_pay1 (F := Ideal)) else acc3 V c n (Nat.lt_of_succ_lt h)) (ix2 b r) = _
    rw [step3_apply V c ⟨n + 1, h⟩ _ b r]
    show (if (n + 1) % 16 = 0 then (k3_pay1 (F := Ideal)) else acc3 V c n (Nat.lt_of_succ_lt h)) (ix2 b r)
      + ∑ x ∈ Finset.range 256, term3 (V c main_arg1) (V c main_v2) (1024 * ((n + 1) / 16) + r.val) b (256 * ((n + 1) % 16) + x) = _
    by_cases h0 : (n + 1) % 16 = 0
    · rw [if_pos h0, pay3_1_apply, zero_add, h0]
      refine Finset.sum_congr rfl fun x _ => ?_
      rw [show 256 * 0 + x = x by omega]
    · rw [if_neg h0, acc3_apply c n (Nat.lt_of_succ_lt h) b r]
      have e1 : (n + 1) / 16 = n / 16 := by omega
      have e2 : (n + 1) % 16 = n % 16 + 1 := by omega
      rw [e1, e2, show 256 * (n % 16 + 1 + 1) = 256 * (n % 16 + 1) + 256 by omega, Finset.sum_range_add]

/-! ## What is written out, and the array at the end -/

/-- The value written out at (b, r) when the accumulator holds the whole contraction of row ρ and the bias block's
    entry is the bias of ρ: the specification's entry (ρ, b) plus that bias. -/
theorem out3_sum (v : Vec Ideal S1x1024 .f32) (a : Vec Ideal S2048x1024 .f32)
    (A0 : S4096x4096.Idx → EReal) (A1 : S4096x2048.Idx → EReal) (B : S1x4096.Idx → EReal)
    (ρ : Fin 4096) (b : Fin 2048) (r : Fin 1024)
    (ha : a (ix2 b r) = ∑ κ ∈ Finset.range 4096, term3 A0 A1 ρ.val b κ)
    (hv : v (ix2 (0 : Fin 1) r) = B (ix2 (0 : Fin 1) ρ)) :
    k3_pay3 v a (ix2 b r) = Cert.Spec.next A0 (fun κ b => A1 (ix2 κ b)) ρ b + B (ix2 (0 : Fin 1) ρ) := by
  rw [pay3_3_apply, ha, hv]
  refine congrArg (· + B (ix2 (0 : Fin 1) ρ)) ?_
  unfold Cert.Spec.next
  rw [← Fin.sum_univ_eq_sum_range (fun κ => term3 A0 A1 ρ.val b κ) 4096]
  refine Finset.sum_congr rfl fun κ _ => ?_
  unfold term3
  rw [dif_pos ⟨ρ.isLt, κ.isLt⟩]
  exact mul_comm _ _

/-- What the region's result holds at (b, ρ): Σ_κ W[ρ, κ] · Y[κ, b] plus the bias of column ρ. -/
def G3 (c : Dev nD) : S2048x4096.Idx → EReal := fun j =>
  Cert.Spec.next (V c main_arg1) (fun κ b => V c main_v2 (ix2 κ b)) (j 1) (j 0) + V c main_v3 (ix2 (0 : Fin 1) (j 1))

/-- At a point whose inner coordinate is the last, the value written out at (b, r) is the result's entry at
    (b, 1024·(t / 16) + r). -/
theorem out3_apply (c : Dev nD) (t : Fin cfg3.N) (ht : t.val % 16 = 15) (b : Fin 2048) (r : Fin 1024)
    (hr : 1024 * (t.val / 16) + r.val < 4096) :
    out3 V c t (ix2 b r) = G3 V c (ix2 b ⟨1024 * (t.val / 16) + r.val, hr⟩) :=
  out3_sum (iblk3 V c 2 t) (acc3 V c t.val t.isLt) (V c main_arg1) (V c main_v2) (V c main_v3)
    ⟨1024 * (t.val / 16) + r.val, hr⟩ b r
    ((acc3_apply V c t.val t.isLt b r).trans (by rw [ht]))
    (blkB3_apply (V c main_v3) t r hr)

/-- What a point whose inner coordinate is the last writes back is its block of the result. -/
theorem flushed3_eq (c : Dev nD) (dat : Pipeline.Dat τ (Elt Ideal) Unit ℕ (UR sig nD τ) ℕ cfg3 c)
    (hafter : ∀ t : Fin cfg3.N, t.val % 16 = 15 → dat.after 3 t = out3 V c t)
    (t : Fin cfg3.N) (hf : (cfg3.win 3).flush t = true) :
    dat.flushed 3 t = ((cfg3.win 3).blk t).view.read (Elt Ideal) (G3 V c) := by
  have ht : t.val % 16 = 15 := (flush3_3 t).mp hf
  show (cfg3.win 3).cut (grid3.coords t) (dat.after 3 t) = _
  rw [hafter t ht]
  funext y
  obtain ⟨b, r, rfl⟩ : ∃ (b : Fin 2048) (r : Fin 1024), y = ix2 b r := ⟨y 0, y 1, eq_ix2 y⟩
  have hN : cfg3.N = 64 := N_3
  have htl : t.val < 64 := hN ▸ t.isLt
  have hr : 1024 * (t.val / 16) + r.val < 4096 := by have := r.isLt; omega
  show out3 V c t (ix2 b r) = G3 V c (((cfg3.win 3).blk t).view.emb (ix2 b r))
  rw [out3_apply V c t ht b r hr]
  refine congrArg (G3 V c) ?_
  obtain ⟨-, -, -, -, -, -, e0, e1⟩ := idx3_facts t
  funext a; apply Fin.ext
  match a with
  | ⟨0, _⟩ => show b.val = win3_3.index t (0 : Fin 2) * 2048 + 1 * b.val; omega
  | ⟨1, _⟩ => show 1024 * (t.val / 16) + r.val = win3_3.index t (1 : Fin 2) * 1024 + 1 * r.val; omega

/-- Every index of the result lies in the block written back at the last point of its band of 1024 columns. -/
theorem cover3 (i : S2048x4096.Idx) :
    ∃ t : Fin cfg3.N, (cfg3.win 3).flush t = true ∧ i ∈ ((cfg3.win 3).blk t).view.set := by
  have hN : cfg3.N = 64 := N_3
  have h0 : (i 0).val < 2048 := (i 0).isLt
  have h1 : (i 1).val < 4096 := (i 1).isLt
  obtain ⟨t, ht⟩ : ∃ t : Fin cfg3.N, t.val = 16 * ((i 1).val / 1024) + 15 :=
    ⟨⟨16 * ((i 1).val / 1024) + 15, by rw [hN]; omega⟩, rfl⟩
  refine ⟨t, (flush3_3 t).mpr (by omega), ?_⟩
  obtain ⟨-, -, -, -, -, -, e0, e1⟩ := idx3_facts t
  show i ∈ ((View.whole main_v4).slice (win3_3.rect t)).set
  rw [View.set_slice_whole, Rect.mem_set_unit]
  intro a
  match a with
  | ⟨0, _⟩ =>
    show win3_3.index t (0 : Fin 2) * 2048 ≤ (i 0).val ∧ (i 0).val < win3_3.index t (0 : Fin 2) * 2048 + 2048
    omega
  | ⟨1, _⟩ =>
    show win3_3.index t (1 : Fin 2) * 1024 ≤ (i 1).val ∧ (i 1).val < win3_3.index t (1 : Fin 2) * 1024 + 1024
    omega

/-- The result array after region 3: at (b, ρ) the last product's entry (ρ, b) plus the bias of ρ. -/
theorem final3 (c : Dev nD) (dat : Pipeline.Dat τ (Elt Ideal) Unit ℕ (UR sig nD τ) ℕ cfg3 c)
    (hA : ∀ w, dat.A w = V c (Pipeline.arrRef spec3 w))
    (hafter : ∀ t : Fin cfg3.N, t.val % 16 = 15 → dat.after 3 t = out3 V c t) :
    dat.arrAt 3 cfg3.N = fun (j : S2048x4096.Idx) => Cert.Spec.next (V c main_arg1) (fun κ b => V c main_v2 (ix2 κ b)) (j 1) (j 0)
      + V c main_v3 (ix2 (0 : Fin 1) (j 1)) :=
  dat.arrAt_eq_of_cover 3 (G3 V c) (fun t hf => flushed3_eq V c dat hafter t hf) cover3

end Cert.KernelIdeal.Hand

end
-- ==== Proof.Assemble.lean ====
/-
  The four regions' results chained, and the one host line between them.

  Each region's output is a matrix product of the arrays it was entered with; the next region is entered with that
  output. Substituting each into the next gives the specification's chain
      out[b, i] = (W0 · (W1 · (W2 · (W3 · Uᵀ))))[i, b] + bias[i],
  once the [1, 4096] row the last region adds is known to be the bias: it is the bias reshaped, and a reshape that
  only adds a leading axis of extent one reads, at (0, i), its operand at i.
-/
import proofs.«116801_j83777632076060_2_alg».proof.Proof.Spec
import proofs.«116801_j83777632076060_2_alg».proof.Proof.Gen.KernelIdeal.Launch
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

/-- THE CHAIN. If A1 is the first product W3 · Uᵀ, A2 = W2 · A1, A3 = W1 · A2, and the row B holds the bias, then
    the table whose entry (b, i) is (W0 · A3)[i, b] + B[0, i] is the specified result. -/
theorem spec_chain (U : Cert.Spec.Wide) (W0 W1 W2 W3 : Cert.Spec.Sq) (bias : Cert.Spec.Row)
    (A1 A2 A3 : Cert.Spec.Tall) (B : (⟨2, ![1, 4096]⟩ : Shape).Idx → EReal)
    (hA1 : A1 = Cert.Spec.tall (Cert.Spec.first W3 U))
    (hA2 : A2 = Cert.Spec.tall (Cert.Spec.next W2 (fun κ b => A1 (ix2 κ b))))
    (hA3 : A3 = Cert.Spec.tall (Cert.Spec.next W1 (fun κ b => A2 (ix2 κ b))))
    (hB : ∀ i : Fin 4096, B (ix2 0 i) = bias (ix1 i)) :
    (fun j => Cert.Spec.next W0 (fun κ b => A3 (ix2 κ b)) (j 1) (j 0) + B (ix2 0 (j 1)))
      = Cert.Spec.out U W0 W1 W2 W3 bias := by
  subst hA1 hA2 hA3
  funext j
  show _ = Cert.Spec.y4 W0 W1 W2 W3 U (j 1) (j 0) + bias (ix1 (j 1))
  exact congrArg₂ (· + ·) rfl (hB (j 1))

/-- THE HOST LINE between regions 2 and 3 reshapes the [4096] bias to a [1, 4096] row: entry (0, i) of the row is
    entry i of the bias, whatever the other arrays hold. -/
theorem bias_row (Wv : Valuation τ sig (Elt Ideal)) (i : Fin 4096) :
    (StableHlo.after (hostOps3 (F := Ideal)) Wv (Proc.devRef .tc main_v3) : S1x4096.Idx → EReal) (ix2 0 i)
      = (Wv (Proc.devRef .tc main_arg5) : S4096.Idx → EReal) (ix1 i) := by
  have e : StableHlo.after (hostOps3 (F := Ideal)) Wv (Proc.devRef .tc main_v3)
      = fun j => shapeCast S1x4096 (Wv (Proc.devRef .tc main_arg5)) shapeCasts_S4096_S1x4096 j := by
    after_results
    rfl
  rw [e]
  exact shapeCast_a_1a_apply _ _ 0 i

end Cert.KernelIdeal.Hand

end
-- ==== Proof.KernelValue.lean ====
/-
  The value of the whole kernel program at the extended reals: its result buffer ends holding the specification's
      out[b, i] = (W0 · (W1 · (W2 · (W3 · Uᵀ))))[i, b] + bias[i]
  of the arrays it was launched with.

  The run leaves the result buffer at what the last region's write-backs leave. Each region's output is the matrix
  product of the arrays it was entered with; a region is entered with the launch contents of every array no earlier
  region wrote (a region changes no array but its own output, the host line none but the reshaped bias), and with the
  previous region's output. Substituting region after region gives the chain.
-/
import proofs.«116801_j83777632076060_2_alg».proof.Proof.Run
import proofs.«116801_j83777632076060_2_alg».proof.Proof.Value0
import proofs.«116801_j83777632076060_2_alg».proof.Proof.Value1
import proofs.«116801_j83777632076060_2_alg».proof.Proof.Value2
import proofs.«116801_j83777632076060_2_alg».proof.Proof.Value3
import proofs.«116801_j83777632076060_2_alg».proof.Proof.Assemble

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-! ## The arrays each region is entered with that no earlier region wrote: the launch contents -/

/-- Region 1's weight is as launched. -/
theorem entry1_weight (c : Dev nD) :
    W1 m ρ c (Proc.devRef .tc main_arg3) = m ((c.tc : Thread nD τ).loc main_arg3) :=
  W1_keep m ρ c main_arg3 (by decide)

/-- Region 2's weight is as launched. -/
theorem entry2_weight (c : Dev nD) :
    W2 m ρ c (Proc.devRef .tc main_arg2) = m ((c.tc : Thread nD τ).loc main_arg2) :=
  (W2_keep m ρ c main_arg2 (by decide)).trans (W1_keep m ρ c main_arg2 (by decide))

/-- Region 3's weight is as launched. -/
theorem entry3_weight (c : Dev nD) :
    W4 m ρ c (Proc.devRef .tc main_arg1) = m ((c.tc : Thread nD τ).loc main_arg1) :=
  (W4_keep m ρ c main_arg1 (by decide)).trans ((W3_keep m ρ c main_arg1 (by decide)).trans
    ((W2_keep m ρ c main_arg1 (by decide)).trans (W1_keep m ρ c main_arg1 (by decide))))

/-- Region 3's table is region 2's output: the host line does not write it. -/
theorem entry3_table (c : Dev nD) :
    W4 m ρ c (Proc.devRef .tc main_v2) = W3 m ρ c (Proc.devRef .tc main_v2) :=
  W4_keep m ρ c main_v2 (by decide)

/-- The bias the host line reshapes is as launched. -/
theorem entry3_bias (c : Dev nD) :
    W3 m ρ c (Proc.devRef .tc main_arg5) = m ((c.tc : Thread nD τ).loc main_arg5) :=
  (W3_keep m ρ c main_arg5 (by decide)).trans
    ((W2_keep m ρ c main_arg5 (by decide)).trans (W1_keep m ρ c main_arg5 (by decide)))

/-! ## Each region's output -/

/-- Region 0 leaves the first product of the launched weight and table. -/
theorem region0_out (c : Dev nD) :
    (W1 m ρ c (Proc.devRef .tc main_v0) : Cert.Spec.Tall)
      = Cert.Spec.tall (Cert.Spec.first (m ((c.tc : Thread nD τ).loc main_arg4)) (m ((c.tc : Thread nD τ).loc main_arg0))) :=
  (W1_arr m ρ c 2).trans (final0 (VW0 m ρ) c (dat0 (VW0 m ρ) c) (A_eq0 _ c) (fun t _ => after0_2 _ c t))

/-- Region 1 leaves the product of its launched weight with region 0's output. -/
theorem region1_out (c : Dev nD) :
    (W2 m ρ c (Proc.devRef .tc main_v1) : Cert.Spec.Tall)
      = Cert.Spec.tall (Cert.Spec.next (m ((c.tc : Thread nD τ).loc main_arg3))
          (fun κ b => (W1 m ρ c (Proc.devRef .tc main_v0) : Cert.Spec.Tall) (ix2 κ b))) := by
  refine (W2_arr m ρ c 2).trans
    ((final1 (VW1 m ρ) c (dat1 (VW1 m ρ) c) (A_eq1 _ c) (fun t _ => after1_2 _ c t)).trans ?_)
  show Cert.Spec.tall (Cert.Spec.next (W1 m ρ c (Proc.devRef .tc main_arg3))
    (fun κ b => (W1 m ρ c (Proc.devRef .tc main_v0) : Cert.Spec.Tall) (ix2 κ b))) = _
  rw [entry1_weight]

/-- Region 2 leaves the product of its launched weight with region 1's output. -/
theorem region2_out (c : Dev nD) :
    (W3 m ρ c (Proc.devRef .tc main_v2) : Cert.Spec.Tall)
      = Cert.Spec.tall (Cert.Spec.next (m ((c.tc : Thread nD τ).loc main_arg2))
          (fun κ b => (W2 m ρ c (Proc.devRef .tc main_v1) : Cert.Spec.Tall) (ix2 κ b))) := by
  refine (W3_arr m ρ c 2).trans
    ((final2 (VW2 m ρ) c (dat2 (VW2 m ρ) c) (A_eq2 _ c) (fun t _ => after2_2 _ c t)).trans ?_)
  show Cert.Spec.tall (Cert.Spec.next (W2 m ρ c (Proc.devRef .tc main_arg2))
    (fun κ b => (W2 m ρ c (Proc.devRef .tc main_v1) : Cert.Spec.Tall) (ix2 κ b))) = _
  rw [entry2_weight]

/-- The row region 3 adds is the launched bias. -/
theorem region3_row (c : Dev nD) (i : Fin 4096) :
    (W4 m ρ c (Proc.devRef .tc main_v3) : S1x4096.Idx → EReal) (ix2 0 i)
      = ((m ((c.tc : Thread nD τ).loc main_arg5)) : Cert.Spec.Row) (ix1 i) :=
  (bias_row (W3 m ρ c) i).trans (congrFun (entry3_bias m ρ c) (ix1 i))

/-! ## The result -/

/-- THE RESULT BUFFER after the run holds the specified table of the launched arrays. -/
theorem result_eq (c : Dev nD) :
    W5 (F := Ideal) m ρ c (Proc.devRef .tc main_v4)
      = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W5_arr m ρ c 3).trans
    ((final3 (VW4 m ρ) c (dat3 (VW4 m ρ) c) (A_eq3 _ c) (fun t _ => after3_3 _ c t)).trans ?_)
  show (fun j : S2048x4096.Idx =>
      Cert.Spec.next (W4 m ρ c (Proc.devRef .tc main_arg1))
        (fun κ b => (W4 m ρ c (Proc.devRef .tc main_v2) : Cert.Spec.Tall) (ix2 κ b)) (j 1) (j 0)
      + (W4 m ρ c (Proc.devRef .tc main_v3) : S1x4096.Idx → EReal) (ix2 (0 : Fin 1) (j 1))) = _
  rw [entry3_weight, entry3_table]
  exact spec_chain _ _ _ _ _ _
    (W1 m ρ c (Proc.devRef .tc main_v0)) (W2 m ρ c (Proc.devRef .tc main_v1)) (W3 m ρ c (Proc.devRef .tc main_v2))
    (W4 m ρ c (Proc.devRef .tc main_v3))
    (region0_out m ρ c) (region1_out m ρ c) (region2_out m ρ c) (region3_row m ρ c)

/-- THE KERNEL PROGRAM'S RUN at the extended reals: every weakly fair execution terminates with the result buffer at the
    specified table of the launched arrays and every argument array as launched. -/
theorem kernel_run :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v4)
        = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run _ _ _).mono (fun r h c => ⟨(h c).1.trans (result_eq m ρ c), (h c).2⟩) (run_main (F := Ideal) m ρ)

end Cert.KernelIdeal.Hand

end
-- ==== Proof.RefSide.lean ====
/-
  The reference program's side: its run read back index by index as the specification's `out`.
-/
import proofs.«116801_j83777632076060_2_alg».proof.Defs
import proofs.«116801_j83777632076060_2_alg».proof.Proof.Gen.ReferenceIdeal
import proofs.«116801_j83777632076060_2_alg».proof.Proof.Gen.ReferenceIdeal.Run
import proofs.«116801_j83777632076060_2_alg».proof.Proof.Gen.ReferenceIdeal.Read
import proofs.«116801_j83777632076060_2_alg».proof.Proof.Gen.Pre_finite_inputs
import proofs.«116801_j83777632076060_2_alg».proof.Proof.Spec

noncomputable section

namespace Cert.RefSide

open Idealize.ShloMosaic Idealize.ShloMosaic.TcCoe Idealize.SL.Sem Idealize.ShloMosaic.ValueIdx
open Cert.ReferenceIdeal Cert.ReferenceIdeal.Gen Cert.ReferenceIdeal.Read

/-- The extended-real tables of the program's three argument shapes. -/
abbrev Wide : Type := (⟨S2048x4096, .f32⟩ : BufTy).Contents (Elt Ideal)
abbrev Sq : Type := (⟨S4096x4096, .f32⟩ : BufTy).Contents (Elt Ideal)
abbrev Row : Type := (⟨S4096, .f32⟩ : BufTy).Contents (Elt Ideal)

/-! ## Index equations: the coordinates each operation reads -/

/-- The transpose of `U` reads `U` at the swapped coordinates. -/
theorem idx0_eq (k : Fin 4096) (b : Fin 2048) : idx_main_v0 (ix2 k b) = ix2 b k :=
  funext fun a => Fin.ext (by match a with | ⟨0, _⟩ => rfl | ⟨1, _⟩ => rfl)

/-- A product's entry (i, b) reads its left factor along row `i` … -/
theorem lidx1_eq (i : Fin 4096) (b : Fin 2048) (k : Fin 4096) : lidx_main_v1 (ix2 i b) k = ix2 i k :=
  funext fun a => Fin.ext (by match a with | ⟨0, _⟩ => rfl | ⟨1, _⟩ => rfl)
/-- … and its right factor along column `b`. -/
theorem ridx1_eq (i : Fin 4096) (b : Fin 2048) (k : Fin 4096) : ridx_main_v1 (ix2 i b) k = ix2 k b :=
  funext fun a => Fin.ext (by match a with | ⟨0, _⟩ => rfl | ⟨1, _⟩ => rfl)
theorem lidx2_eq (i : Fin 4096) (b : Fin 2048) (k : Fin 4096) : lidx_main_v2 (ix2 i b) k = ix2 i k :=
  funext fun a => Fin.ext (by match a with | ⟨0, _⟩ => rfl | ⟨1, _⟩ => rfl)
theorem ridx2_eq (i : Fin 4096) (b : Fin 2048) (k : Fin 4096) : ridx_main_v2 (ix2 i b) k = ix2 k b :=
  funext fun a => Fin.ext (by match a with | ⟨0, _⟩ => rfl | ⟨1, _⟩ => rfl)
theorem lidx3_eq (i : Fin 4096) (b : Fin 2048) (k : Fin 4096) : lidx_main_v3 (ix2 i b) k = ix2 i k :=
  funext fun a => Fin.ext (by match a with | ⟨0, _⟩ => rfl | ⟨1, _⟩ => rfl)
theorem ridx3_eq (i : Fin 4096) (b : Fin 2048) (k : Fin 4096) : ridx_main_v3 (ix2 i b) k = ix2 k b :=
  funext fun a => Fin.ext (by match a with | ⟨0, _⟩ => rfl | ⟨1, _⟩ => rfl)
theorem lidx4_eq (i : Fin 4096) (b : Fin 2048) (k : Fin 4096) : lidx_main_v4 (ix2 i b) k = ix2 i k :=
  funext fun a => Fin.ext (by match a with | ⟨0, _⟩ => rfl | ⟨1, _⟩ => rfl)
theorem ridx4_eq (i : Fin 4096) (b : Fin 2048) (k : Fin 4096) : ridx_main_v4 (ix2 i b) k = ix2 k b :=
  funext fun a => Fin.ext (by match a with | ⟨0, _⟩ => rfl | ⟨1, _⟩ => rfl)

/-- The last transpose reads the last product at the swapped coordinates. -/
theorem idx5_eq (b : Fin 2048) (i : Fin 4096) : idx_main_v5 (ix2 b i) = ix2 i b :=
  funext fun a => Fin.ext (by match a with | ⟨0, _⟩ => rfl | ⟨1, _⟩ => rfl)

/-- The bias broadcast along the rows reads the bias at the column. -/
theorem idx67_eq (b : Fin 2048) (i : Fin 4096) : idx_main_v6 (idx_main_v7 (ix2 b i)) = ix1 i :=
  funext fun a => Fin.ext (by match a with | ⟨0, _⟩ => rfl)

/-! ## The stages at an index -/

/-- The first product's entry: Σ_κ W3[i, κ] · U[b, κ]. -/
theorem v1_at (x0 : Wide) (x4 : Sq) (i : Fin 4096) (b : Fin 2048) :
    val_main_v1 (F := Ideal) x0 x4 (ix2 i b) = Cert.Spec.y1 x4 x0 i b := by
  rw [val_main_v1_apply]
  unfold Cert.Spec.y1 Cert.Spec.first
  refine Finset.sum_congr rfl fun k _ => ?_
  rw [lidx1_eq, ridx1_eq, val_main_v0_apply, idx0_eq]

/-- The second product's entry: Σ_κ W2[i, κ] · y1[κ, b]. -/
theorem v2_at (x0 : Wide) (x3 x4 : Sq) (i : Fin 4096) (b : Fin 2048) :
    val_main_v2 (F := Ideal) x0 x3 x4 (ix2 i b) = Cert.Spec.y2 x3 x4 x0 i b := by
  rw [val_main_v2_apply]
  unfold Cert.Spec.y2 Cert.Spec.next
  refine Finset.sum_congr rfl fun k _ => ?_
  rw [lidx2_eq, ridx2_eq, v1_at]

/-- The third product's entry: Σ_κ W1[i, κ] · y2[κ, b]. -/
theorem v3_at (x0 : Wide) (x2 x3 x4 : Sq) (i : Fin 4096) (b : Fin 2048) :
    val_main_v3 (F := Ideal) x0 x2 x3 x4 (ix2 i b) = Cert.Spec.y3 x2 x3 x4 x0 i b := by
  rw [val_main_v3_apply]
  unfold Cert.Spec.y3 Cert.Spec.next
  refine Finset.sum_congr rfl fun k _ => ?_
  rw [lidx3_eq, ridx3_eq, v2_at]

/-- The fourth product's entry: Σ_κ W0[i, κ] · y3[κ, b]. -/
theorem v4_at (x0 : Wide) (x1 x2 x3 x4 : Sq) (i : Fin 4096) (b : Fin 2048) :
    val_main_v4 (F := Ideal) x0 x1 x2 x3 x4 (ix2 i b) = Cert.Spec.y4 x1 x2 x3 x4 x0 i b := by
  rw [val_main_v4_apply]
  unfold Cert.Spec.y4 Cert.Spec.next
  refine Finset.sum_congr rfl fun k _ => ?_
  rw [lidx4_eq, ridx4_eq, v3_at]

/-- The reference's last stage is the specification: at row `b`, column `i` it is the fourth product's entry (i, b)
    plus the bias of column `i`. -/
theorem val_eq_out (x0 : Wide) (x1 x2 x3 x4 : Sq) (x5 : Row) :
    val_main_v8 (F := Ideal) x0 x1 x2 x3 x4 x5 = Cert.Spec.out x0 x1 x2 x3 x4 x5 := by
  funext j
  obtain ⟨b, i, rfl⟩ : ∃ (b : Fin 2048) (i : Fin 4096), j = ix2 b i := ⟨j 0, j 1, eq_ix2 j⟩
  rw [Cert.Spec.out_apply, val_main_v8_apply, val_main_v5_apply, val_main_v7_apply, val_main_v6_apply,
    idx5_eq, idx67_eq, v4_at]
  rfl

/-! ## The run -/

/-- The composed term of the nine operations — the transposed chain of four products plus the broadcast bias — is the
    specification `out` of the six argument tables. -/
theorem ref_value (x0 : Wide) (x1 x2 x3 x4 : Sq) (x5 : Row) :
    (addf (F := Ideal) (φ := .f32) (transpose (α := Ideal .f32) S2048x4096 [1, 0] (Host.dotGeneral (F := Ideal) (φ₁ := .f32) (φ₂ := .f32) dot_S4096x4096_S4096x2048_S4096x2048_1_0_0_1_n_n none (x1) (Host.dotGeneral (F := Ideal) (φ₁ := .f32) (φ₂ := .f32) dot_S4096x4096_S4096x2048_S4096x2048_1_0_0_1_n_n none (x2) (Host.dotGeneral (F := Ideal) (φ₁ := .f32) (φ₂ := .f32) dot_S4096x4096_S4096x2048_S4096x2048_1_0_0_1_n_n none (x3) (Host.dotGeneral (F := Ideal) (φ₁ := .f32) (φ₂ := .f32) dot_S4096x4096_S4096x2048_S4096x2048_1_0_0_1_n_n none (x4) (transpose (α := Ideal .f32) S4096x2048 [1, 0] (x0) transposes_S2048x4096_S4096x2048_1_0))))) transposes_S4096x2048_S2048x4096_1_0) (broadcastInDim (α := Ideal .f32) S2048x4096 ![0, 1] bcast_S1x4096_S2048x4096_0_1 (broadcastInDim (α := Ideal .f32) S1x4096 ![1] bcast_S4096_S1x4096_1 (x5))) : Wide)
      = Cert.Spec.out x0 x1 x2 x3 x4 x5 :=
  (val_main_v8_eq (F := Ideal) x0 x1 x2 x3 x4 x5).trans (val_eq_out x0 x1 x2 x3 x4 x5)

/-- From any memory with zero counters every weakly fair execution of the reference terminates with its result the
    specification `out` of the argument tables it was launched with, and those tables unchanged. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v8)
        = Cert.Spec.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run Cert.ReferenceIdeal.defs _ _).mono
    (fun _ h c => ⟨(h c).1.trans (ref_value _ _ _ _ _ _), (h c).2⟩)
    (Cert.ReferenceIdeal.Value.run (F := Ideal) m' ρ')

/-- The reference terminates from every admissible memory and leaves its six argument tables as it found them. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

end Cert.RefSide

end
-- ==== Proof.lean ====
/-
  The certificate of the chained product  out = (W0 · (W1 · (W2 · (W3 · Uᵀ))))ᵀ + bias.

  The kernel program runs four pipelined regions, each a 4 × 16 grid: an outer coordinate over bands of 1024 rows of
  the weight, an inner one over 16 slabs of 256 contracted coordinates, a scratch accumulator zeroed at the first
  slab, added to at every slab and written out at the last. Its frames (word level and idealized) come from one run
  of the four regions with the accumulator tracked through each grid. On the extended reals the accumulated slabs
  add up to the whole contraction — only associativity and commutativity of addition, and commutativity of the
  product for the last, transposed region — so each region leaves the specification's matrix product of what it was
  entered with, and the chain is the specification's `out`. The reference's four products, two transposes and
  broadcast bias are the same `out` read index by index. No operation of the kernel was rewritten by the
  idealization, so there is nothing to preserve.
-/
import proofs.«116801_j83777632076060_2_alg».proof.Defs
import proofs.«116801_j83777632076060_2_alg».proof.Proof.Gen.Kernel
import proofs.«116801_j83777632076060_2_alg».proof.Proof.Gen.KernelIdeal
import proofs.«116801_j83777632076060_2_alg».proof.Proof.Gen.ReferenceIdeal
import proofs.«116801_j83777632076060_2_alg».proof.Proof.Gen.Pre_finite_inputs
import proofs.«116801_j83777632076060_2_alg».proof.Proof.KRun
import proofs.«116801_j83777632076060_2_alg».proof.Proof.KernelValue
import proofs.«116801_j83777632076060_2_alg».proof.Proof.RefSide

noncomputable section

namespace Cert.Proof

open Idealize.ShloMosaic Idealize.SL.Sem

/-- The word-level kernel terminates from every memory and leaves its six argument arrays as launched. -/
theorem frame_p : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Hand.run_main (F := Bits) m ρ)

/-- So does the idealized kernel. -/
theorem frame_pi : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run_main (F := Ideal) m ρ)

/-- From memories agreeing on the arguments both idealized programs end with the specification's `out` of those
    arguments in their result buffers. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.KernelIdeal.Hand.kernel_run m ρ, ?_⟩
  refine (θ_run Cert.ReferenceIdeal.defs _ _).mono (fun _ h c => ⟨?_, (h c).2⟩) (Cert.RefSide.ref_run m' ρ')
  rw [(h c).1, (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_p, frame_pi, Cert.RefSide.frame_ri, trivial, algebraic⟩

end Cert.Proof

end
